-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part5 {F : FTy → Type} [FloatOps F] (main_v83 : IVec S_ 1) (main_v84 : FVec F S40 .f32) (main_cst_32 : FVec F S_ .f32) : IVec S_ 1 :=
  let main_v85 : FVec F S40 .f32 := broadcastInDim S40 ![] bcast_S_S40 main_cst_32
  let main_v86 : IVec S40 1 := cmpf .olt main_v84 main_v85
  let main_c_33 : IVec S_ 1 := constantI S_ 1 1#1
  let main_v87 : IVec S_ 1 := (fun x v => Host.reduce IntOp.andi x v reducesTo_S40_S_d0 h_S_) main_v86 main_c_33
  let main_v88 : IVec S_ 1 := andi main_v83 main_v87
  main_v88

def fn_part4 {F : FTy → Type} [FloatOps F] (main_arg18 : FVec F S256x256 .f32) (main_arg19 : FVec F S256 .f32) (main_arg20 : FVec F S256x40 .f32) (main_arg21 : FVec F S40 .f32) (main_v63 : IVec S_ 1) (main_v67 : IVec S_ 1) : IVec S_ 1 :=
  let main_v68 : IVec S_ 1 := andi main_v63 main_v67
  let main_v69 : FVec F S256x256 .f32 := Host.absf main_arg18
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg19
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x40 .f32 := Host.absf main_arg20
  let main_cst_30 : FVec F S_ .f32 := constant S_ .f32 0x7F800000#32
  let main_v80 : FVec F S256x40 .f32 := broadcastInDim S256x40 ![] bcast_S_S256x40 main_cst_30
  let main_v81 : IVec S256x40 1 := cmpf .olt main_v79 main_v80
  let main_c_31 : IVec S_ 1 := constantI S_ 1 1#1
  let main_v82 : IVec S_ 1 := (fun x v => Host.reduce IntOp.andi x v reducesTo_S256x40_S_d0_1 h_S_) main_v81 main_c_31
  let main_v83 : IVec S_ 1 := andi main_v78 main_v82
  let main_v84 : FVec F S40 .f32 := Host.absf main_arg21
  let main_cst_32 : FVec F S_ .f32 := constant S_ .f32 0x7F800000#32
  fn_part5 (F := F) main_v83 main_v84 main_cst_32

def fn_part3 {F : FTy → Type} [FloatOps F] (main_arg15 : FVec F S128x128 .f32) (main_arg16 : FVec F S128x128 .f32) (main_arg17 : FVec F S128 .f32) (main_arg18 : FVec F S256x256 .f32) (main_arg19 : FVec F S256 .f32) (main_arg20 : FVec F S256x40 .f32) (main_arg21 : FVec F S40 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg15
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg16
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg18 main_arg19 main_arg20 main_arg21 main_v63 main_v67

def fn_part2 {F : FTy → Type} [FloatOps F] (main_arg11 : FVec F S128 .f32) (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S256x256 .f32) (main_arg19 : FVec F S256 .f32) (main_arg20 : FVec F S256x40 .f32) (main_arg21 : FVec F S40 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg13
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg14
  let main_cst_18 : FVec F S_ .f32 := constant S_ .f32 0x7F800000#32
  let main_v50 : FVec F S128 .f32 := broadcastInDim S128 ![] bcast_S_S128 main_cst_18
  fn_part3 (F := F) main_arg15 main_arg16 main_arg17 main_arg18 main_arg19 main_arg20 main_arg21 main_v48 main_v49 main_v50

def fn_part1 {F : FTy → Type} [FloatOps F] (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S256x256 .f32) (main_arg19 : FVec F S256 .f32) (main_arg20 : FVec F S256x40 .f32) (main_arg21 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_v33

def fn {F : FTy → Type} [FloatOps F] (main_arg0 : FVec F S100000x128 .f32) (main_arg1 : FVec F S100000x128 .f32) (main_arg2 : IVec S1600000 32) (main_arg3 : IVec S1600000 32) (main_arg4 : IVec S1600000 32) (main_arg5 : IVec S1600000 32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S256x256 .f32) (main_arg19 : FVec F S256 .f32) (main_arg20 : FVec F S256x40 .f32) (main_arg21 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_arg9 main_arg10 main_arg11 main_arg12 main_arg13 main_arg14 main_arg15 main_arg16 main_arg17 main_arg18 main_arg19 main_arg20 main_arg21 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x40 : Shape := ⟨2, ![256, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S2000x128 : Shape := ⟨2, ![2000, 128]⟩
abbrev S1x128 : Shape := ⟨2, ![1, 128]⟩
abbrev S128x256 : Shape := ⟨2, ![128, 256]⟩
abbrev S100000x40 : Shape := ⟨2, ![100000, 40]⟩
abbrev S2000x40 : Shape := ⟨2, ![2000, 40]⟩
abbrev S2000x256 : Shape := ⟨2, ![2000, 256]⟩
abbrev S1x256 : Shape := ⟨2, ![1, 256]⟩
abbrev S1x40 : Shape := ⟨2, ![1, 40]⟩

abbrev nBuf : Space → Nat
  | .hbm => 165
  | .vmem => 47
  | .smem => 0
  | _ => 0

abbrev hbmTy0_0 (i : Nat) : BufTy := match i % 128 with
  | 0 => ⟨S100000x128, .f32⟩
  | 1 => ⟨S100000x128, .f32⟩
  | 2 => ⟨S1600000, .i32⟩
  | 3 => ⟨S1600000, .i32⟩
  | 4 => ⟨S1600000, .i32⟩
  | 5 => ⟨S1600000, .i32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S128x128, .f32⟩
  | 17 => ⟨S128, .f32⟩
  | 18 => ⟨S256x256, .f32⟩
  | 19 => ⟨S256, .f32⟩
  | 20 => ⟨S256x40, .f32⟩
  | 21 => ⟨S40, .f32⟩
  | 22 => ⟨S_, .f32⟩
  | 23 => ⟨S1600000, .f32⟩
  | 24 => ⟨S_, .f32⟩
  | 25 => ⟨S100000, .f32⟩
  | 26 => ⟨S1600000x1, .i32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S_, .f32⟩
  | 38 => ⟨S100000x128, .f32⟩
  | 39 => ⟨S1600000x1, .i32⟩
  | 40 => ⟨S100000x128, .f32⟩
  | 41 => ⟨S100000x1, .f32⟩
  | 42 => ⟨S_, .f32⟩
  | 43 => ⟨S100000x1, .f32⟩
  | 44 => ⟨S100000x1, .i1⟩
  | 45 => ⟨S_, .f32⟩
  | 46 => ⟨S100000, .f32⟩
  | 47 => ⟨S100000, .f32⟩
  | 48 => ⟨S100000x1, .f32⟩
  | 49 => ⟨S100000x128, .f32⟩
  | 50 => ⟨S100000x128, .f32⟩
  | 51 => ⟨S_, .f32⟩
  | 52 => ⟨S_, .f32⟩
  | 53 => ⟨S100000x128, .i1⟩
  | 54 => ⟨S100000x128, .f32⟩
  | 55 => ⟨S100000x128, .f32⟩
  | 56 => ⟨S100000x128, .f32⟩
  | 57 => ⟨S_, .f32⟩
  | 58 => ⟨S1600000, .f32⟩
  | 59 => ⟨S_, .f32⟩
  | 60 => ⟨S100000, .f32⟩
  | 61 => ⟨S1600000x1, .i32⟩
  | 62 => ⟨S100000, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x128, .f32⟩
  | 72 => ⟨S_, .f32⟩
  | 73 => ⟨S100000x128, .f32⟩
  | 74 => ⟨S1600000x1, .i32⟩
  | 75 => ⟨S100000x128, .f32⟩
  | 76 => ⟨S100000x1, .f32⟩
  | 77 => ⟨S_, .f32⟩
  | 78 => ⟨S100000x1, .f32⟩
  | 79 => ⟨S100000x1, .i1⟩
  | 80 => ⟨S_, .f32⟩
  | 81 => ⟨S100000, .f32⟩
  | 82 => ⟨S100000, .f32⟩
  | 83 => ⟨S100000x1, .f32⟩
  | 84 => ⟨S100000x128, .f32⟩
  | 85 => ⟨S100000x128, .f32⟩
  | 86 => ⟨S_, .f32⟩
  | 87 => ⟨S_, .f32⟩
  | 88 => ⟨S100000x128, .i1⟩
  | 89 => ⟨S100000x128, .f32⟩
  | 90 => ⟨S100000x128, .f32⟩
  | 91 => ⟨S100000x128, .f32⟩
  | 92 => ⟨S_, .f32⟩
  | 93 => ⟨S1600000, .f32⟩
  | 94 => ⟨S_, .f32⟩
  | 95 => ⟨S100000, .f32⟩
  | 96 => ⟨S1600000x1, .i32⟩
  | 97 => ⟨S100000, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x128, .f32⟩
  | 107 => ⟨S_, .f32⟩
  | 108 => ⟨S100000x128, .f32⟩
  | 109 => ⟨S1600000x1, .i32⟩
  | 110 => ⟨S100000x128, .f32⟩
  | 111 => ⟨S100000x1, .f32⟩
  | 112 => ⟨S_, .f32⟩
  | 113 => ⟨S100000x1, .f32⟩
  | 114 => ⟨S100000x1, .i1⟩
  | 115 => ⟨S_, .f32⟩
  | 116 => ⟨S100000, .f32⟩
  | 117 => ⟨S100000, .f32⟩
  | 118 => ⟨S100000x1, .f32⟩
  | 119 => ⟨S100000x128, .f32⟩
  | 120 => ⟨S100000x128, .f32⟩
  | 121 => ⟨S_, .f32⟩
  | 122 => ⟨S_, .f32⟩
  | 123 => ⟨S100000x128, .i1⟩
  | 124 => ⟨S100000x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S1600000, .f32⟩
  | 1 => ⟨S_, .f32⟩
  | 2 => ⟨S100000, .f32⟩
  | 3 => ⟨S1600000x1, .i32⟩
  | 4 => ⟨S100000, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x128, .f32⟩
  | 14 => ⟨S_, .f32⟩
  | 15 => ⟨S100000x128, .f32⟩
  | 16 => ⟨S1600000x1, .i32⟩
  | 17 => ⟨S100000x128, .f32⟩
  | 18 => ⟨S100000x1, .f32⟩
  | 19 => ⟨S_, .f32⟩
  | 20 => ⟨S100000x1, .f32⟩
  | 21 => ⟨S100000x1, .i1⟩
  | 22 => ⟨S_, .f32⟩
  | 23 => ⟨S100000, .f32⟩
  | 24 => ⟨S100000, .f32⟩
  | 25 => ⟨S100000x1, .f32⟩
  | 26 => ⟨S100000x128, .f32⟩
  | 27 => ⟨S100000x128, .f32⟩
  | 28 => ⟨S_, .f32⟩
  | 29 => ⟨S_, .f32⟩
  | 30 => ⟨S100000x128, .i1⟩
  | 31 => ⟨S100000x128, .f32⟩
  | 32 => ⟨S100000x128, .f32⟩
  | 33 => ⟨S100000x128, .f32⟩
  | 34 => ⟨S128x256, .f32⟩
  | 35 => ⟨S128x256, .f32⟩
  | 36 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128x128, .f32⟩
  | .local _ .vmem, ⟨24, _⟩ => ⟨S128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S128x128, .f32⟩
  | .local _ .vmem, ⟨32, _⟩ => ⟨S128x128, .f32⟩
  | .local _ .vmem, ⟨33, _⟩ => ⟨S128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S128x256, .f32⟩
  | .local _ .vmem, ⟨41, _⟩ => ⟨S128x256, .f32⟩
  | .local _ .vmem, ⟨42, _⟩ => ⟨S256, .f32⟩
  | .local _ .vmem, ⟨43, _⟩ => ⟨S256x40, .f32⟩
  | .local _ .vmem, ⟨44, _⟩ => ⟨S40, .f32⟩
  | .local _ .vmem, ⟨45, _⟩ => ⟨S2000x40, .f32⟩
  | .local _ .vmem, ⟨46, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_cst_0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_1 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst_3 : Ref sig .tc := ⟨.hbm, 42, rfl⟩
abbrev main_v15 : Ref sig .tc := ⟨.hbm, 43, rfl⟩
abbrev main_v16 : Ref sig .tc := ⟨.hbm, 44, rfl⟩
abbrev main_cst_4 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_5 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v22 : Ref sig .tc := ⟨.hbm, 55, rfl⟩
abbrev main_v23 : Ref sig .tc := ⟨.hbm, 56, rfl⟩
abbrev main_cst_6 : Ref sig .tc := ⟨.hbm, 57, rfl⟩
abbrev main_v24 : Ref sig .tc := ⟨.hbm, 58, rfl⟩
abbrev main_cst_7 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_c_8 : Ref sig .tc := ⟨.hbm, 63, rfl⟩
abbrev main_v28 : Ref sig .tc := ⟨.hbm, 64, rfl⟩
abbrev main_v29 : Ref sig .tc := ⟨.hbm, 65, rfl⟩
abbrev main_c_9 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_10 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_11 : Ref sig .tc := ⟨.hbm, 77, rfl⟩
abbrev main_v39 : Ref sig .tc := ⟨.hbm, 78, rfl⟩
abbrev main_v40 : Ref sig .tc := ⟨.hbm, 79, rfl⟩
abbrev main_cst_12 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v46 : Ref sig .tc := ⟨.hbm, 90, rfl⟩
abbrev main_v47 : Ref sig .tc := ⟨.hbm, 91, rfl⟩
abbrev main_cst_14 : Ref sig .tc := ⟨.hbm, 92, rfl⟩
abbrev main_v48 : Ref sig .tc := ⟨.hbm, 93, rfl⟩
abbrev main_cst_15 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_c_16 : Ref sig .tc := ⟨.hbm, 98, rfl⟩
abbrev main_v52 : Ref sig .tc := ⟨.hbm, 99, rfl⟩
abbrev main_v53 : Ref sig .tc := ⟨.hbm, 100, rfl⟩
abbrev main_c_17 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_cst_18 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_19 : Ref sig .tc := ⟨.hbm, 112, rfl⟩
abbrev main_v63 : Ref sig .tc := ⟨.hbm, 113, rfl⟩
abbrev main_v64 : Ref sig .tc := ⟨.hbm, 114, rfl⟩
abbrev main_cst_20 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_cst_21 : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_v70 : Ref sig .tc := ⟨.hbm, 125, rfl⟩
abbrev main_v71 : Ref sig .tc := ⟨.hbm, 126, rfl⟩
abbrev main_cst_22 : Ref sig .tc := ⟨.hbm, 127, rfl⟩
abbrev main_v72 : Ref sig .tc := ⟨.hbm, 128, rfl⟩
abbrev main_cst_23 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_c_24 : Ref sig .tc := ⟨.hbm, 133, rfl⟩
abbrev main_v76 : Ref sig .tc := ⟨.hbm, 134, rfl⟩
abbrev main_v77 : Ref sig .tc := ⟨.hbm, 135, rfl⟩
abbrev main_c_25 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_26 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_cst_27 : Ref sig .tc := ⟨.hbm, 147, rfl⟩
abbrev main_v87 : Ref sig .tc := ⟨.hbm, 148, rfl⟩
abbrev main_v88 : Ref sig .tc := ⟨.hbm, 149, rfl⟩
abbrev main_cst_28 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_cst_29 : Ref sig .tc := ⟨.hbm, 156, rfl⟩
abbrev main_call3_v0 : Ref sig .tc := ⟨.hbm, 157, rfl⟩
abbrev main_call3_v1 : Ref sig .tc := ⟨.hbm, 158, rfl⟩
abbrev main_call3_v2 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg7_0 : Ref sig .tc := ⟨.vmem, 45, rfl⟩
abbrev cc4_stg7_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem7_0 : DmaSem sig := 45
abbrev cc4_sem7_1 : DmaSem sig := 46

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x40 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S40 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x40 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  slices_S256x256_S128x256_0_0 : S256x256.Slices ![0, 0] S128x256
  slices_S256x256_S128x256_128_0 : S256x256.Slices ![128, 0] S128x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x40_S256x40_0_0 : ∀ a, (![0, 0] : Fin 2 → Nat) a + S256x40.size a ≤ S256x40.size a
  h_S256x40 : 0 < S256x40.numel
  inb_S40_S40_0 : ∀ a, (![0] : Fin 1 → Nat) a + S40.size a ≤ S40.size a
  h_S40 : 0 < S40.numel
  shapeCasts_S40_S1x40 : S40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x256_S2000x256_1_0_0_1_n_n_wf : DotDims.WF S2000x128 S128x256 S2000x256 [1] [0] [0] [1] [] []
  dot_S2000x256_S256x40_S2000x40_1_0_0_1_n_n_wf : DotDims.WF S2000x256 S256x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x256.size a ≤ S128x256.size a
  hwx4_2 : ∀ i : grid4.Coords, EltTy.bits .f32 = 32 ∨ (Rect.block (s := S128x256) S128x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x256.size a ≤ S128x256.size a
  hwx4_3 : ∀ i : grid4.Coords, EltTy.bits .f32 = 32 ∨ (Rect.block (s := S128x256) S128x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256.size a ≤ S256.size a
  hwx4_4 : ∀ i : grid4.Coords, EltTy.bits .f32 = 32 ∨ (Rect.block (s := S256) S256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x40.size a ≤ S256x40.size a
  hwx4_5 : ∀ i : grid4.Coords, EltTy.bits .f32 = 32 ∨ (Rect.block (s := S256x40) S256x40.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S40.size a ≤ S40.size a
  hwx4_6 : ∀ i : grid4.Coords, EltTy.bits .f32 = 32 ∨ (Rect.block (s := S40) S40.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x40.size a ≤ S100000x40.size a
  hwx4_7 : ∀ i : grid4.Coords, EltTy.bits .f32 = 32 ∨ (Rect.block (s := S100000x40) S2000x40.size (cc4_transform_7 i) (hinb4_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v71) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v94) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg15) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg16) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg17) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v95) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v47) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v95) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v96) S128x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v97) S128x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg19) S256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg20) S256x40.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg21) S40.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v98) S2000x40.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x40 : Shape := ⟨2, ![256, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x256 : Shape := ⟨2, ![100000, 256]⟩
abbrev S1x256 : Shape := ⟨2, ![1, 256]⟩
abbrev S100000x40 : Shape := ⟨2, ![100000, 40]⟩
abbrev S1x40 : Shape := ⟨2, ![1, 40]⟩

abbrev nBuf : Space → Nat
  | .hbm => 206
  | .vmem => 0
  | .smem => 0
  | _ => 0

abbrev hbmTy0_0 (i : Nat) : BufTy := match i % 128 with
  | 0 => ⟨S100000x128, .f32⟩
  | 1 => ⟨S100000x128, .f32⟩
  | 2 => ⟨S1600000, .i32⟩
  | 3 => ⟨S1600000, .i32⟩
  | 4 => ⟨S1600000, .i32⟩
  | 5 => ⟨S1600000, .i32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S128x128, .f32⟩
  | 17 => ⟨S128, .f32⟩
  | 18 => ⟨S256x256, .f32⟩
  | 19 => ⟨S256, .f32⟩
  | 20 => ⟨S256x40, .f32⟩
  | 21 => ⟨S40, .f32⟩
  | 22 => ⟨S_, .f32⟩
  | 23 => ⟨S1600000, .f32⟩
  | 24 => ⟨S_, .f32⟩
  | 25 => ⟨S100000, .f32⟩
  | 26 => ⟨S1600000x1, .i32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S_, .f32⟩
  | 38 => ⟨S100000x128, .f32⟩
  | 39 => ⟨S1600000x1, .i32⟩
  | 40 => ⟨S100000x128, .f32⟩
  | 41 => ⟨S100000x1, .f32⟩
  | 42 => ⟨S_, .f32⟩
  | 43 => ⟨S100000x1, .f32⟩
  | 44 => ⟨S100000x1, .i1⟩
  | 45 => ⟨S_, .f32⟩
  | 46 => ⟨S100000, .f32⟩
  | 47 => ⟨S100000, .f32⟩
  | 48 => ⟨S100000x1, .f32⟩
  | 49 => ⟨S100000x128, .f32⟩
  | 50 => ⟨S100000x128, .f32⟩
  | 51 => ⟨S_, .f32⟩
  | 52 => ⟨S_, .f32⟩
  | 53 => ⟨S100000x128, .i1⟩
  | 54 => ⟨S100000x128, .f32⟩
  | 55 => ⟨S100000x128, .f32⟩
  | 56 => ⟨S100000x128, .f32⟩
  | 57 => ⟨S100000x128, .f32⟩
  | 58 => ⟨S100000x128, .f32⟩
  | 59 => ⟨S1x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S_, .f32⟩
  | 66 => ⟨S1600000, .f32⟩
  | 67 => ⟨S_, .f32⟩
  | 68 => ⟨S100000, .f32⟩
  | 69 => ⟨S1600000x1, .i32⟩
  | 70 => ⟨S100000, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .f32⟩
  | 80 => ⟨S_, .f32⟩
  | 81 => ⟨S100000x128, .f32⟩
  | 82 => ⟨S1600000x1, .i32⟩
  | 83 => ⟨S100000x128, .f32⟩
  | 84 => ⟨S100000x1, .f32⟩
  | 85 => ⟨S_, .f32⟩
  | 86 => ⟨S100000x1, .f32⟩
  | 87 => ⟨S100000x1, .i1⟩
  | 88 => ⟨S_, .f32⟩
  | 89 => ⟨S100000, .f32⟩
  | 90 => ⟨S100000, .f32⟩
  | 91 => ⟨S100000x1, .f32⟩
  | 92 => ⟨S100000x128, .f32⟩
  | 93 => ⟨S100000x128, .f32⟩
  | 94 => ⟨S_, .f32⟩
  | 95 => ⟨S_, .f32⟩
  | 96 => ⟨S100000x128, .i1⟩
  | 97 => ⟨S100000x128, .f32⟩
  | 98 => ⟨S100000x128, .f32⟩
  | 99 => ⟨S100000x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S_, .f32⟩
  | 109 => ⟨S1600000, .f32⟩
  | 110 => ⟨S_, .f32⟩
  | 111 => ⟨S100000, .f32⟩
  | 112 => ⟨S1600000x1, .i32⟩
  | 113 => ⟨S100000, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x128, .f32⟩
  | 123 => ⟨S_, .f32⟩
  | 124 => ⟨S100000x128, .f32⟩
  | 125 => ⟨S1600000x1, .i32⟩
  | 126 => ⟨S100000x128, .f32⟩
  | 127 => ⟨S100000x1, .f32⟩
  | _ => ⟨S100000x128, .f32⟩

abbrev hbmTy0_1 (i : Nat) : BufTy := match i % 128 with
  | 0 => ⟨S_, .f32⟩
  | 1 => ⟨S100000x1, .f32⟩
  | 2 => ⟨S100000x1, .i1⟩
  | 3 => ⟨S_, .f32⟩
  | 4 => ⟨S100000, .f32⟩
  | 5 => ⟨S100000, .f32⟩
  | 6 => ⟨S100000x1, .f32⟩
  | 7 => ⟨S100000x128, .f32⟩
  | 8 => ⟨S100000x128, .f32⟩
  | 9 => ⟨S_, .f32⟩
  | 10 => ⟨S_, .f32⟩
  | 11 => ⟨S100000x128, .i1⟩
  | 12 => ⟨S100000x128, .f32⟩
  | 13 => ⟨S100000x128, .f32⟩
  | 14 => ⟨S100000x128, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S_, .f32⟩
  | 24 => ⟨S1600000, .f32⟩
  | 25 => ⟨S_, .f32⟩
  | 26 => ⟨S100000, .f32⟩
  | 27 => ⟨S1600000x1, .i32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S100000x1, .f32⟩
  | 43 => ⟨S_, .f32⟩
  | 44 => ⟨S100000x1, .f32⟩
  | 45 => ⟨S100000x1, .i1⟩
  | 46 => ⟨S_, .f32⟩
  | 47 => ⟨S100000, .f32⟩
  | 48 => ⟨S100000, .f32⟩
  | 49 => ⟨S100000x1, .f32⟩
  | 50 => ⟨S100000x128, .f32⟩
  | 51 => ⟨S100000x128, .f32⟩
  | 52 => ⟨S_, .f32⟩
  | 53 => ⟨S_, .f32⟩
  | 54 => ⟨S100000x128, .i1⟩
  | 55 => ⟨S100000x128, .f32⟩
  | 56 => ⟨S100000x128, .f32⟩
  | 57 => ⟨S100000x128, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S100000x128, .f32⟩
  | 65 => ⟨S100000x128, .f32⟩
  | 66 => ⟨S100000x256, .f32⟩
  | 67 => ⟨S100000x256, .f32⟩
  | 68 => ⟨S1x256, .f32⟩
  | 69 => ⟨S100000x256, .f32⟩
  | 70 => ⟨S100000x256, .f32⟩
  | 71 => ⟨S_, .f32⟩
  | 72 => ⟨S100000x256, .f32⟩
  | 73 => ⟨S100000x256, .f32⟩
  | 74 => ⟨S100000x40, .f32⟩
  | 75 => ⟨S1x40, .f32⟩
  | 76 => ⟨S100000x40, .f32⟩
  | 77 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_cst_0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_1 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst_3 : Ref sig .tc := ⟨.hbm, 42, rfl⟩
abbrev main_v15 : Ref sig .tc := ⟨.hbm, 43, rfl⟩
abbrev main_v16 : Ref sig .tc := ⟨.hbm, 44, rfl⟩
abbrev main_cst_4 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_5 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_call1_cst : Ref sig .tc := ⟨.hbm, 62, rfl⟩
abbrev main_call1_v0 : Ref sig .tc := ⟨.hbm, 63, rfl⟩
abbrev main_v29 : Ref sig .tc := ⟨.hbm, 64, rfl⟩
abbrev main_cst_6 : Ref sig .tc := ⟨.hbm, 65, rfl⟩
abbrev main_v30 : Ref sig .tc := ⟨.hbm, 66, rfl⟩
abbrev main_cst_7 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_c_8 : Ref sig .tc := ⟨.hbm, 71, rfl⟩
abbrev main_v34 : Ref sig .tc := ⟨.hbm, 72, rfl⟩
abbrev main_v35 : Ref sig .tc := ⟨.hbm, 73, rfl⟩
abbrev main_c_9 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_10 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_11 : Ref sig .tc := ⟨.hbm, 85, rfl⟩
abbrev main_v45 : Ref sig .tc := ⟨.hbm, 86, rfl⟩
abbrev main_v46 : Ref sig .tc := ⟨.hbm, 87, rfl⟩
abbrev main_cst_12 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_cst_13 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_call3_cst : Ref sig .tc := ⟨.hbm, 105, rfl⟩
abbrev main_call3_v0 : Ref sig .tc := ⟨.hbm, 106, rfl⟩
abbrev main_v59 : Ref sig .tc := ⟨.hbm, 107, rfl⟩
abbrev main_cst_14 : Ref sig .tc := ⟨.hbm, 108, rfl⟩
abbrev main_v60 : Ref sig .tc := ⟨.hbm, 109, rfl⟩
abbrev main_cst_15 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_c_16 : Ref sig .tc := ⟨.hbm, 114, rfl⟩
abbrev main_v64 : Ref sig .tc := ⟨.hbm, 115, rfl⟩
abbrev main_v65 : Ref sig .tc := ⟨.hbm, 116, rfl⟩
abbrev main_c_17 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_cst_18 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_cst_19 : Ref sig .tc := ⟨.hbm, 128, rfl⟩
abbrev main_v75 : Ref sig .tc := ⟨.hbm, 129, rfl⟩
abbrev main_v76 : Ref sig .tc := ⟨.hbm, 130, rfl⟩
abbrev main_cst_20 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_cst_21 : Ref sig .tc := ⟨.hbm, 137, rfl⟩
abbrev main_call4_v0 : Ref sig .tc := ⟨.hbm, 138, rfl⟩
abbrev main_call4_v1 : Ref sig .tc := ⟨.hbm, 139, rfl⟩
abbrev main_call4_v2 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_call5_cst : Ref sig .tc := ⟨.hbm, 148, rfl⟩
abbrev main_call5_v0 : Ref sig .tc := ⟨.hbm, 149, rfl⟩
abbrev main_v89 : Ref sig .tc := ⟨.hbm, 150, rfl⟩
abbrev main_cst_22 : Ref sig .tc := ⟨.hbm, 151, rfl⟩
abbrev main_v90 : Ref sig .tc := ⟨.hbm, 152, rfl⟩
abbrev main_cst_23 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_c_24 : Ref sig .tc := ⟨.hbm, 157, rfl⟩
abbrev main_v94 : Ref sig .tc := ⟨.hbm, 158, rfl⟩
abbrev main_v95 : Ref sig .tc := ⟨.hbm, 159, rfl⟩
abbrev main_c_25 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_cst_26 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_cst_27 : Ref sig .tc := ⟨.hbm, 171, rfl⟩
abbrev main_v105 : Ref sig .tc := ⟨.hbm, 172, rfl⟩
abbrev main_v106 : Ref sig .tc := ⟨.hbm, 173, rfl⟩
abbrev main_cst_28 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_cst_29 : Ref sig .tc := ⟨.hbm, 180, rfl⟩
abbrev main_call6_v0 : Ref sig .tc := ⟨.hbm, 181, rfl⟩
abbrev main_call6_v1 : Ref sig .tc := ⟨.hbm, 182, rfl⟩
abbrev main_call6_v2 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_call7_cst : Ref sig .tc := ⟨.hbm, 191, rfl⟩
abbrev main_call7_v0 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_call8_cst : Ref sig .tc := ⟨.hbm, 199, rfl⟩
abbrev main_call8_v0 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x256_S256x256_S100000x256_1_0_0_1_n_n_wf : DotDims.WF S100000x256 S256x256 S100000x256 [1] [0] [0] [1] [] []
  dot_S100000x256_S256x40_S100000x40_1_0_0_1_n_n_wf : DotDims.WF S100000x256 S256x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x40_S100000x40_1_0_0_1_n_n : DotDims S100000x256 S256x40 S100000x40 where
  lhsContracting := [1]
  rhsContracting := [0]
  lhsNonContracting := [0]
  rhsNonContracting := [1]
  lhsBatch := []
  rhsBatch := []
  wf := dot_S100000x256_S256x40_S100000x40_1_0_0_1_n_n_wf

class Facts : Prop extends Facts₀ where

variable [Facts]
-- ==== Proof.Stages.lean ====
/-
  The network both programs compute, stage by stage, as whole-array terms over the host operations.

  A party's node features pass twice through a GraphSAGE layer with the mean aggregator: the in-degree of a node is the
  number of edges whose destination it is (a scatter-add of ones), the neighbour sum adds the source rows of those
  edges (a row gather followed by a scatter-add), the mean is the sum over the degree clamped below by one where the
  degree is positive and zero elsewhere, and the layer is relu (h · W_self + mean · W_neigh + b). The two parties' final
  features are joined along the feature axis and pass through a two-layer classifier,
  relu ([ha | hb] · W₁ + b₁) · W₂ + b₂.
-/
import proofs.«148162_j58136677319060_1_alg».proof.Proof.Gen.ReferenceIdeal
import Idealize.ShloMosaic.PureOps.Ideal

noncomputable section

namespace Cert.Stages

open Cert.ReferenceIdeal Cert.ReferenceIdeal.Gen Idealize.ShloMosaic Idealize.ShloMosaic.TcCoe Idealize.SL.Sem Idealize.ShloMosaic.StableHlo

variable {F : FTy → Type} [FloatOps F]

/-- The neighbour mean of the rows of `h` along the edges `src → dst`: the scatter-add over destinations of the
    gathered source rows, divided by max (in-degree, 1), kept where the in-degree is positive and zero elsewhere. A
    negative source index is first wrapped by the number of nodes. -/
def neighbourMean (h : (⟨S100000x128, .f32⟩ : BufTy).Contents (Elt F)) (src dst : (⟨S1600000, .i32⟩ : BufTy).Contents (Elt F)) : (⟨S100000x128, .f32⟩ : BufTy).Contents (Elt F) :=
  select (broadcastInDim S100000x128 ![0, 1] bcast_S100000x1_S100000x128_0_1 (cmpf .ogt (broadcastInDim S100000x1 ![0] bcast_S100000_S100000x1_0 (Host.scatterAdd (F := F) scatter_S100000_S1600000x1_S1600000_n_0_0_1 (broadcastInDim S100000 ![] bcast_S_S100000 (constant (F := F) S_ .f32 0x00000000#32)) (broadcastInDim S1600000x1 ![0] bcast_S1600000_S1600000x1_0 dst) (broadcastInDim S1600000 ![] bcast_S_S1600000 (constant (F := F) S_ .f32 0x3F800000#32)))) (broadcastInDim S100000x1 ![] bcast_S_S100000x1 (constant (F := F) S_ .f32 0x00000000#32)))) (Host.divf (F := F) (Host.scatterAdd (F := F) scatter_S100000x128_S1600000x1_S1600000x128_1_0_0_1 (broadcastInDim S100000x128 ![] bcast_S_S100000x128 (constant (F := F) S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (broadcastInDim S100000x1 ![0] bcast_S100000_S100000x1_0 (maximumf (Host.scatterAdd (F := F) scatter_S100000_S1600000x1_S1600000_n_0_0_1 (broadcastInDim S100000 ![] bcast_S_S100000 (constant (F := F) S_ .f32 0x00000000#32)) (broadcastInDim S1600000x1 ![0] bcast_S1600000_S1600000x1_0 dst) (broadcastInDim S1600000 ![] bcast_S_S1600000 (constant (F := F) S_ .f32 0x3F800000#32))) (broadcastInDim S100000 ![] bcast_S_S100000 (constant (F := F) S_ .f32 0x3F800000#32)))))) (broadcastInDim S100000x128 ![] bcast_S_S100000x128 (id (constant (F := F) S_ .f32 0x00000000#32)))

/-- One GraphSAGE layer: relu (h · W_self + mean · W_neigh + b), the bias broadcast along the rows. -/
def sageLayer (h mean : (⟨S100000x128, .f32⟩ : BufTy).Contents (Elt F)) (ws wn : (⟨S128x128, .f32⟩ : BufTy).Contents (Elt F)) (b : (⟨S128, .f32⟩ : BufTy).Contents (Elt F)) : (⟨S100000x128, .f32⟩ : BufTy).Contents (Elt F) :=
  maximumf (addf (addf (Host.dotGeneral (F := F) dot_S100000x128_S128x128_S100000x128_1_0_0_1_n_n none h ws) (Host.dotGeneral (F := F) dot_S100000x128_S128x128_S100000x128_1_0_0_1_n_n none mean wn)) (broadcastInDim S100000x128 ![0, 1] bcast_S1x128_S100000x128_0_1 (broadcastInDim S1x128 ![1] bcast_S128_S1x128_1 b))) (broadcastInDim S100000x128 ![] bcast_S_S100000x128 (constant (F := F) S_ .f32 0x00000000#32))

/-- A party's two layers, each over the neighbour mean of its own input. -/
def party (x : (⟨S100000x128, .f32⟩ : BufTy).Contents (Elt F)) (src dst : (⟨S1600000, .i32⟩ : BufTy).Contents (Elt F)) (ws0 wn0 : (⟨S128x128, .f32⟩ : BufTy).Contents (Elt F)) (b0 : (⟨S128, .f32⟩ : BufTy).Contents (Elt F)) (ws1 wn1 : (⟨S128x128, .f32⟩ : BufTy).Contents (Elt F)) (b1 : (⟨S128, .f32⟩ : BufTy).Contents (Elt F)) : (⟨S100000x128, .f32⟩ : BufTy).Contents (Elt F) :=
  sageLayer (sageLayer x (neighbourMean x src dst) ws0 wn0 b0) (neighbourMean (sageLayer x (neighbourMean x src dst) ws0 wn0 b0) src dst) ws1 wn1 b1

/-- The classifier on the two parties' features joined along the feature axis: relu ([ha | hb] · W₁ + b₁) · W₂ + b₂. -/
def classifier (ha hb : (⟨S100000x128, .f32⟩ : BufTy).Contents (Elt F)) (wf1 : (⟨S256x256, .f32⟩ : BufTy).Contents (Elt F)) (bf1 : (⟨S256, .f32⟩ : BufTy).Contents (Elt F))
    (wf2 : (⟨S256x40, .f32⟩ : BufTy).Contents (Elt F)) (bf2 : (⟨S40, .f32⟩ : BufTy).Contents (Elt F)) : (⟨S100000x40, .f32⟩ : BufTy).Contents (Elt F) :=
  addf (Host.dotGeneral (F := F) dot_S100000x256_S256x40_S100000x40_1_0_0_1_n_n none (maximumf (addf (Host.dotGeneral (F := F) dot_S100000x256_S256x256_S100000x256_1_0_0_1_n_n none (concatenate S100000x256 1 [⟨S100000x128, ha⟩, ⟨S100000x128, hb⟩] concatenates_S100000x128_S100000x128_S100000x256_d1) wf1) (broadcastInDim S100000x256 ![0, 1] bcast_S1x256_S100000x256_0_1 (broadcastInDim S1x256 ![1] bcast_S256_S1x256_1 bf1))) (broadcastInDim S100000x256 ![] bcast_S_S100000x256 (constant (F := F) S_ .f32 0x00000000#32))) wf2) (broadcastInDim S100000x40 ![0, 1] bcast_S1x40_S100000x40_0_1 (broadcastInDim S1x40 ![1] bcast_S40_S1x40_1 bf2))

end Cert.Stages

end
-- ==== Proof.RefSide.lean ====
/-
  The reference's result is the network of the stages: its run ends with the result buffer at the operations'
  composed term of the launch arrays, and that term is the classifier of the two parties' two-layer features.
-/
import proofs.«148162_j58136677319060_1_alg».proof.Proof.RefRun
import proofs.«148162_j58136677319060_1_alg».proof.Proof.Stages

set_option maxRecDepth 16384

noncomputable section

namespace Cert.Stages

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The composed term of the reference's operations is the network of the stages at the launch arrays. -/
theorem reference_result (m : (ℓ : Loc nD τ sig) → Buf (Elt F) ℓ) (c : Dev nD) :
    Cert.ReferenceIdeal.ValueP.res_main_v129 m c
      = classifier
      (party (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))
      (party (m ((c.tc : Thread nD τ).loc main_arg1)) (m ((c.tc : Thread nD τ).loc main_arg4)) (m ((c.tc : Thread nD τ).loc main_arg5)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)))
      (m ((c.tc : Thread nD τ).loc main_arg18)) (m ((c.tc : Thread nD τ).loc main_arg19)) (m ((c.tc : Thread nD τ).loc main_arg20)) (m ((c.tc : Thread nD τ).loc main_arg21)) := by
  unfold Cert.ReferenceIdeal.ValueP.res_main_v129 classifier party sageLayer neighbourMean
  rfl

end Cert.Stages

end
-- ==== Proof.KernelRun.lean ====
/-
  The idealized kernel's run, with the contents every buffer ends with. The program is five kernel regions among
  stretches of host operations; the buffer contents at each boundary are a fold from the launch memory (a stretch
  applies its operations, a region replaces each of its arrays by what its write-backs leave), and every weakly fair
  execution terminates, nothing faulting, with every buffer that outlives the run at the fold's last value.
-/
import proofs.«148162_j58136677319060_1_alg».proof.Proof.Gen.KernelIdeal.Frame

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in every final state each buffer that
    outlives the run holds the last value of the fold through the stretches and regions. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

end Cert.KernelIdeal.Final

end
-- ==== Proof.Args.lean ====
/-
  The argument arrays through the run. No host operation and no region writes an argument: a stretch of host operations
  writes only its own results, and a region writes only its result array (an argument it reads through an input window
  comes out as it went in). So at every boundary between stretches and regions where it is still to be read, each
  argument holds its launch contents. One lemma per argument and boundary, each one step on from the boundary before.
-/
import proofs.«148162_j58136677319060_1_alg».proof.Proof.Gen.KernelIdeal.Frame

set_option maxRecDepth 16384

noncomputable section

namespace Cert.KernelIdeal.Args

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem arg0_at1 (c : Dev nD) : W1 m ρ c (Proc.devRef .tc main_arg0) = m ((c : Thread nD τ).loc main_arg0) :=
  (StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (rfl)
theorem arg0_at2 (c : Dev nD) : W2 m ρ c (Proc.devRef .tc main_arg0) = m ((c : Thread nD τ).loc main_arg0) :=
  (StableHlo.after_of_forall_not_mem (b := Proc.devRef .tc main_arg0) _ _ (List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg0_at1 m ρ c)

theorem arg1_at1 (c : Dev nD) : W1 m ρ c (Proc.devRef .tc main_arg1) = m ((c : Thread nD τ).loc main_arg1) :=
  (StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (rfl)
theorem arg1_at2 (c : Dev nD) : W2 m ρ c (Proc.devRef .tc main_arg1) = m ((c : Thread nD τ).loc main_arg1) :=
  (StableHlo.after_of_forall_not_mem (b := Proc.devRef .tc main_arg1) _ _ (List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg1_at1 m ρ c)
theorem arg1_at3 (c : Dev nD) : W3 m ρ c (Proc.devRef .tc main_arg1) = m ((c : Thread nD τ).loc main_arg1) :=
  (W3_of_ne m ρ c main_arg1 (by decide)).trans (arg1_at2 m ρ c)
theorem arg1_at4 (c : Dev nD) : W4 m ρ c (Proc.devRef .tc main_arg1) = m ((c : Thread nD τ).loc main_arg1) :=
  (StableHlo.after_of_forall_not_mem (b := Proc.devRef .tc main_arg1) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg1_at3 m ρ c)
theorem arg1_at5 (c : Dev nD) : W5 m ρ c (Proc.devRef .tc main_arg1) = m ((c : Thread nD τ).loc main_arg1) :=
  (StableHlo.after_of_forall_not_mem (b := Proc.devRef .tc main_arg1) _ _ (List.forall_iff_forall_mem.mp (by
    simp only [hostOps1_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg1_at4 m ρ c)
theorem arg1_at6 (c : Dev nD) : W6 m ρ c (Proc.devRef .tc main_arg1) = m ((c : Thread nD τ).loc main_arg1) :=
  (W6_of_ne m ρ c main_arg1 (by decide)).trans (arg1_at5 m ρ c)
theorem arg1_at7 (c : Dev nD) : W7 m ρ c (Proc.devRef .tc main_arg1) = m ((c : Thread nD τ).loc main_arg1) :=
  (StableHlo.after_of_forall_not_mem (b := Proc.devRef .tc main_arg1) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg1_at6 m ρ c)
theorem arg1_at8 (c : Dev nD) : W8 m ρ c (Proc.devRef .tc main_arg1) = m ((c : Thread nD τ).loc main_arg1) :=
  (StableHlo.after_of_forall_not_mem (b := Proc.devRef .tc main_arg1) _ _ (List.forall_iff_forall_mem.mp (by
    simp only [hostOps2_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg1_at7 m ρ c)

theorem arg2_at1 (c : Dev nD) : W1 m ρ c (Proc.devRef .tc main_arg2) = m ((c : Thread nD τ).loc main_arg2) :=
  (StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (rfl)
theorem arg2_at2 (c : Dev nD) : W2 m ρ c (Proc.devRef .tc main_arg2) = m ((c : Thread nD τ).loc main_arg2) :=
  (StableHlo.after_of_forall_not_mem (b := Proc.devRef .tc main_arg2) _ _ (List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg2_at1 m ρ c)
theorem arg2_at3 (c : Dev nD) : W3 m ρ c (Proc.devRef .tc main_arg2) = m ((c : Thread nD τ).loc main_arg2) :=
  (W3_of_ne m ρ c main_arg2 (by decide)).trans (arg2_at2 m ρ c)

theorem arg3_at1 (c : Dev nD) : W1 m ρ c (Proc.devRef .tc main_arg3) = m ((c : Thread nD τ).loc main_arg3) :=
  (StableHlo.after_of_forall_not_mem (b := Proc.devRef .tc main_arg3) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (rfl)
theorem arg3_at2 (c : Dev nD) : W2 m ρ c (Proc.devRef .tc main_arg3) = m ((c : Thread nD τ).loc main_arg3) :=
  (StableHlo.after_of_forall_not_mem (b := Proc.devRef .tc main_arg3) _ _ (List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg3_at1 m ρ c)
theorem arg3_at3 (c : Dev nD) : W3 m ρ c (Proc.devRef .tc main_arg3) = m ((c : Thread nD τ).loc main_arg3) :=
  (W3_of_ne m ρ c main_arg3 (by decide)).trans (arg3_at2 m ρ c)

theorem arg4_at1 (c : Dev nD) : W1 m ρ c (Proc.devRef .tc main_arg4) = m ((c : Thread nD τ).loc main_arg4) :=
  (StableHlo.after_of_forall_not_mem (b := Proc.devRef .tc main_arg4) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (rfl)
theorem arg4_at2 (c : Dev nD) : W2 m ρ c (Proc.devRef .tc main_arg4) = m ((c : Thread nD τ).loc main_arg4) :=
  (StableHlo.after_of_forall_not_mem (b := Proc.devRef .tc main_arg4) _ _ (List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg4_at1 m ρ c)
theorem arg4_at3 (c : Dev nD) : W3 m ρ c (Proc.devRef .tc main_arg4) = m ((c : Thread nD τ).loc main_arg4) :=
  (W3_of_ne m ρ c main_arg4 (by decide)).trans (arg4_at2 m ρ c)
theorem arg4_at4 (c : Dev nD) : W4 m ρ c (Proc.devRef .tc main_arg4) = m ((c : Thread nD τ).loc main_arg4) :=
  (StableHlo.after_of_forall_not_mem (b := Proc.devRef .tc main_arg4) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg4_at3 m ρ c)
theorem arg4_at5 (c : Dev nD) : W5 m ρ c (Proc.devRef .tc main_arg4) = m ((c : Thread nD τ).loc main_arg4) :=
  (StableHlo.after_of_forall_not_mem (b := Proc.devRef .tc main_arg4) _ _ (List.forall_iff_forall_mem.mp (by
    simp only [hostOps1_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg4_at4 m ρ c)
theorem arg4_at6 (c : Dev nD) : W6 m ρ c (Proc.devRef .tc main_arg4) = m ((c : Thread nD τ).loc main_arg4) :=
  (W6_of_ne m ρ c main_arg4 (by decide)).trans (arg4_at5 m ρ c)
theorem arg4_at7 (c : Dev nD) : W7 m ρ c (Proc.devRef .tc main_arg4) = m ((c : Thread nD τ).loc main_arg4) :=
  (StableHlo.after_of_forall_not_mem (b := Proc.devRef .tc main_arg4) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg4_at6 m ρ c)
theorem arg4_at8 (c : Dev nD) : W8 m ρ c (Proc.devRef .tc main_arg4) = m ((c : Thread nD τ).loc main_arg4) :=
  (StableHlo.after_of_forall_not_mem (b := Proc.devRef .tc main_arg4) _ _ (List.forall_iff_forall_mem.mp (by
    simp only [hostOps2_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg4_at7 m ρ c)
theorem arg4_at9 (c : Dev nD) : W9 m ρ c (Proc.devRef .tc main_arg4) = m ((c : Thread nD τ).loc main_arg4) :=
  (W9_of_ne m ρ c main_arg4 (by decide)).trans (arg4_at8 m ρ c)

theorem arg5_at1 (c : Dev nD) : W1 m ρ c (Proc.devRef .tc main_arg5) = m ((c : Thread nD τ).loc main_arg5) :=
  (StableHlo.after_of_forall_not_mem (b := Proc.devRef .tc main_arg5) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (rfl)
theorem arg5_at2 (c : Dev nD) : W2 m ρ c (Proc.devRef .tc main_arg5) = m ((c : Thread nD τ).loc main_arg5) :=
  (StableHlo.after_of_forall_not_mem (b := Proc.devRef .tc main_arg5) _ _ (List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg5_at1 m ρ c)
theorem arg5_at3 (c : Dev nD) : W3 m ρ c (Proc.devRef .tc main_arg5) = m ((c : Thread nD τ).loc main_arg5) :=
  (W3_of_ne m ρ c main_arg5 (by decide)).trans (arg5_at2 m ρ c)
theorem arg5_at4 (c : Dev nD) : W4 m ρ c (Proc.devRef .tc main_arg5) = m ((c : Thread nD τ).loc main_arg5) :=
  (StableHlo.after_of_forall_not_mem (b := Proc.devRef .tc main_arg5) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg5_at3 m ρ c)
theorem arg5_at5 (c : Dev nD) : W5 m ρ c (Proc.devRef .tc main_arg5) = m ((c : Thread nD τ).loc main_arg5) :=
  (StableHlo.after_of_forall_not_mem (b := Proc.devRef .tc main_arg5) _ _ (List.forall_iff_forall_mem.mp (by
    simp only [hostOps1_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg5_at4 m ρ c)
theorem arg5_at6 (c : Dev nD) : W6 m ρ c (Proc.devRef .tc main_arg5) = m ((c : Thread nD τ).loc main_arg5) :=
  (W6_of_ne m ρ c main_arg5 (by decide)).trans (arg5_at5 m ρ c)
theorem arg5_at7 (c : Dev nD) : W7 m ρ c (Proc.devRef .tc main_arg5) = m ((c : Thread nD τ).loc main_arg5) :=
  (StableHlo.after_of_forall_not_mem (b := Proc.devRef .tc main_arg5) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg5_at6 m ρ c)
theorem arg5_at8 (c : Dev nD) : W8 m ρ c (Proc.devRef .tc main_arg5) = m ((c : Thread nD τ).loc main_arg5) :=
  (StableHlo.after_of_forall_not_mem (b := Proc.devRef .tc main_arg5) _ _ (List.forall_iff_forall_mem.mp (by
    simp only [hostOps2_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg5_at7 m ρ c)
theorem arg5_at9 (c : Dev nD) : W9 m ρ c (Proc.devRef .tc main_arg5) = m ((c : Thread nD τ).loc main_arg5) :=
  (W9_of_ne m ρ c main_arg5 (by decide)).trans (arg5_at8 m ρ c)

theorem arg6_at1 (c : Dev nD) : W1 m ρ c (Proc.devRef .tc main_arg6) = m ((c : Thread nD τ).loc main_arg6) :=
  (StableHlo.after_of_forall_not_mem (b := Proc.devRef .tc main_arg6) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (rfl)
theorem arg6_at2 (c : Dev nD) : W2 m ρ c (Proc.devRef .tc main_arg6) = m ((c : Thread nD τ).loc main_arg6) :=
  (StableHlo.after_of_forall_not_mem (b := Proc.devRef .tc main_arg6) _ _ (List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg6_at1 m ρ c)

theorem arg7_at1 (c : Dev nD) : W1 m ρ c (Proc.devRef .tc main_arg7) = m ((c : Thread nD τ).loc main_arg7) :=
  (StableHlo.after_of_forall_not_mem (b := Proc.devRef .tc main_arg7) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (rfl)
theorem arg7_at2 (c : Dev nD) : W2 m ρ c (Proc.devRef .tc main_arg7) = m ((c : Thread nD τ).loc main_arg7) :=
  (StableHlo.after_of_forall_not_mem (b := Proc.devRef .tc main_arg7) _ _ (List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg7_at1 m ρ c)

theorem arg8_at1 (c : Dev nD) : W1 m ρ c (Proc.devRef .tc main_arg8) = m ((c : Thread nD τ).loc main_arg8) :=
  (StableHlo.after_of_forall_not_mem (b := Proc.devRef .tc main_arg8) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (rfl)
theorem arg8_at2 (c : Dev nD) : W2 m ρ c (Proc.devRef .tc main_arg8) = m ((c : Thread nD τ).loc main_arg8) :=
  (StableHlo.after_of_forall_not_mem (b := Proc.devRef .tc main_arg8) _ _ (List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg8_at1 m ρ c)

theorem arg9_at1 (c : Dev nD) : W1 m ρ c (Proc.devRef .tc main_arg9) = m ((c : Thread nD τ).loc main_arg9) :=
  (StableHlo.after_of_forall_not_mem (b := Proc.devRef .tc main_arg9) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (rfl)
theorem arg9_at2 (c : Dev nD) : W2 m ρ c (Proc.devRef .tc main_arg9) = m ((c : Thread nD τ).loc main_arg9) :=
  (StableHlo.after_of_forall_not_mem (b := Proc.devRef .tc main_arg9) _ _ (List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg9_at1 m ρ c)
theorem arg9_at3 (c : Dev nD) : W3 m ρ c (Proc.devRef .tc main_arg9) = m ((c : Thread nD τ).loc main_arg9) :=
  (W3_of_ne m ρ c main_arg9 (by decide)).trans (arg9_at2 m ρ c)
theorem arg9_at4 (c : Dev nD) : W4 m ρ c (Proc.devRef .tc main_arg9) = m ((c : Thread nD τ).loc main_arg9) :=
  (StableHlo.after_of_forall_not_mem (b := Proc.devRef .tc main_arg9) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg9_at3 m ρ c)
theorem arg9_at5 (c : Dev nD) : W5 m ρ c (Proc.devRef .tc main_arg9) = m ((c : Thread nD τ).loc main_arg9) :=
  (StableHlo.after_of_forall_not_mem (b := Proc.devRef .tc main_arg9) _ _ (List.forall_iff_forall_mem.mp (by
    simp only [hostOps1_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg9_at4 m ρ c)

theorem arg10_at1 (c : Dev nD) : W1 m ρ c (Proc.devRef .tc main_arg10) = m ((c : Thread nD τ).loc main_arg10) :=
  (StableHlo.after_of_forall_not_mem (b := Proc.devRef .tc main_arg10) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (rfl)
theorem arg10_at2 (c : Dev nD) : W2 m ρ c (Proc.devRef .tc main_arg10) = m ((c : Thread nD τ).loc main_arg10) :=
  (StableHlo.after_of_forall_not_mem (b := Proc.devRef .tc main_arg10) _ _ (List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg10_at1 m ρ c)
theorem arg10_at3 (c : Dev nD) : W3 m ρ c (Proc.devRef .tc main_arg10) = m ((c : Thread nD τ).loc main_arg10) :=
  (W3_of_ne m ρ c main_arg10 (by decide)).trans (arg10_at2 m ρ c)
theorem arg10_at4 (c : Dev nD) : W4 m ρ c (Proc.devRef .tc main_arg10) = m ((c : Thread nD τ).loc main_arg10) :=
  (StableHlo.after_of_forall_not_mem (b := Proc.devRef .tc main_arg10) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg10_at3 m ρ c)
theorem arg10_at5 (c : Dev nD) : W5 m ρ c (Proc.devRef .tc main_arg10) = m ((c : Thread nD τ).loc main_arg10) :=
  (StableHlo.after_of_forall_not_mem (b := Proc.devRef .tc main_arg10) _ _ (List.forall_iff_forall_mem.mp (by
    simp only [hostOps1_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg10_at4 m ρ c)

theorem arg11_at1 (c : Dev nD) : W1 m ρ c (Proc.devRef .tc main_arg11) = m ((c : Thread nD τ).loc main_arg11) :=
  (StableHlo.after_of_forall_not_mem (b := Proc.devRef .tc main_arg11) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (rfl)
theorem arg11_at2 (c : Dev nD) : W2 m ρ c (Proc.devRef .tc main_arg11) = m ((c : Thread nD τ).loc main_arg11) :=
  (StableHlo.after_of_forall_not_mem (b := Proc.devRef .tc main_arg11) _ _ (List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg11_at1 m ρ c)
theorem arg11_at3 (c : Dev nD) : W3 m ρ c (Proc.devRef .tc main_arg11) = m ((c : Thread nD τ).loc main_arg11) :=
  (W3_of_ne m ρ c main_arg11 (by decide)).trans (arg11_at2 m ρ c)
theorem arg11_at4 (c : Dev nD) : W4 m ρ c (Proc.devRef .tc main_arg11) = m ((c : Thread nD τ).loc main_arg11) :=
  (StableHlo.after_of_forall_not_mem (b := Proc.devRef .tc main_arg11) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg11_at3 m ρ c)
theorem arg11_at5 (c : Dev nD) : W5 m ρ c (Proc.devRef .tc main_arg11) = m ((c : Thread nD τ).loc main_arg11) :=
  (StableHlo.after_of_forall_not_mem (b := Proc.devRef .tc main_arg11) _ _ (List.forall_iff_forall_mem.mp (by
    simp only [hostOps1_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg11_at4 m ρ c)

theorem arg12_at1 (c : Dev nD) : W1 m ρ c (Proc.devRef .tc main_arg12) = m ((c : Thread nD τ).loc main_arg12) :=
  (StableHlo.after_of_forall_not_mem (b := Proc.devRef .tc main_arg12) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (rfl)
theorem arg12_at2 (c : Dev nD) : W2 m ρ c (Proc.devRef .tc main_arg12) = m ((c : Thread nD τ).loc main_arg12) :=
  (StableHlo.after_of_forall_not_mem (b := Proc.devRef .tc main_arg12) _ _ (List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg12_at1 m ρ c)
theorem arg12_at3 (c : Dev nD) : W3 m ρ c (Proc.devRef .tc main_arg12) = m ((c : Thread nD τ).loc main_arg12) :=
  (W3_of_ne m ρ c main_arg12 (by decide)).trans (arg12_at2 m ρ c)
theorem arg12_at4 (c : Dev nD) : W4 m ρ c (Proc.devRef .tc main_arg12) = m ((c : Thread nD τ).loc main_arg12) :=
  (StableHlo.after_of_forall_not_mem (b := Proc.devRef .tc main_arg12) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg12_at3 m ρ c)
theorem arg12_at5 (c : Dev nD) : W5 m ρ c (Proc.devRef .tc main_arg12) = m ((c : Thread nD τ).loc main_arg12) :=
  (StableHlo.after_of_forall_not_mem (b := Proc.devRef .tc main_arg12) _ _ (List.forall_iff_forall_mem.mp (by
    simp only [hostOps1_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg12_at4 m ρ c)
theorem arg12_at6 (c : Dev nD) : W6 m ρ c (Proc.devRef .tc main_arg12) = m ((c : Thread nD τ).loc main_arg12) :=
  (W6_of_ne m ρ c main_arg12 (by decide)).trans (arg12_at5 m ρ c)
theorem arg12_at7 (c : Dev nD) : W7 m ρ c (Proc.devRef .tc main_arg12) = m ((c : Thread nD τ).loc main_arg12) :=
  (StableHlo.after_of_forall_not_mem (b := Proc.devRef .tc main_arg12) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg12_at6 m ρ c)
theorem arg12_at8 (c : Dev nD) : W8 m ρ c (Proc.devRef .tc main_arg12) = m ((c : Thread nD τ).loc main_arg12) :=
  (StableHlo.after_of_forall_not_mem (b := Proc.devRef .tc main_arg12) _ _ (List.forall_iff_forall_mem.mp (by
    simp only [hostOps2_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg12_at7 m ρ c)

theorem arg13_at1 (c : Dev nD) : W1 m ρ c (Proc.devRef .tc main_arg13) = m ((c : Thread nD τ).loc main_arg13) :=
  (StableHlo.after_of_forall_not_mem (b := Proc.devRef .tc main_arg13) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (rfl)
theorem arg13_at2 (c : Dev nD) : W2 m ρ c (Proc.devRef .tc main_arg13) = m ((c : Thread nD τ).loc main_arg13) :=
  (StableHlo.after_of_forall_not_mem (b := Proc.devRef .tc main_arg13) _ _ (List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg13_at1 m ρ c)
theorem arg13_at3 (c : Dev nD) : W3 m ρ c (Proc.devRef .tc main_arg13) = m ((c : Thread nD τ).loc main_arg13) :=
  (W3_of_ne m ρ c main_arg13 (by decide)).trans (arg13_at2 m ρ c)
theorem arg13_at4 (c : Dev nD) : W4 m ρ c (Proc.devRef .tc main_arg13) = m ((c : Thread nD τ).loc main_arg13) :=
  (StableHlo.after_of_forall_not_mem (b := Proc.devRef .tc main_arg13) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg13_at3 m ρ c)
theorem arg13_at5 (c : Dev nD) : W5 m ρ c (Proc.devRef .tc main_arg13) = m ((c : Thread nD τ).loc main_arg13) :=
  (StableHlo.after_of_forall_not_mem (b := Proc.devRef .tc main_arg13) _ _ (List.forall_iff_forall_mem.mp (by
    simp only [hostOps1_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg13_at4 m ρ c)
theorem arg13_at6 (c : Dev nD) : W6 m ρ c (Proc.devRef .tc main_arg13) = m ((c : Thread nD τ).loc main_arg13) :=
  (W6_of_ne m ρ c main_arg13 (by decide)).trans (arg13_at5 m ρ c)
theorem arg13_at7 (c : Dev nD) : W7 m ρ c (Proc.devRef .tc main_arg13) = m ((c : Thread nD τ).loc main_arg13) :=
  (StableHlo.after_of_forall_not_mem (b := Proc.devRef .tc main_arg13) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg13_at6 m ρ c)
theorem arg13_at8 (c : Dev nD) : W8 m ρ c (Proc.devRef .tc main_arg13) = m ((c : Thread nD τ).loc main_arg13) :=
  (StableHlo.after_of_forall_not_mem (b := Proc.devRef .tc main_arg13) _ _ (List.forall_iff_forall_mem.mp (by
    simp only [hostOps2_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg13_at7 m ρ c)

theorem arg14_at1 (c : Dev nD) : W1 m ρ c (Proc.devRef .tc main_arg14) = m ((c : Thread nD τ).loc main_arg14) :=
  (StableHlo.after_of_forall_not_mem (b := Proc.devRef .tc main_arg14) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (rfl)
theorem arg14_at2 (c : Dev nD) : W2 m ρ c (Proc.devRef .tc main_arg14) = m ((c : Thread nD τ).loc main_arg14) :=
  (StableHlo.after_of_forall_not_mem (b := Proc.devRef .tc main_arg14) _ _ (List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg14_at1 m ρ c)
theorem arg14_at3 (c : Dev nD) : W3 m ρ c (Proc.devRef .tc main_arg14) = m ((c : Thread nD τ).loc main_arg14) :=
  (W3_of_ne m ρ c main_arg14 (by decide)).trans (arg14_at2 m ρ c)
theorem arg14_at4 (c : Dev nD) : W4 m ρ c (Proc.devRef .tc main_arg14) = m ((c : Thread nD τ).loc main_arg14) :=
  (StableHlo.after_of_forall_not_mem (b := Proc.devRef .tc main_arg14) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg14_at3 m ρ c)
theorem arg14_at5 (c : Dev nD) : W5 m ρ c (Proc.devRef .tc main_arg14) = m ((c : Thread nD τ).loc main_arg14) :=
  (StableHlo.after_of_forall_not_mem (b := Proc.devRef .tc main_arg14) _ _ (List.forall_iff_forall_mem.mp (by
    simp only [hostOps1_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg14_at4 m ρ c)
theorem arg14_at6 (c : Dev nD) : W6 m ρ c (Proc.devRef .tc main_arg14) = m ((c : Thread nD τ).loc main_arg14) :=
  (W6_of_ne m ρ c main_arg14 (by decide)).trans (arg14_at5 m ρ c)
theorem arg14_at7 (c : Dev nD) : W7 m ρ c (Proc.devRef .tc main_arg14) = m ((c : Thread nD τ).loc main_arg14) :=
  (StableHlo.after_of_forall_not_mem (b := Proc.devRef .tc main_arg14) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg14_at6 m ρ c)
theorem arg14_at8 (c : Dev nD) : W8 m ρ c (Proc.devRef .tc main_arg14) = m ((c : Thread nD τ).loc main_arg14) :=
  (StableHlo.after_of_forall_not_mem (b := Proc.devRef .tc main_arg14) _ _ (List.forall_iff_forall_mem.mp (by
    simp only [hostOps2_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg14_at7 m ρ c)

theorem arg15_at1 (c : Dev nD) : W1 m ρ c (Proc.devRef .tc main_arg15) = m ((c : Thread nD τ).loc main_arg15) :=
  (StableHlo.after_of_forall_not_mem (b := Proc.devRef .tc main_arg15) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (rfl)
theorem arg15_at2 (c : Dev nD) : W2 m ρ c (Proc.devRef .tc main_arg15) = m ((c : Thread nD τ).loc main_arg15) :=
  (StableHlo.after_of_forall_not_mem (b := Proc.devRef .tc main_arg15) _ _ (List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg15_at1 m ρ c)
theorem arg15_at3 (c : Dev nD) : W3 m ρ c (Proc.devRef .tc main_arg15) = m ((c : Thread nD τ).loc main_arg15) :=
  (W3_of_ne m ρ c main_arg15 (by decide)).trans (arg15_at2 m ρ c)
theorem arg15_at4 (c : Dev nD) : W4 m ρ c (Proc.devRef .tc main_arg15) = m ((c : Thread nD τ).loc main_arg15) :=
  (StableHlo.after_of_forall_not_mem (b := Proc.devRef .tc main_arg15) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg15_at3 m ρ c)
theorem arg15_at5 (c : Dev nD) : W5 m ρ c (Proc.devRef .tc main_arg15) = m ((c : Thread nD τ).loc main_arg15) :=
  (StableHlo.after_of_forall_not_mem (b := Proc.devRef .tc main_arg15) _ _ (List.forall_iff_forall_mem.mp (by
    simp only [hostOps1_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg15_at4 m ρ c)
theorem arg15_at6 (c : Dev nD) : W6 m ρ c (Proc.devRef .tc main_arg15) = m ((c : Thread nD τ).loc main_arg15) :=
  (W6_of_ne m ρ c main_arg15 (by decide)).trans (arg15_at5 m ρ c)
theorem arg15_at7 (c : Dev nD) : W7 m ρ c (Proc.devRef .tc main_arg15) = m ((c : Thread nD τ).loc main_arg15) :=
  (StableHlo.after_of_forall_not_mem (b := Proc.devRef .tc main_arg15) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg15_at6 m ρ c)
theorem arg15_at8 (c : Dev nD) : W8 m ρ c (Proc.devRef .tc main_arg15) = m ((c : Thread nD τ).loc main_arg15) :=
  (StableHlo.after_of_forall_not_mem (b := Proc.devRef .tc main_arg15) _ _ (List.forall_iff_forall_mem.mp (by
    simp only [hostOps2_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg15_at7 m ρ c)
theorem arg15_at9 (c : Dev nD) : W9 m ρ c (Proc.devRef .tc main_arg15) = m ((c : Thread nD τ).loc main_arg15) :=
  (W9_of_ne m ρ c main_arg15 (by decide)).trans (arg15_at8 m ρ c)
theorem arg15_at10 (c : Dev nD) : W10 m ρ c (Proc.devRef .tc main_arg15) = m ((c : Thread nD τ).loc main_arg15) :=
  (StableHlo.after_of_forall_not_mem (b := Proc.devRef .tc main_arg15) _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg15_at9 m ρ c)
theorem arg15_at11 (c : Dev nD) : W11 m ρ c (Proc.devRef .tc main_arg15) = m ((c : Thread nD τ).loc main_arg15) :=
  (StableHlo.after_of_forall_not_mem (b := Proc.devRef .tc main_arg15) _ _ (List.forall_iff_forall_mem.mp (by
    simp only [hostOps3_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg15_at10 m ρ c)

theorem arg16_at1 (c : Dev nD) : W1 m ρ c (Proc.devRef .tc main_arg16) = m ((c : Thread nD τ).loc main_arg16) :=
  (StableHlo.after_of_forall_not_mem (b := Proc.devRef .tc main_arg16) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (rfl)
theorem arg16_at2 (c : Dev nD) : W2 m ρ c (Proc.devRef .tc main_arg16) = m ((c : Thread nD τ).loc main_arg16) :=
  (StableHlo.after_of_forall_not_mem (b := Proc.devRef .tc main_arg16) _ _ (List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg16_at1 m ρ c)
theorem arg16_at3 (c : Dev nD) : W3 m ρ c (Proc.devRef .tc main_arg16) = m ((c : Thread nD τ).loc main_arg16) :=
  (W3_of_ne m ρ c main_arg16 (by decide)).trans (arg16_at2 m ρ c)
theorem arg16_at4 (c : Dev nD) : W4 m ρ c (Proc.devRef .tc main_arg16) = m ((c : Thread nD τ).loc main_arg16) :=
  (StableHlo.after_of_forall_not_mem (b := Proc.devRef .tc main_arg16) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg16_at3 m ρ c)
theorem arg16_at5 (c : Dev nD) : W5 m ρ c (Proc.devRef .tc main_arg16) = m ((c : Thread nD τ).loc main_arg16) :=
  (StableHlo.after_of_forall_not_mem (b := Proc.devRef .tc main_arg16) _ _ (List.forall_iff_forall_mem.mp (by
    simp only [hostOps1_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg16_at4 m ρ c)
theorem arg16_at6 (c : Dev nD) : W6 m ρ c (Proc.devRef .tc main_arg16) = m ((c : Thread nD τ).loc main_arg16) :=
  (W6_of_ne m ρ c main_arg16 (by decide)).trans (arg16_at5 m ρ c)
theorem arg16_at7 (c : Dev nD) : W7 m ρ c (Proc.devRef .tc main_arg16) = m ((c : Thread nD τ).loc main_arg16) :=
  (StableHlo.after_of_forall_not_mem (b := Proc.devRef .tc main_arg16) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg16_at6 m ρ c)
theorem arg16_at8 (c : Dev nD) : W8 m ρ c (Proc.devRef .tc main_arg16) = m ((c : Thread nD τ).loc main_arg16) :=
  (StableHlo.after_of_forall_not_mem (b := Proc.devRef .tc main_arg16) _ _ (List.forall_iff_forall_mem.mp (by
    simp only [hostOps2_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg16_at7 m ρ c)
theorem arg16_at9 (c : Dev nD) : W9 m ρ c (Proc.devRef .tc main_arg16) = m ((c : Thread nD τ).loc main_arg16) :=
  (W9_of_ne m ρ c main_arg16 (by decide)).trans (arg16_at8 m ρ c)
theorem arg16_at10 (c : Dev nD) : W10 m ρ c (Proc.devRef .tc main_arg16) = m ((c : Thread nD τ).loc main_arg16) :=
  (StableHlo.after_of_forall_not_mem (b := Proc.devRef .tc main_arg16) _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg16_at9 m ρ c)
theorem arg16_at11 (c : Dev nD) : W11 m ρ c (Proc.devRef .tc main_arg16) = m ((c : Thread nD τ).loc main_arg16) :=
  (StableHlo.after_of_forall_not_mem (b := Proc.devRef .tc main_arg16) _ _ (List.forall_iff_forall_mem.mp (by
    simp only [hostOps3_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg16_at10 m ρ c)

theorem arg17_at1 (c : Dev nD) : W1 m ρ c (Proc.devRef .tc main_arg17) = m ((c : Thread nD τ).loc main_arg17) :=
  (StableHlo.after_of_forall_not_mem (b := Proc.devRef .tc main_arg17) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (rfl)
theorem arg17_at2 (c : Dev nD) : W2 m ρ c (Proc.devRef .tc main_arg17) = m ((c : Thread nD τ).loc main_arg17) :=
  (StableHlo.after_of_forall_not_mem (b := Proc.devRef .tc main_arg17) _ _ (List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg17_at1 m ρ c)
theorem arg17_at3 (c : Dev nD) : W3 m ρ c (Proc.devRef .tc main_arg17) = m ((c : Thread nD τ).loc main_arg17) :=
  (W3_of_ne m ρ c main_arg17 (by decide)).trans (arg17_at2 m ρ c)
theorem arg17_at4 (c : Dev nD) : W4 m ρ c (Proc.devRef .tc main_arg17) = m ((c : Thread nD τ).loc main_arg17) :=
  (StableHlo.after_of_forall_not_mem (b := Proc.devRef .tc main_arg17) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg17_at3 m ρ c)
theorem arg17_at5 (c : Dev nD) : W5 m ρ c (Proc.devRef .tc main_arg17) = m ((c : Thread nD τ).loc main_arg17) :=
  (StableHlo.after_of_forall_not_mem (b := Proc.devRef .tc main_arg17) _ _ (List.forall_iff_forall_mem.mp (by
    simp only [hostOps1_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg17_at4 m ρ c)
theorem arg17_at6 (c : Dev nD) : W6 m ρ c (Proc.devRef .tc main_arg17) = m ((c : Thread nD τ).loc main_arg17) :=
  (W6_of_ne m ρ c main_arg17 (by decide)).trans (arg17_at5 m ρ c)
theorem arg17_at7 (c : Dev nD) : W7 m ρ c (Proc.devRef .tc main_arg17) = m ((c : Thread nD τ).loc main_arg17) :=
  (StableHlo.after_of_forall_not_mem (b := Proc.devRef .tc main_arg17) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg17_at6 m ρ c)
theorem arg17_at8 (c : Dev nD) : W8 m ρ c (Proc.devRef .tc main_arg17) = m ((c : Thread nD τ).loc main_arg17) :=
  (StableHlo.after_of_forall_not_mem (b := Proc.devRef .tc main_arg17) _ _ (List.forall_iff_forall_mem.mp (by
    simp only [hostOps2_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg17_at7 m ρ c)
theorem arg17_at9 (c : Dev nD) : W9 m ρ c (Proc.devRef .tc main_arg17) = m ((c : Thread nD τ).loc main_arg17) :=
  (W9_of_ne m ρ c main_arg17 (by decide)).trans (arg17_at8 m ρ c)
theorem arg17_at10 (c : Dev nD) : W10 m ρ c (Proc.devRef .tc main_arg17) = m ((c : Thread nD τ).loc main_arg17) :=
  (StableHlo.after_of_forall_not_mem (b := Proc.devRef .tc main_arg17) _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg17_at9 m ρ c)
theorem arg17_at11 (c : Dev nD) : W11 m ρ c (Proc.devRef .tc main_arg17) = m ((c : Thread nD τ).loc main_arg17) :=
  (StableHlo.after_of_forall_not_mem (b := Proc.devRef .tc main_arg17) _ _ (List.forall_iff_forall_mem.mp (by
    simp only [hostOps3_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg17_at10 m ρ c)

theorem arg18_at1 (c : Dev nD) : W1 m ρ c (Proc.devRef .tc main_arg18) = m ((c : Thread nD τ).loc main_arg18) :=
  (StableHlo.after_of_forall_not_mem (b := Proc.devRef .tc main_arg18) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (rfl)
theorem arg18_at2 (c : Dev nD) : W2 m ρ c (Proc.devRef .tc main_arg18) = m ((c : Thread nD τ).loc main_arg18) :=
  (StableHlo.after_of_forall_not_mem (b := Proc.devRef .tc main_arg18) _ _ (List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg18_at1 m ρ c)
theorem arg18_at3 (c : Dev nD) : W3 m ρ c (Proc.devRef .tc main_arg18) = m ((c : Thread nD τ).loc main_arg18) :=
  (W3_of_ne m ρ c main_arg18 (by decide)).trans (arg18_at2 m ρ c)
theorem arg18_at4 (c : Dev nD) : W4 m ρ c (Proc.devRef .tc main_arg18) = m ((c : Thread nD τ).loc main_arg18) :=
  (StableHlo.after_of_forall_not_mem (b := Proc.devRef .tc main_arg18) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg18_at3 m ρ c)
theorem arg18_at5 (c : Dev nD) : W5 m ρ c (Proc.devRef .tc main_arg18) = m ((c : Thread nD τ).loc main_arg18) :=
  (StableHlo.after_of_forall_not_mem (b := Proc.devRef .tc main_arg18) _ _ (List.forall_iff_forall_mem.mp (by
    simp only [hostOps1_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg18_at4 m ρ c)
theorem arg18_at6 (c : Dev nD) : W6 m ρ c (Proc.devRef .tc main_arg18) = m ((c : Thread nD τ).loc main_arg18) :=
  (W6_of_ne m ρ c main_arg18 (by decide)).trans (arg18_at5 m ρ c)
theorem arg18_at7 (c : Dev nD) : W7 m ρ c (Proc.devRef .tc main_arg18) = m ((c : Thread nD τ).loc main_arg18) :=
  (StableHlo.after_of_forall_not_mem (b := Proc.devRef .tc main_arg18) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg18_at6 m ρ c)
theorem arg18_at8 (c : Dev nD) : W8 m ρ c (Proc.devRef .tc main_arg18) = m ((c : Thread nD τ).loc main_arg18) :=
  (StableHlo.after_of_forall_not_mem (b := Proc.devRef .tc main_arg18) _ _ (List.forall_iff_forall_mem.mp (by
    simp only [hostOps2_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg18_at7 m ρ c)
theorem arg18_at9 (c : Dev nD) : W9 m ρ c (Proc.devRef .tc main_arg18) = m ((c : Thread nD τ).loc main_arg18) :=
  (W9_of_ne m ρ c main_arg18 (by decide)).trans (arg18_at8 m ρ c)
theorem arg18_at10 (c : Dev nD) : W10 m ρ c (Proc.devRef .tc main_arg18) = m ((c : Thread nD τ).loc main_arg18) :=
  (StableHlo.after_of_forall_not_mem (b := Proc.devRef .tc main_arg18) _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg18_at9 m ρ c)
theorem arg18_at11 (c : Dev nD) : W11 m ρ c (Proc.devRef .tc main_arg18) = m ((c : Thread nD τ).loc main_arg18) :=
  (StableHlo.after_of_forall_not_mem (b := Proc.devRef .tc main_arg18) _ _ (List.forall_iff_forall_mem.mp (by
    simp only [hostOps3_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg18_at10 m ρ c)
theorem arg18_at12 (c : Dev nD) : W12 m ρ c (Proc.devRef .tc main_arg18) = m ((c : Thread nD τ).loc main_arg18) :=
  (W12_of_ne m ρ c main_arg18 (by decide)).trans (arg18_at11 m ρ c)

theorem arg19_at1 (c : Dev nD) : W1 m ρ c (Proc.devRef .tc main_arg19) = m ((c : Thread nD τ).loc main_arg19) :=
  (StableHlo.after_of_forall_not_mem (b := Proc.devRef .tc main_arg19) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (rfl)
theorem arg19_at2 (c : Dev nD) : W2 m ρ c (Proc.devRef .tc main_arg19) = m ((c : Thread nD τ).loc main_arg19) :=
  (StableHlo.after_of_forall_not_mem (b := Proc.devRef .tc main_arg19) _ _ (List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg19_at1 m ρ c)
theorem arg19_at3 (c : Dev nD) : W3 m ρ c (Proc.devRef .tc main_arg19) = m ((c : Thread nD τ).loc main_arg19) :=
  (W3_of_ne m ρ c main_arg19 (by decide)).trans (arg19_at2 m ρ c)
theorem arg19_at4 (c : Dev nD) : W4 m ρ c (Proc.devRef .tc main_arg19) = m ((c : Thread nD τ).loc main_arg19) :=
  (StableHlo.after_of_forall_not_mem (b := Proc.devRef .tc main_arg19) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg19_at3 m ρ c)
theorem arg19_at5 (c : Dev nD) : W5 m ρ c (Proc.devRef .tc main_arg19) = m ((c : Thread nD τ).loc main_arg19) :=
  (StableHlo.after_of_forall_not_mem (b := Proc.devRef .tc main_arg19) _ _ (List.forall_iff_forall_mem.mp (by
    simp only [hostOps1_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg19_at4 m ρ c)
theorem arg19_at6 (c : Dev nD) : W6 m ρ c (Proc.devRef .tc main_arg19) = m ((c : Thread nD τ).loc main_arg19) :=
  (W6_of_ne m ρ c main_arg19 (by decide)).trans (arg19_at5 m ρ c)
theorem arg19_at7 (c : Dev nD) : W7 m ρ c (Proc.devRef .tc main_arg19) = m ((c : Thread nD τ).loc main_arg19) :=
  (StableHlo.after_of_forall_not_mem (b := Proc.devRef .tc main_arg19) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg19_at6 m ρ c)
theorem arg19_at8 (c : Dev nD) : W8 m ρ c (Proc.devRef .tc main_arg19) = m ((c : Thread nD τ).loc main_arg19) :=
  (StableHlo.after_of_forall_not_mem (b := Proc.devRef .tc main_arg19) _ _ (List.forall_iff_forall_mem.mp (by
    simp only [hostOps2_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg19_at7 m ρ c)
theorem arg19_at9 (c : Dev nD) : W9 m ρ c (Proc.devRef .tc main_arg19) = m ((c : Thread nD τ).loc main_arg19) :=
  (W9_of_ne m ρ c main_arg19 (by decide)).trans (arg19_at8 m ρ c)
theorem arg19_at10 (c : Dev nD) : W10 m ρ c (Proc.devRef .tc main_arg19) = m ((c : Thread nD τ).loc main_arg19) :=
  (StableHlo.after_of_forall_not_mem (b := Proc.devRef .tc main_arg19) _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg19_at9 m ρ c)
theorem arg19_at11 (c : Dev nD) : W11 m ρ c (Proc.devRef .tc main_arg19) = m ((c : Thread nD τ).loc main_arg19) :=
  (StableHlo.after_of_forall_not_mem (b := Proc.devRef .tc main_arg19) _ _ (List.forall_iff_forall_mem.mp (by
    simp only [hostOps3_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg19_at10 m ρ c)
theorem arg19_at12 (c : Dev nD) : W12 m ρ c (Proc.devRef .tc main_arg19) = m ((c : Thread nD τ).loc main_arg19) :=
  (W12_of_ne m ρ c main_arg19 (by decide)).trans (arg19_at11 m ρ c)
theorem arg19_at13 (c : Dev nD) : W13 m ρ c (Proc.devRef .tc main_arg19) = m ((c : Thread nD τ).loc main_arg19) :=
  (StableHlo.after_of_forall_not_mem (b := Proc.devRef .tc main_arg19) _ _ (List.forall_iff_forall_mem.mp (by
    simp only [hostOps4, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg19_at12 m ρ c)

theorem arg20_at1 (c : Dev nD) : W1 m ρ c (Proc.devRef .tc main_arg20) = m ((c : Thread nD τ).loc main_arg20) :=
  (StableHlo.after_of_forall_not_mem (b := Proc.devRef .tc main_arg20) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (rfl)
theorem arg20_at2 (c : Dev nD) : W2 m ρ c (Proc.devRef .tc main_arg20) = m ((c : Thread nD τ).loc main_arg20) :=
  (StableHlo.after_of_forall_not_mem (b := Proc.devRef .tc main_arg20) _ _ (List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg20_at1 m ρ c)
theorem arg20_at3 (c : Dev nD) : W3 m ρ c (Proc.devRef .tc main_arg20) = m ((c : Thread nD τ).loc main_arg20) :=
  (W3_of_ne m ρ c main_arg20 (by decide)).trans (arg20_at2 m ρ c)
theorem arg20_at4 (c : Dev nD) : W4 m ρ c (Proc.devRef .tc main_arg20) = m ((c : Thread nD τ).loc main_arg20) :=
  (StableHlo.after_of_forall_not_mem (b := Proc.devRef .tc main_arg20) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg20_at3 m ρ c)
theorem arg20_at5 (c : Dev nD) : W5 m ρ c (Proc.devRef .tc main_arg20) = m ((c : Thread nD τ).loc main_arg20) :=
  (StableHlo.after_of_forall_not_mem (b := Proc.devRef .tc main_arg20) _ _ (List.forall_iff_forall_mem.mp (by
    simp only [hostOps1_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg20_at4 m ρ c)
theorem arg20_at6 (c : Dev nD) : W6 m ρ c (Proc.devRef .tc main_arg20) = m ((c : Thread nD τ).loc main_arg20) :=
  (W6_of_ne m ρ c main_arg20 (by decide)).trans (arg20_at5 m ρ c)
theorem arg20_at7 (c : Dev nD) : W7 m ρ c (Proc.devRef .tc main_arg20) = m ((c : Thread nD τ).loc main_arg20) :=
  (StableHlo.after_of_forall_not_mem (b := Proc.devRef .tc main_arg20) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg20_at6 m ρ c)
theorem arg20_at8 (c : Dev nD) : W8 m ρ c (Proc.devRef .tc main_arg20) = m ((c : Thread nD τ).loc main_arg20) :=
  (StableHlo.after_of_forall_not_mem (b := Proc.devRef .tc main_arg20) _ _ (List.forall_iff_forall_mem.mp (by
    simp only [hostOps2_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg20_at7 m ρ c)
theorem arg20_at9 (c : Dev nD) : W9 m ρ c (Proc.devRef .tc main_arg20) = m ((c : Thread nD τ).loc main_arg20) :=
  (W9_of_ne m ρ c main_arg20 (by decide)).trans (arg20_at8 m ρ c)
theorem arg20_at10 (c : Dev nD) : W10 m ρ c (Proc.devRef .tc main_arg20) = m ((c : Thread nD τ).loc main_arg20) :=
  (StableHlo.after_of_forall_not_mem (b := Proc.devRef .tc main_arg20) _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg20_at9 m ρ c)
theorem arg20_at11 (c : Dev nD) : W11 m ρ c (Proc.devRef .tc main_arg20) = m ((c : Thread nD τ).loc main_arg20) :=
  (StableHlo.after_of_forall_not_mem (b := Proc.devRef .tc main_arg20) _ _ (List.forall_iff_forall_mem.mp (by
    simp only [hostOps3_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg20_at10 m ρ c)
theorem arg20_at12 (c : Dev nD) : W12 m ρ c (Proc.devRef .tc main_arg20) = m ((c : Thread nD τ).loc main_arg20) :=
  (W12_of_ne m ρ c main_arg20 (by decide)).trans (arg20_at11 m ρ c)
theorem arg20_at13 (c : Dev nD) : W13 m ρ c (Proc.devRef .tc main_arg20) = m ((c : Thread nD τ).loc main_arg20) :=
  (StableHlo.after_of_forall_not_mem (b := Proc.devRef .tc main_arg20) _ _ (List.forall_iff_forall_mem.mp (by
    simp only [hostOps4, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg20_at12 m ρ c)

theorem arg21_at1 (c : Dev nD) : W1 m ρ c (Proc.devRef .tc main_arg21) = m ((c : Thread nD τ).loc main_arg21) :=
  (StableHlo.after_of_forall_not_mem (b := Proc.devRef .tc main_arg21) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (rfl)
theorem arg21_at2 (c : Dev nD) : W2 m ρ c (Proc.devRef .tc main_arg21) = m ((c : Thread nD τ).loc main_arg21) :=
  (StableHlo.after_of_forall_not_mem (b := Proc.devRef .tc main_arg21) _ _ (List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg21_at1 m ρ c)
theorem arg21_at3 (c : Dev nD) : W3 m ρ c (Proc.devRef .tc main_arg21) = m ((c : Thread nD τ).loc main_arg21) :=
  (W3_of_ne m ρ c main_arg21 (by decide)).trans (arg21_at2 m ρ c)
theorem arg21_at4 (c : Dev nD) : W4 m ρ c (Proc.devRef .tc main_arg21) = m ((c : Thread nD τ).loc main_arg21) :=
  (StableHlo.after_of_forall_not_mem (b := Proc.devRef .tc main_arg21) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg21_at3 m ρ c)
theorem arg21_at5 (c : Dev nD) : W5 m ρ c (Proc.devRef .tc main_arg21) = m ((c : Thread nD τ).loc main_arg21) :=
  (StableHlo.after_of_forall_not_mem (b := Proc.devRef .tc main_arg21) _ _ (List.forall_iff_forall_mem.mp (by
    simp only [hostOps1_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg21_at4 m ρ c)
theorem arg21_at6 (c : Dev nD) : W6 m ρ c (Proc.devRef .tc main_arg21) = m ((c : Thread nD τ).loc main_arg21) :=
  (W6_of_ne m ρ c main_arg21 (by decide)).trans (arg21_at5 m ρ c)
theorem arg21_at7 (c : Dev nD) : W7 m ρ c (Proc.devRef .tc main_arg21) = m ((c : Thread nD τ).loc main_arg21) :=
  (StableHlo.after_of_forall_not_mem (b := Proc.devRef .tc main_arg21) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg21_at6 m ρ c)
theorem arg21_at8 (c : Dev nD) : W8 m ρ c (Proc.devRef .tc main_arg21) = m ((c : Thread nD τ).loc main_arg21) :=
  (StableHlo.after_of_forall_not_mem (b := Proc.devRef .tc main_arg21) _ _ (List.forall_iff_forall_mem.mp (by
    simp only [hostOps2_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg21_at7 m ρ c)
theorem arg21_at9 (c : Dev nD) : W9 m ρ c (Proc.devRef .tc main_arg21) = m ((c : Thread nD τ).loc main_arg21) :=
  (W9_of_ne m ρ c main_arg21 (by decide)).trans (arg21_at8 m ρ c)
theorem arg21_at10 (c : Dev nD) : W10 m ρ c (Proc.devRef .tc main_arg21) = m ((c : Thread nD τ).loc main_arg21) :=
  (StableHlo.after_of_forall_not_mem (b := Proc.devRef .tc main_arg21) _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg21_at9 m ρ c)
theorem arg21_at11 (c : Dev nD) : W11 m ρ c (Proc.devRef .tc main_arg21) = m ((c : Thread nD τ).loc main_arg21) :=
  (StableHlo.after_of_forall_not_mem (b := Proc.devRef .tc main_arg21) _ _ (List.forall_iff_forall_mem.mp (by
    simp only [hostOps3_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg21_at10 m ρ c)
theorem arg21_at12 (c : Dev nD) : W12 m ρ c (Proc.devRef .tc main_arg21) = m ((c : Thread nD τ).loc main_arg21) :=
  (W12_of_ne m ρ c main_arg21 (by decide)).trans (arg21_at11 m ρ c)
theorem arg21_at13 (c : Dev nD) : W13 m ρ c (Proc.devRef .tc main_arg21) = m ((c : Thread nD τ).loc main_arg21) :=
  (StableHlo.after_of_forall_not_mem (b := Proc.devRef .tc main_arg21) _ _ (List.forall_iff_forall_mem.mp (by
    simp only [hostOps4, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (arg21_at12 m ρ c)

end Cert.KernelIdeal.Args

end
-- ==== Proof.KStages.lean ====
/-
  The neighbour mean over the kernel program's own copies of the shape records (the two programs each print their
  own; the copies are equal), and that the two spellings are one function.
-/
import proofs.«148162_j58136677319060_1_alg».proof.Proof.Gen.KernelIdeal
import proofs.«148162_j58136677319060_1_alg».proof.Proof.Stages

set_option maxRecDepth 16384

noncomputable section

namespace Cert.KStages

open Cert.KernelIdeal Cert.KernelIdeal.Gen Idealize.ShloMosaic Idealize.ShloMosaic.TcCoe Idealize.SL.Sem Idealize.ShloMosaic.StableHlo

variable {F : FTy → Type} [FloatOps F]

/-- The neighbour mean, spelt over the kernel program's records. -/
def neighbourMean (h : (⟨S100000x128, .f32⟩ : BufTy).Contents (Elt F)) (src dst : (⟨S1600000, .i32⟩ : BufTy).Contents (Elt F)) : (⟨S100000x128, .f32⟩ : BufTy).Contents (Elt F) :=
  select (broadcastInDim S100000x128 ![0, 1] bcast_S100000x1_S100000x128_0_1 (cmpf .ogt (broadcastInDim S100000x1 ![0] bcast_S100000_S100000x1_0 (Host.scatterAdd (F := F) scatter_S100000_S1600000x1_S1600000_n_0_0_1 (broadcastInDim S100000 ![] bcast_S_S100000 (constant (F := F) S_ .f32 0x00000000#32)) (broadcastInDim S1600000x1 ![0] bcast_S1600000_S1600000x1_0 dst) (broadcastInDim S1600000 ![] bcast_S_S1600000 (constant (F := F) S_ .f32 0x3F800000#32)))) (broadcastInDim S100000x1 ![] bcast_S_S100000x1 (constant (F := F) S_ .f32 0x00000000#32)))) (Host.divf (F := F) (Host.scatterAdd (F := F) scatter_S100000x128_S1600000x1_S1600000x128_1_0_0_1 (broadcastInDim S100000x128 ![] bcast_S_S100000x128 (constant (F := F) S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (broadcastInDim S100000x1 ![0] bcast_S100000_S100000x1_0 (maximumf (Host.scatterAdd (F := F) scatter_S100000_S1600000x1_S1600000_n_0_0_1 (broadcastInDim S100000 ![] bcast_S_S100000 (constant (F := F) S_ .f32 0x00000000#32)) (broadcastInDim S1600000x1 ![0] bcast_S1600000_S1600000x1_0 dst) (broadcastInDim S1600000 ![] bcast_S_S1600000 (constant (F := F) S_ .f32 0x3F800000#32))) (broadcastInDim S100000 ![] bcast_S_S100000 (constant (F := F) S_ .f32 0x3F800000#32)))))) (broadcastInDim S100000x128 ![] bcast_S_S100000x128 (id (constant (F := F) S_ .f32 0x00000000#32)))

set_option maxHeartbeats 4000000 in
/-- The two programs' spellings of the neighbour mean are one function. -/
theorem neighbourMean_eq (h : (⟨S100000x128, .f32⟩ : BufTy).Contents (Elt F)) (src dst : (⟨S1600000, .i32⟩ : BufTy).Contents (Elt F)) :
    neighbourMean h src dst = Cert.Stages.neighbourMean h src dst := by
  unfold neighbourMean Cert.Stages.neighbourMean
  rfl

end Cert.KStages

end
-- ==== Proof.Means.lean ====
/-
  What the host operations before each layer region leave in its neighbour-mean operand: the neighbour mean of the
  region's node features along the party's edges, read off the stretch of operations (the degree's scatter-add, the
  row gather, the sum's scatter-add, the division and the selection) at the contents the stretch starts from. Stated
  for any float instance: nothing here depends on what the operations compute.
-/
import proofs.«148162_j58136677319060_1_alg».proof.Proof.Gen.KernelIdeal.Frame
import proofs.«148162_j58136677319060_1_alg».proof.Proof.KStages
import Idealize.ShloMosaic.Lib.StableHlo.Run

set_option maxRecDepth 16384

noncomputable section

namespace Cert.KernelIdeal.Means

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

set_option maxHeartbeats 4000000 in
/-- Before region 0: of the first party's raw features. -/
theorem mean0 (c : Dev nD) : V2 m ρ c main_v22
    = Cert.KStages.neighbourMean (W0 m ρ c (Proc.devRef .tc main_arg0)) (W0 m ρ c (Proc.devRef .tc main_arg2)) (W0 m ρ c (Proc.devRef .tc main_arg3)) := by
  dsimp only [V2, W2, W1]
  after_results_simp
  unfold Cert.KStages.neighbourMean
  rfl

set_option maxHeartbeats 4000000 in
/-- Before region 1: of region 0's result. -/
theorem mean1 (c : Dev nD) : V5 m ρ c main_v46
    = Cert.KStages.neighbourMean (W3 m ρ c (Proc.devRef .tc main_v23)) (W3 m ρ c (Proc.devRef .tc main_arg2)) (W3 m ρ c (Proc.devRef .tc main_arg3)) := by
  dsimp only [V5, W5, W4]
  after_results_simp
  unfold Cert.KStages.neighbourMean
  rfl

set_option maxHeartbeats 4000000 in
/-- Before region 2: of the second party's raw features. -/
theorem mean2 (c : Dev nD) : V8 m ρ c main_v70
    = Cert.KStages.neighbourMean (W6 m ρ c (Proc.devRef .tc main_arg1)) (W6 m ρ c (Proc.devRef .tc main_arg4)) (W6 m ρ c (Proc.devRef .tc main_arg5)) := by
  dsimp only [V8, W8, W7]
  after_results_simp
  unfold Cert.KStages.neighbourMean
  rfl

set_option maxHeartbeats 4000000 in
/-- Before region 3: of region 2's result. -/
theorem mean3 (c : Dev nD) : V11 m ρ c main_v94
    = Cert.KStages.neighbourMean (W9 m ρ c (Proc.devRef .tc main_v71)) (W9 m ρ c (Proc.devRef .tc main_arg4)) (W9 m ρ c (Proc.devRef .tc main_arg5)) := by
  dsimp only [V11, W11, W10]
  after_results_simp
  unfold Cert.KStages.neighbourMean
  rfl

end Cert.KernelIdeal.Means

end
-- ==== Proof.HostDots.lean ====
/-
  The reference's three matrix products read at an entry: at the exact values a `dot_general` contracting the left
  operand's columns with the right operand's rows is, at (r, c), the sum over k of x[r, k] · w[k, c].
-/
import proofs.«148162_j58136677319060_1_alg».proof.Proof.Gen.ReferenceIdeal
import Idealize.ShloMosaic.Lib.ValueIdx
import Idealize.ShloMosaic.PureOps.Ideal.Laws

noncomputable section

namespace Cert.HostDots

open Cert.ReferenceIdeal Cert.ReferenceIdeal.Gen Idealize.ShloMosaic Idealize.ShloMosaic.TcCoe Idealize.ShloMosaic.ValueIdx

theorem layerDot_lhs0 (i : (⟨2, ![100000, 128]⟩ : Shape).Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin (⟨2, ![100000, 128]⟩ : Shape).rank) ∈ dot_S100000x128_S128x128_S100000x128_1_0_0_1_n_n.lhsBatch by decide), dif_pos (show (0 : Fin (⟨2, ![100000, 128]⟩ : Shape).rank) ∈ dot_S100000x128_S128x128_S100000x128_1_0_0_1_n_n.lhsNonContracting by decide)]
  rfl
theorem layerDot_lhs1 (i : (⟨2, ![100000, 128]⟩ : Shape).Idx) (q : dot_S100000x128_S128x128_S100000x128_1_0_0_1_n_n.contr.Idx) : (dot_S100000x128_S128x128_S100000x128_1_0_0_1_n_n.lhsIdx i q 1).val = (q ⟨0, by decide⟩).val :=
  dot_S100000x128_S128x128_S100000x128_1_0_0_1_n_n.lhsIdx_val_of_single rfl i q
theorem layerDot_rhs0 (i : (⟨2, ![100000, 128]⟩ : Shape).Idx) (q : dot_S100000x128_S128x128_S100000x128_1_0_0_1_n_n.contr.Idx) : (dot_S100000x128_S128x128_S100000x128_1_0_0_1_n_n.rhsIdx i q 0).val = (q ⟨0, by decide⟩).val :=
  dot_S100000x128_S128x128_S100000x128_1_0_0_1_n_n.rhsIdx_val_of_single rfl i q
theorem layerDot_rhs1 (i : (⟨2, ![100000, 128]⟩ : Shape).Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin (⟨2, ![128, 128]⟩ : Shape).rank) ∈ dot_S100000x128_S128x128_S100000x128_1_0_0_1_n_n.rhsBatch by decide), dif_pos (show (1 : Fin (⟨2, ![128, 128]⟩ : Shape).rank) ∈ dot_S100000x128_S128x128_S100000x128_1_0_0_1_n_n.rhsNonContracting by decide)]
  rfl

/-- A layer's product [100000, 128] · [128, 128] at (r, c). -/
theorem layerDot (x : FVec Ideal (⟨2, ![100000, 128]⟩ : Shape) .f32) (w : FVec Ideal (⟨2, ![128, 128]⟩ : Shape) .f32) (r : Fin 100000) (c : Fin 128) :
    Host.dotGeneral (F := Ideal) dot_S100000x128_S128x128_S100000x128_1_0_0_1_n_n none x w (ix2 r c) = ∑ k : Fin 128, x (ix2 r k) * w (ix2 k c) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 r c) ((ValueIdx.contrEquiv1 dot_S100000x128_S128x128_S100000x128_1_0_0_1_n_n 128 rfl rfl).symm k) = ix2 r k := funext fun a => Fin.ext (by
    match a with
    | ⟨0, _⟩ => exact layerDot_lhs0 _ _
    | ⟨1, _⟩ => exact (layerDot_lhs1 _ _).trans hk)
  have er : dot_S100000x128_S128x128_S100000x128_1_0_0_1_n_n.rhsIdx (ix2 r c) ((ValueIdx.contrEquiv1 dot_S100000x128_S128x128_S100000x128_1_0_0_1_n_n 128 rfl rfl).symm k) = ix2 k c := funext fun a => Fin.ext (by
    match a with
    | ⟨0, _⟩ => exact (layerDot_rhs0 _ _).trans hk
    | ⟨1, _⟩ => exact layerDot_rhs1 _ _)
  rw [el, er]

theorem hiddenDot_lhs0 (i : (⟨2, ![100000, 256]⟩ : Shape).Idx) (q : dot_S100000x256_S256x256_S100000x256_1_0_0_1_n_n.contr.Idx) : (dot_S100000x256_S256x256_S100000x256_1_0_0_1_n_n.lhsIdx i q 0).val = (i 0).val := by
  unfold DotDims.lhsIdx
  rw [dif_neg (show ¬(0 : Fin (⟨2, ![100000, 256]⟩ : Shape).rank) ∈ dot_S100000x256_S256x256_S100000x256_1_0_0_1_n_n.lhsBatch by decide), dif_pos (show (0 : Fin (⟨2, ![100000, 256]⟩ : Shape).rank) ∈ dot_S100000x256_S256x256_S100000x256_1_0_0_1_n_n.lhsNonContracting by decide)]
  rfl
theorem hiddenDot_lhs1 (i : (⟨2, ![100000, 256]⟩ : Shape).Idx) (q : dot_S100000x256_S256x256_S100000x256_1_0_0_1_n_n.contr.Idx) : (dot_S100000x256_S256x256_S100000x256_1_0_0_1_n_n.lhsIdx i q 1).val = (q ⟨0, by decide⟩).val :=
  dot_S100000x256_S256x256_S100000x256_1_0_0_1_n_n.lhsIdx_val_of_single rfl i q
theorem hiddenDot_rhs0 (i : (⟨2, ![100000, 256]⟩ : Shape).Idx) (q : dot_S100000x256_S256x256_S100000x256_1_0_0_1_n_n.contr.Idx) : (dot_S100000x256_S256x256_S100000x256_1_0_0_1_n_n.rhsIdx i q 0).val = (q ⟨0, by decide⟩).val :=
  dot_S100000x256_S256x256_S100000x256_1_0_0_1_n_n.rhsIdx_val_of_single rfl i q
theorem hiddenDot_rhs1 (i : (⟨2, ![100000, 256]⟩ : Shape).Idx) (q : dot_S100000x256_S256x256_S100000x256_1_0_0_1_n_n.contr.Idx) : (dot_S100000x256_S256x256_S100000x256_1_0_0_1_n_n.rhsIdx i q 1).val = (i 1).val := by
  unfold DotDims.rhsIdx
  rw [dif_neg (show ¬(1 : Fin (⟨2, ![256, 256]⟩ : Shape).rank) ∈ dot_S100000x256_S256x256_S100000x256_1_0_0_1_n_n.rhsBatch by decide), dif_pos (show (1 : Fin (⟨2, ![256, 256]⟩ : Shape).rank) ∈ dot_S100000x256_S256x256_S100000x256_1_0_0_1_n_n.rhsNonContracting by decide)]
  rfl

/-- The classifier's first product [100000, 256] · [256, 256] at (r, c). -/
theorem hiddenDot (x : FVec Ideal (⟨2, ![100000, 256]⟩ : Shape) .f32) (w : FVec Ideal (⟨2, ![256, 256]⟩ : Shape) .f32) (r : Fin 100000) (c : Fin 256) :
    Host.dotGeneral (F := Ideal) dot_S100000x256_S256x256_S100000x256_1_0_0_1_n_n none x w (ix2 r c) = ∑ k : Fin 256, x (ix2 r k) * w (ix2 k c) := by
  simp only [Host.dotGeneral]
  rw [Ideal.dotGeneral_apply, ← Equiv.sum_comp (ValueIdx.contrEquiv1 dot_S100000x256_S256x256_S100000x256_1_0_0_1_n_n 256 rfl rfl).symm]
  refine Finset.sum_congr rfl fun k _ => ?_
  have hk := ValueIdx.contrEquiv1_symm_val dot_S100000x256_S256x256_S100000x256_1_0_0_1_n_n 256 rfl rfl k
  have el : dot_S100000x256_S256x256_S100000x256_1_0_0_1_n_n.lhsIdx (ix2 r c) ((ValueIdx.contrEquiv1 dot_S100000x256_S256x256_S100000x256_1_0_0_1_n_n 256 rfl rfl).symm k) = ix2 r k := funext fun a => Fin.ext (by
    match a with
    | ⟨0, _⟩ => exact hiddenDot_lhs0 _ _
    | ⟨1, _⟩ => exact (hiddenDot_lhs1 _ _).trans hk)
  have er : dot_S100000x256_S256x256_S100000x256_1_0_0_1_n_n.rhsIdx (ix2 r c) ((ValueIdx.contrEquiv1 dot_S100000x256_S256x256_S100000x256_1_0_0_1_n_n 256 rfl rfl).symm k) = ix2 k c := funext fun a => Fin.ext (by
    match a with
    | ⟨0, _⟩ => exact (hiddenDot_rhs0 _ _).trans hk
    | ⟨1, _⟩ => exact hiddenDot_rhs1 _ _)
  rw [el, er]

theorem logitDot_lhs0 (i : (⟨2, ![100000, 40]⟩ : Shape).Idx) (q : dot_S100000x256_S256x40_S100000x40_1_0_0_1_n_n.contr.Idx) : (dot_S100000x256_S256x40_S100000x40_1_0_0_1_n_n.lhsIdx i q 0).val = (i 0).val := by
  unfold DotDims.lhsIdx
  rw [dif_neg (show ¬(0 : Fin (⟨2, ![100000, 256]⟩ : Shape).rank) ∈ dot_S100000x256_S256x40_S100000x40_1_0_0_1_n_n.lhsBatch by decide), dif_pos (show (0 : Fin (⟨2, ![100000, 256]⟩ : Shape).rank) ∈ dot_S100000x256_S256x40_S100000x40_1_0_0_1_n_n.lhsNonContracting by decide)]
  rfl
theorem logitDot_lhs1 (i : (⟨2, ![100000, 40]⟩ : Shape).Idx) (q : dot_S100000x256_S256x40_S100000x40_1_0_0_1_n_n.contr.Idx) : (dot_S100000x256_S256x40_S100000x40_1_0_0_1_n_n.lhsIdx i q 1).val = (q ⟨0, by decide⟩).val :=
  dot_S100000x256_S256x40_S100000x40_1_0_0_1_n_n.lhsIdx_val_of_single rfl i q
theorem logitDot_rhs0 (i : (⟨2, ![100000, 40]⟩ : Shape).Idx) (q : dot_S100000x256_S256x40_S100000x40_1_0_0_1_n_n.contr.Idx) : (dot_S100000x256_S256x40_S100000x40_1_0_0_1_n_n.rhsIdx i q 0).val = (q ⟨0, by decide⟩).val :=
  dot_S100000x256_S256x40_S100000x40_1_0_0_1_n_n.rhsIdx_val_of_single rfl i q
theorem logitDot_rhs1 (i : (⟨2, ![100000, 40]⟩ : Shape).Idx) (q : dot_S100000x256_S256x40_S100000x40_1_0_0_1_n_n.contr.Idx) : (dot_S100000x256_S256x40_S100000x40_1_0_0_1_n_n.rhsIdx i q 1).val = (i 1).val := by
  unfold DotDims.rhsIdx
  rw [dif_neg (show ¬(1 : Fin (⟨2, ![256, 40]⟩ : Shape).rank) ∈ dot_S100000x256_S256x40_S100000x40_1_0_0_1_n_n.rhsBatch by decide), dif_pos (show (1 : Fin (⟨2, ![256, 40]⟩ : Shape).rank) ∈ dot_S100000x256_S256x40_S100000x40_1_0_0_1_n_n.rhsNonContracting by decide)]
  rfl

/-- The classifier's second product [100000, 256] · [256, 40] at (r, c). -/
theorem logitDot (x : FVec Ideal (⟨2, ![100000, 256]⟩ : Shape) .f32) (w : FVec Ideal (⟨2, ![256, 40]⟩ : Shape) .f32) (r : Fin 100000) (c : Fin 40) :
    Host.dotGeneral (F := Ideal) dot_S100000x256_S256x40_S100000x40_1_0_0_1_n_n none x w (ix2 r c) = ∑ k : Fin 256, x (ix2 r k) * w (ix2 k c) := by
  simp only [Host.dotGeneral]
  rw [Ideal.dotGeneral_apply, ← Equiv.sum_comp (ValueIdx.contrEquiv1 dot_S100000x256_S256x40_S100000x40_1_0_0_1_n_n 256 rfl rfl).symm]
  refine Finset.sum_congr rfl fun k _ => ?_
  have hk := ValueIdx.contrEquiv1_symm_val dot_S100000x256_S256x40_S100000x40_1_0_0_1_n_n 256 rfl rfl k
  have el : dot_S100000x256_S256x40_S100000x40_1_0_0_1_n_n.lhsIdx (ix2 r c) ((ValueIdx.contrEquiv1 dot_S100000x256_S256x40_S100000x40_1_0_0_1_n_n 256 rfl rfl).symm k) = ix2 r k := funext fun a => Fin.ext (by
    match a with
    | ⟨0, _⟩ => exact logitDot_lhs0 _ _
    | ⟨1, _⟩ => exact (logitDot_lhs1 _ _).trans hk)
  have er : dot_S100000x256_S256x40_S100000x40_1_0_0_1_n_n.rhsIdx (ix2 r c) ((ValueIdx.contrEquiv1 dot_S100000x256_S256x40_S100000x40_1_0_0_1_n_n 256 rfl rfl).symm k) = ix2 k c := funext fun a => Fin.ext (by
    match a with
    | ⟨0, _⟩ => exact (logitDot_rhs0 _ _).trans hk
    | ⟨1, _⟩ => exact logitDot_rhs1 _ _)
  rw [el, er]

end Cert.HostDots

end
-- ==== Proof.LibRowBroadcast.lean ====
/-
  Three layout operations read at an index: a vector `[a]` made a one-row matrix `[1, a]` by a broadcast along a new
  leading axis, a one-row matrix `[1, b]` repeated over `a` rows, and both at once `[a] → [1, a] → [n, a]`.
-/
import Idealize.ShloMosaic.Lib.Pipeline.Value
import Idealize.ShloMosaic.Lib.ValueIdx

namespace Cert.Lib

open Idealize.ShloMosaic Idealize.ShloMosaic.ValueIdx

variable {α : Type}

/-- A vector `[a]` broadcast to `[1, a]` along a new leading axis reads, at `(0, k)`, the vector at `k`. -/
theorem broadcastInDim_a_1a_apply {a : ℕ} (x : (⟨1, ![a]⟩ : Shape).Idx → α)
    (h : (⟨1, ![a]⟩ : Shape).BroadcastsInDim ⟨2, ![1, a]⟩ ![1]) (k : Fin a) :
    broadcastInDim ⟨2, ![1, a]⟩ ![1] h x (ix2 (0 : Fin 1) k) = x (ix1 k) := by
  refine broadcastInDim_apply _ h x (ix2 (0 : Fin 1) k) (ix1 k) fun ax => ?_
  match ax with
  | ⟨0, _⟩ =>
    show k.val = if a = 1 then 0 else k.val
    split
    · have := k.isLt; omega
    · rfl

/-- A one-row matrix `[1, b]` broadcast to `[a, b]` reads, at `(p, c)`, its one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Cert.Lib
-- ==== Proof.LayerAt.lean ====
/-
  The layer and the classifier read at an entry, at the exact values.

  A layer's entry (r, c) is max (Σₖ h[r,k]·Ws[k,c] + Σₖ mean[r,k]·Wn[k,c] + b[c], 0). A hidden unit (r, j) of the
  classifier is max (Σₖ ha[r,k]·W₁[k,j] + Σₖ hb[r,k]·W₁[128+k,j] + b₁[j], 0): the sum over the 256 joined features
  splits at 128 into the two parties' halves, which is only a regrouping of a finite sum. A logit (r, c) is
  Σⱼ hidden[r,j]·W₂[j,c] + b₂[c].
-/
import proofs.«148162_j58136677319060_1_alg».proof.Proof.Stages
import proofs.«148162_j58136677319060_1_alg».proof.Proof.HostDots
import proofs.«148162_j58136677319060_1_alg».proof.Proof.LibRowBroadcast
import Idealize.ShloMosaic.Lib.Pipeline.Value
import Idealize.ShloMosaic.Lib.ValueIdx
import Idealize.ShloMosaic.PureOps.Ideal.Laws

noncomputable section

namespace Cert.Stages

open Cert.ReferenceIdeal Cert.ReferenceIdeal.Gen Idealize.ShloMosaic Idealize.ShloMosaic.TcCoe Idealize.ShloMosaic.ValueIdx

/-- A scalar broadcast to any shape reads the scalar everywhere. -/
theorem broadcastInDim_scalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun a => a.elim0)

/-- Row `k` of the upper half of a 256-row matrix. -/
abbrev upper (k : Fin 128) : Fin 256 := ⟨k.val, by have := k.isLt; omega⟩
/-- Row `128 + k`: row `k` of the lower half. -/
abbrev lower (k : Fin 128) : Fin 256 := ⟨128 + k.val, by have := k.isLt; omega⟩

/-- relu (h · W_self + mean · W_neigh + b) at (r, c). -/
def layerAt (h mean : FVec Ideal ⟨2, ![100000, 128]⟩ .f32) (ws wn : FVec Ideal ⟨2, ![128, 128]⟩ .f32) (b : FVec Ideal ⟨1, ![128]⟩ .f32)
    (r : Fin 100000) (c : Fin 128) : EReal :=
  max ((∑ k : Fin 128, h (ix2 r k) * ws (ix2 k c)) + (∑ k : Fin 128, mean (ix2 r k) * wn (ix2 k c)) + b (ix1 c))
    (Ideal.ofBits .f32 0x00000000#32)

/-- The classifier's hidden unit (r, j), the joined features' sum split into the two parties' halves. -/
def hiddenAt (ha hb : FVec Ideal ⟨2, ![100000, 128]⟩ .f32) (wf1 : FVec Ideal ⟨2, ![256, 256]⟩ .f32) (bf1 : FVec Ideal ⟨1, ![256]⟩ .f32)
    (r : Fin 100000) (j : Fin 256) : EReal :=
  max ((∑ k : Fin 128, ha (ix2 r k) * wf1 (ix2 (upper k) j)) + (∑ k : Fin 128, hb (ix2 r k) * wf1 (ix2 (lower k) j)) + bf1 (ix1 j))
    (Ideal.ofBits .f32 0x00000000#32)

/-- The logit (r, c). -/
def logitAt (ha hb : FVec Ideal ⟨2, ![100000, 128]⟩ .f32) (wf1 : FVec Ideal ⟨2, ![256, 256]⟩ .f32) (bf1 : FVec Ideal ⟨1, ![256]⟩ .f32)
    (wf2 : FVec Ideal ⟨2, ![256, 40]⟩ .f32) (bf2 : FVec Ideal ⟨1, ![40]⟩ .f32) (r : Fin 100000) (c : Fin 40) : EReal :=
  (∑ j : Fin 256, hiddenAt ha hb wf1 bf1 r j * wf2 (ix2 j c)) + bf2 (ix1 c)

/-- The layer's whole-array term at (r, c). -/
theorem sageLayer_apply (h mean : FVec Ideal ⟨2, ![100000, 128]⟩ .f32) (ws wn : FVec Ideal ⟨2, ![128, 128]⟩ .f32) (b : FVec Ideal ⟨1, ![128]⟩ .f32)
    (r : Fin 100000) (c : Fin 128) :
    sageLayer (F := Ideal) h mean ws wn b (ix2 r c) = layerAt h mean ws wn b r c := by
  unfold sageLayer layerAt
  rw [maximumf_apply, addf_apply, addf_apply, HostDots.layerDot, HostDots.layerDot,
    Cert.Lib.broadcastInDim_1b_ab_apply, Cert.Lib.broadcastInDim_a_1a_apply, broadcastInDim_scalar_apply]
  rfl

/-- The two parties' features joined along the feature axis, read in the first half … -/
theorem joined_upper (ha hb : FVec Ideal ⟨2, ![100000, 128]⟩ .f32) (r : Fin 100000) (k : Fin 128) :
    concatenate S100000x256 1 [⟨S100000x128, ha⟩, ⟨S100000x128, hb⟩] concatenates_S100000x128_S100000x128_S100000x256_d1 (ix2 r (upper k))
      = ha (ix2 r k) :=
  concatenate_pair_apply_left 1 ha hb _ (ix2 r (upper k)) rfl (ix2 r k) (fun b => by
    match b with
    | ⟨0, _⟩ => rfl
    | ⟨1, _⟩ => rfl)

/-- … and in the second half. -/
theorem joined_lower (ha hb : FVec Ideal ⟨2, ![100000, 128]⟩ .f32) (r : Fin 100000) (k : Fin 128) :
    concatenate S100000x256 1 [⟨S100000x128, ha⟩, ⟨S100000x128, hb⟩] concatenates_S100000x128_S100000x128_S100000x256_d1 (ix2 r (lower k))
      = hb (ix2 r k) :=
  concatenate_pair_apply_right 1 ha hb _ (ix2 r (lower k)) rfl rfl (ix2 r k) (fun b hb' => by
    match b with
    | ⟨0, _⟩ => rfl
    | ⟨1, _⟩ => exact absurd rfl hb') (by show k.val + 128 = 128 + k.val; omega)

/-- A sum over 256 indices is the sum over the upper 128 plus the sum over the lower 128. -/
theorem sum_halves (f : Fin 256 → EReal) : ∑ k : Fin 256, f k = (∑ k : Fin 128, f (upper k)) + ∑ k : Fin 128, f (lower k) := by
  exact Fin.sum_univ_add (a := 128) (b := 128) f

/-- The classifier's whole-array term at (r, c). -/
theorem classifier_apply (ha hb : FVec Ideal ⟨2, ![100000, 128]⟩ .f32) (wf1 : FVec Ideal ⟨2, ![256, 256]⟩ .f32) (bf1 : FVec Ideal ⟨1, ![256]⟩ .f32)
    (wf2 : FVec Ideal ⟨2, ![256, 40]⟩ .f32) (bf2 : FVec Ideal ⟨1, ![40]⟩ .f32) (r : Fin 100000) (c : Fin 40) :
    classifier (F := Ideal) ha hb wf1 bf1 wf2 bf2 (ix2 r c) = logitAt ha hb wf1 bf1 wf2 bf2 r c := by
  unfold classifier logitAt
  rw [addf_apply, HostDots.logitDot, Cert.Lib.broadcastInDim_1b_ab_apply, Cert.Lib.broadcastInDim_a_1a_apply]
  congr 1
  refine Finset.sum_congr rfl fun j _ => ?_
  congr 1
  unfold hiddenAt
  rw [maximumf_apply, addf_apply, HostDots.hiddenDot, Cert.Lib.broadcastInDim_1b_ab_apply, Cert.Lib.broadcastInDim_a_1a_apply,
    broadcastInDim_scalar_apply, sum_halves]
  simp only [joined_upper, joined_lower]
  rfl

end Cert.Stages

end
-- ==== Proof.KernelDots.lean ====
/-
  The kernels' matrix products read at an entry: at the exact values a block product into a zero accumulator,
  contracting the left block's columns with the right operand's rows, is at (p, c) the sum over k of x[p, k] · w[k, c].
-/
import proofs.«148162_j58136677319060_1_alg».proof.Proof.Gen.KernelIdeal
import Idealize.ShloMosaic.Lib.ValueIdx
import Idealize.ShloMosaic.PureOps.Ideal.Laws

noncomputable section

namespace Cert.KernelDots

open Cert.KernelIdeal Cert.KernelIdeal.Gen Idealize.ShloMosaic Idealize.ShloMosaic.TcCoe Idealize.ShloMosaic.ValueIdx

theorem layerDot_lhs0 (i : (⟨2, ![2000, 128]⟩ : Shape).Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin (⟨2, ![2000, 128]⟩ : Shape).rank) ∈ dot_S2000x128_S128x128_S2000x128_1_0_0_1_n_n.lhsBatch by decide), dif_pos (show (0 : Fin (⟨2, ![2000, 128]⟩ : Shape).rank) ∈ dot_S2000x128_S128x128_S2000x128_1_0_0_1_n_n.lhsNonContracting by decide)]
  rfl
theorem layerDot_lhs1 (i : (⟨2, ![2000, 128]⟩ : Shape).Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem layerDot_rhs0 (i : (⟨2, ![2000, 128]⟩ : Shape).Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem layerDot_rhs1 (i : (⟨2, ![2000, 128]⟩ : Shape).Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin (⟨2, ![128, 128]⟩ : Shape).rank) ∈ dot_S2000x128_S128x128_S2000x128_1_0_0_1_n_n.rhsBatch by decide), dif_pos (show (1 : Fin (⟨2, ![128, 128]⟩ : Shape).rank) ∈ dot_S2000x128_S128x128_S2000x128_1_0_0_1_n_n.rhsNonContracting by decide)]
  rfl

/-- A layer's block product [2000, 128] · [128, 128] at (p, c). -/
theorem layerDot {φ₁ φ₂ : FTy} (x : FVec Ideal (⟨2, ![2000, 128]⟩ : Shape) φ₁) (w : FVec Ideal (⟨2, ![128, 128]⟩ : Shape) φ₂) (r : Fin 2000) (c : Fin 128) :
    matmul (F := Ideal) dot_S2000x128_S128x128_S2000x128_1_0_0_1_n_n none x w (constant (⟨2, ![2000, 128]⟩ : Shape) .f32 0x00000000#32) (ix2 r c) = ∑ k : Fin 128, x (ix2 r k) * w (ix2 k c) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r c) ((ValueIdx.contrEquiv1 dot_S2000x128_S128x128_S2000x128_1_0_0_1_n_n 128 rfl rfl).symm k) = ix2 r k := funext fun a => Fin.ext (by
    match a with
    | ⟨0, _⟩ => exact layerDot_lhs0 _ _
    | ⟨1, _⟩ => exact (layerDot_lhs1 _ _).trans hk)
  have er : dot_S2000x128_S128x128_S2000x128_1_0_0_1_n_n.rhsIdx (ix2 r c) ((ValueIdx.contrEquiv1 dot_S2000x128_S128x128_S2000x128_1_0_0_1_n_n 128 rfl rfl).symm k) = ix2 k c := funext fun a => Fin.ext (by
    match a with
    | ⟨0, _⟩ => exact (layerDot_rhs0 _ _).trans hk
    | ⟨1, _⟩ => exact layerDot_rhs1 _ _)
  rw [el, er]

theorem hiddenDot_lhs0 (i : (⟨2, ![2000, 256]⟩ : Shape).Idx) (q : dot_S2000x128_S128x256_S2000x256_1_0_0_1_n_n.contr.Idx) : (dot_S2000x128_S128x256_S2000x256_1_0_0_1_n_n.lhsIdx i q 0).val = (i 0).val := by
  unfold DotDims.lhsIdx
  rw [dif_neg (show ¬(0 : Fin (⟨2, ![2000, 128]⟩ : Shape).rank) ∈ dot_S2000x128_S128x256_S2000x256_1_0_0_1_n_n.lhsBatch by decide), dif_pos (show (0 : Fin (⟨2, ![2000, 128]⟩ : Shape).rank) ∈ dot_S2000x128_S128x256_S2000x256_1_0_0_1_n_n.lhsNonContracting by decide)]
  rfl
theorem hiddenDot_lhs1 (i : (⟨2, ![2000, 256]⟩ : Shape).Idx) (q : dot_S2000x128_S128x256_S2000x256_1_0_0_1_n_n.contr.Idx) : (dot_S2000x128_S128x256_S2000x256_1_0_0_1_n_n.lhsIdx i q 1).val = (q ⟨0, by decide⟩).val :=
  dot_S2000x128_S128x256_S2000x256_1_0_0_1_n_n.lhsIdx_val_of_single rfl i q
theorem hiddenDot_rhs0 (i : (⟨2, ![2000, 256]⟩ : Shape).Idx) (q : dot_S2000x128_S128x256_S2000x256_1_0_0_1_n_n.contr.Idx) : (dot_S2000x128_S128x256_S2000x256_1_0_0_1_n_n.rhsIdx i q 0).val = (q ⟨0, by decide⟩).val :=
  dot_S2000x128_S128x256_S2000x256_1_0_0_1_n_n.rhsIdx_val_of_single rfl i q
theorem hiddenDot_rhs1 (i : (⟨2, ![2000, 256]⟩ : Shape).Idx) (q : dot_S2000x128_S128x256_S2000x256_1_0_0_1_n_n.contr.Idx) : (dot_S2000x128_S128x256_S2000x256_1_0_0_1_n_n.rhsIdx i q 1).val = (i 1).val := by
  unfold DotDims.rhsIdx
  rw [dif_neg (show ¬(1 : Fin (⟨2, ![128, 256]⟩ : Shape).rank) ∈ dot_S2000x128_S128x256_S2000x256_1_0_0_1_n_n.rhsBatch by decide), dif_pos (show (1 : Fin (⟨2, ![128, 256]⟩ : Shape).rank) ∈ dot_S2000x128_S128x256_S2000x256_1_0_0_1_n_n.rhsNonContracting by decide)]
  rfl

/-- A party's half of the classifier's first product, [2000, 128] · [128, 256], at (p, c). -/
theorem hiddenDot {φ₁ φ₂ : FTy} (x : FVec Ideal (⟨2, ![2000, 128]⟩ : Shape) φ₁) (w : FVec Ideal (⟨2, ![128, 256]⟩ : Shape) φ₂) (r : Fin 2000) (c : Fin 256) :
    matmul (F := Ideal) dot_S2000x128_S128x256_S2000x256_1_0_0_1_n_n none x w (constant (⟨2, ![2000, 256]⟩ : Shape) .f32 0x00000000#32) (ix2 r c) = ∑ k : Fin 128, x (ix2 r k) * w (ix2 k c) := by
  simp only [matmul]
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 r c) ((ValueIdx.contrEquiv1 dot_S2000x128_S128x256_S2000x256_1_0_0_1_n_n 128 rfl rfl).symm k) = ix2 r k := funext fun a => Fin.ext (by
    match a with
    | ⟨0, _⟩ => exact hiddenDot_lhs0 _ _
    | ⟨1, _⟩ => exact (hiddenDot_lhs1 _ _).trans hk)
  have er : dot_S2000x128_S128x256_S2000x256_1_0_0_1_n_n.rhsIdx (ix2 r c) ((ValueIdx.contrEquiv1 dot_S2000x128_S128x256_S2000x256_1_0_0_1_n_n 128 rfl rfl).symm k) = ix2 k c := funext fun a => Fin.ext (by
    match a with
    | ⟨0, _⟩ => exact (hiddenDot_rhs0 _ _).trans hk
    | ⟨1, _⟩ => exact hiddenDot_rhs1 _ _)
  rw [el, er]

theorem logitDot_lhs0 (i : (⟨2, ![2000, 40]⟩ : Shape).Idx) (q : dot_S2000x256_S256x40_S2000x40_1_0_0_1_n_n.contr.Idx) : (dot_S2000x256_S256x40_S2000x40_1_0_0_1_n_n.lhsIdx i q 0).val = (i 0).val := by
  unfold DotDims.lhsIdx
  rw [dif_neg (show ¬(0 : Fin (⟨2, ![2000, 256]⟩ : Shape).rank) ∈ dot_S2000x256_S256x40_S2000x40_1_0_0_1_n_n.lhsBatch by decide), dif_pos (show (0 : Fin (⟨2, ![2000, 256]⟩ : Shape).rank) ∈ dot_S2000x256_S256x40_S2000x40_1_0_0_1_n_n.lhsNonContracting by decide)]
  rfl
theorem logitDot_lhs1 (i : (⟨2, ![2000, 40]⟩ : Shape).Idx) (q : dot_S2000x256_S256x40_S2000x40_1_0_0_1_n_n.contr.Idx) : (dot_S2000x256_S256x40_S2000x40_1_0_0_1_n_n.lhsIdx i q 1).val = (q ⟨0, by decide⟩).val :=
  dot_S2000x256_S256x40_S2000x40_1_0_0_1_n_n.lhsIdx_val_of_single rfl i q
theorem logitDot_rhs0 (i : (⟨2, ![2000, 40]⟩ : Shape).Idx) (q : dot_S2000x256_S256x40_S2000x40_1_0_0_1_n_n.contr.Idx) : (dot_S2000x256_S256x40_S2000x40_1_0_0_1_n_n.rhsIdx i q 0).val = (q ⟨0, by decide⟩).val :=
  dot_S2000x256_S256x40_S2000x40_1_0_0_1_n_n.rhsIdx_val_of_single rfl i q
theorem logitDot_rhs1 (i : (⟨2, ![2000, 40]⟩ : Shape).Idx) (q : dot_S2000x256_S256x40_S2000x40_1_0_0_1_n_n.contr.Idx) : (dot_S2000x256_S256x40_S2000x40_1_0_0_1_n_n.rhsIdx i q 1).val = (i 1).val := by
  unfold DotDims.rhsIdx
  rw [dif_neg (show ¬(1 : Fin (⟨2, ![256, 40]⟩ : Shape).rank) ∈ dot_S2000x256_S256x40_S2000x40_1_0_0_1_n_n.rhsBatch by decide), dif_pos (show (1 : Fin (⟨2, ![256, 40]⟩ : Shape).rank) ∈ dot_S2000x256_S256x40_S2000x40_1_0_0_1_n_n.rhsNonContracting by decide)]
  rfl

/-- The classifier's second block product [2000, 256] · [256, 40] at (p, c). -/
theorem logitDot {φ₁ φ₂ : FTy} (x : FVec Ideal (⟨2, ![2000, 256]⟩ : Shape) φ₁) (w : FVec Ideal (⟨2, ![256, 40]⟩ : Shape) φ₂) (r : Fin 2000) (c : Fin 40) :
    matmul (F := Ideal) dot_S2000x256_S256x40_S2000x40_1_0_0_1_n_n none x w (constant (⟨2, ![2000, 40]⟩ : Shape) .f32 0x00000000#32) (ix2 r c) = ∑ k : Fin 256, x (ix2 r k) * w (ix2 k c) := by
  simp only [matmul]
  rw [Ideal.matmul_constant_zero_apply, ← Equiv.sum_comp (ValueIdx.contrEquiv1 dot_S2000x256_S256x40_S2000x40_1_0_0_1_n_n 256 rfl rfl).symm]
  refine Finset.sum_congr rfl fun k _ => ?_
  have hk := ValueIdx.contrEquiv1_symm_val dot_S2000x256_S256x40_S2000x40_1_0_0_1_n_n 256 rfl rfl k
  have el : dot_S2000x256_S256x40_S2000x40_1_0_0_1_n_n.lhsIdx (ix2 r c) ((ValueIdx.contrEquiv1 dot_S2000x256_S256x40_S2000x40_1_0_0_1_n_n 256 rfl rfl).symm k) = ix2 r k := funext fun a => Fin.ext (by
    match a with
    | ⟨0, _⟩ => exact logitDot_lhs0 _ _
    | ⟨1, _⟩ => exact (logitDot_lhs1 _ _).trans hk)
  have er : dot_S2000x256_S256x40_S2000x40_1_0_0_1_n_n.rhsIdx (ix2 r c) ((ValueIdx.contrEquiv1 dot_S2000x256_S256x40_S2000x40_1_0_0_1_n_n 256 rfl rfl).symm k) = ix2 k c := funext fun a => Fin.ext (by
    match a with
    | ⟨0, _⟩ => exact (logitDot_rhs0 _ _).trans hk
    | ⟨1, _⟩ => exact logitDot_rhs1 _ _)
  rw [el, er]

end Cert.KernelDots

end
-- ==== Proof.BodyAt.lean ====
/-
  What each kernel body stores, read at an entry of its block, at the exact values (a change of float format is the
  identity there): the four layer bodies are max (Σₖ h[p,k]·Ws[k,c] + Σₖ mean[p,k]·Wn[k,c] + b[c], 0) of the blocks they
  load, and the classifier body is Σⱼ max (Σₖ a[p,k]·W₁ᵃ[k,j] + Σₖ b[p,k]·W₁ᵇ[k,j] + b₁[j], 0)·W₂[j,c] + b₂[c].
-/
import proofs.«148162_j58136677319060_1_alg».proof.Proof.Gen.KernelIdeal.Skeleton
import proofs.«148162_j58136677319060_1_alg».proof.Proof.KernelDots
import Idealize.ShloMosaic.Lib.Pipeline.Value
import Idealize.ShloMosaic.Lib.ValueIdx
import Idealize.ShloMosaic.Lib.ValueLayout
import Idealize.ShloMosaic.PureOps.Ideal.Laws

noncomputable section

namespace Cert.BodyAt

open Cert.KernelIdeal Cert.KernelIdeal.Gen Idealize.ShloMosaic Idealize.ShloMosaic.TcCoe Idealize.ShloMosaic.ValueIdx

/-- Region 0's body at (p, c): max (Σₖ h[p,k]·Ws[k,c] + Σₖ mean[p,k]·Wn[k,c] + b[c], 0) of its loaded blocks. -/
theorem k0_pay1_apply (x0 x1 : Vec Ideal S2000x128 .f32) (x2 x3 : Vec Ideal S128x128 .f32) (x4 : Vec Ideal S128 .f32)
    (p : Fin 2000) (c : Fin 128) :
    k0_pay1 (F := Ideal) x0 x1 x2 x3 x4 (ix2 p c)
      = max ((∑ k : Fin 128, x0 (ix2 p k) * x2 (ix2 k c)) + (∑ k : Fin 128, x1 (ix2 p k) * x3 (ix2 k c)) + x4 (ix1 c))
          (Ideal.ofBits .f32 0x00000000#32) := by
  unfold k0_pay1
  simp only [maximumf_apply, addf_apply, KernelDots.layerDot, truncf_apply, shapeCast_self, broadcastTo_1b_ab_apply,
    shapeCast_a_1a_apply, broadcast_apply]
  rfl

/-- Region 1's body at (p, c): max (Σₖ h[p,k]·Ws[k,c] + Σₖ mean[p,k]·Wn[k,c] + b[c], 0) of its loaded blocks. -/
theorem k1_pay1_apply (x0 x1 : Vec Ideal S2000x128 .f32) (x2 x3 : Vec Ideal S128x128 .f32) (x4 : Vec Ideal S128 .f32)
    (p : Fin 2000) (c : Fin 128) :
    k1_pay1 (F := Ideal) x0 x1 x2 x3 x4 (ix2 p c)
      = max ((∑ k : Fin 128, x0 (ix2 p k) * x2 (ix2 k c)) + (∑ k : Fin 128, x1 (ix2 p k) * x3 (ix2 k c)) + x4 (ix1 c))
          (Ideal.ofBits .f32 0x00000000#32) := by
  unfold k1_pay1
  simp only [maximumf_apply, addf_apply, KernelDots.layerDot, truncf_apply, shapeCast_self, broadcastTo_1b_ab_apply,
    shapeCast_a_1a_apply, broadcast_apply]
  rfl

/-- Region 2's body at (p, c): max (Σₖ h[p,k]·Ws[k,c] + Σₖ mean[p,k]·Wn[k,c] + b[c], 0) of its loaded blocks. -/
theorem k2_pay1_apply (x0 x1 : Vec Ideal S2000x128 .f32) (x2 x3 : Vec Ideal S128x128 .f32) (x4 : Vec Ideal S128 .f32)
    (p : Fin 2000) (c : Fin 128) :
    k2_pay1 (F := Ideal) x0 x1 x2 x3 x4 (ix2 p c)
      = max ((∑ k : Fin 128, x0 (ix2 p k) * x2 (ix2 k c)) + (∑ k : Fin 128, x1 (ix2 p k) * x3 (ix2 k c)) + x4 (ix1 c))
          (Ideal.ofBits .f32 0x00000000#32) := by
  unfold k2_pay1
  simp only [maximumf_apply, addf_apply, KernelDots.layerDot, truncf_apply, shapeCast_self, broadcastTo_1b_ab_apply,
    shapeCast_a_1a_apply, broadcast_apply]
  rfl

/-- Region 3's body at (p, c): max (Σₖ h[p,k]·Ws[k,c] + Σₖ mean[p,k]·Wn[k,c] + b[c], 0) of its loaded blocks. -/
theorem k3_pay1_apply (x0 x1 : Vec Ideal S2000x128 .f32) (x2 x3 : Vec Ideal S128x128 .f32) (x4 : Vec Ideal S128 .f32)
    (p : Fin 2000) (c : Fin 128) :
    k3_pay1 (F := Ideal) x0 x1 x2 x3 x4 (ix2 p c)
      = max ((∑ k : Fin 128, x0 (ix2 p k) * x2 (ix2 k c)) + (∑ k : Fin 128, x1 (ix2 p k) * x3 (ix2 k c)) + x4 (ix1 c))
          (Ideal.ofBits .f32 0x00000000#32) := by
  unfold k3_pay1
  simp only [maximumf_apply, addf_apply, KernelDots.layerDot, truncf_apply, shapeCast_self, broadcastTo_1b_ab_apply,
    shapeCast_a_1a_apply, broadcast_apply]
  rfl

/-- The classifier body at (p, c). -/
theorem k4_pay1_apply (x0 x1 : Vec Ideal S2000x128 .f32) (x2 x3 : Vec Ideal S128x256 .f32) (x4 : Vec Ideal S256 .f32)
    (x5 : Vec Ideal S256x40 .f32) (x6 : Vec Ideal S40 .f32) (p : Fin 2000) (c : Fin 40) :
    k4_pay1 (F := Ideal) x0 x1 x2 x3 x4 x5 x6 (ix2 p c)
      = (∑ j : Fin 256, max ((∑ k : Fin 128, x0 (ix2 p k) * x2 (ix2 k j)) + (∑ k : Fin 128, x1 (ix2 p k) * x3 (ix2 k j)) + x4 (ix1 j))
            (Ideal.ofBits .f32 0x00000000#32) * x5 (ix2 j c)) + x6 (ix1 c) := by
  unfold k4_pay1
  simp only [maximumf_apply, addf_apply, KernelDots.layerDot, KernelDots.hiddenDot, KernelDots.logitDot, truncf_apply, shapeCast_self,
    broadcastTo_1b_ab_apply, shapeCast_a_1a_apply, broadcast_apply]
  rfl

end Cert.BodyAt

end
-- ==== Proof.Blocks.lean ====
/-
  A kernel body on one block against the whole-array stage.

  The layer kernels run over row blocks of 2000 nodes: point t loads rows 2000·t … 2000·t + 1999 of the features and
  of the neighbour mean, and the whole weight matrices and bias. An entry of a layer depends only on its own row of the
  two node arrays, so the body's entry (p, c) on the blocks at row offset o is the whole-array layer's entry (o + p, c).
  The same holds of the classifier kernel, whose two weight operands are the upper and lower halves of W₁.
-/
import proofs.«148162_j58136677319060_1_alg».proof.Proof.LayerAt
import proofs.«148162_j58136677319060_1_alg».proof.Proof.BodyAt

noncomputable section

namespace Cert.Blocks

open Idealize.ShloMosaic Idealize.ShloMosaic.TcCoe Idealize.ShloMosaic.ValueIdx Cert.Stages

/-- Row `o + p` of a 100000-row array, for a row `p` of a 2000-row block at offset `o`. -/
abbrev row (o : ℕ) (ho : o + 2000 ≤ 100000) (p : Fin 2000) : Fin 100000 := ⟨o + p.val, by have := p.isLt; omega⟩

/-- A layer body (any function with the layer bodies' entry formula) on blocks that are the rows from `o` of `H` and `M`
    and the whole of `Ws`, `Wn`, `B` is, at (p, c), the whole-array layer at (o + p, c). -/
theorem layer_block
    (pay : Vec Ideal ⟨2, ![2000, 128]⟩ .f32 → Vec Ideal ⟨2, ![2000, 128]⟩ .f32 → Vec Ideal ⟨2, ![128, 128]⟩ .f32 →
      Vec Ideal ⟨2, ![128, 128]⟩ .f32 → Vec Ideal ⟨1, ![128]⟩ .f32 → FVec Ideal ⟨2, ![2000, 128]⟩ .f32)
    (hpay : ∀ x0 x1 x2 x3 x4 (p : Fin 2000) (c : Fin 128), pay x0 x1 x2 x3 x4 (ix2 p c)
      = max ((∑ k : Fin 128, x0 (ix2 p k) * x2 (ix2 k c)) + (∑ k : Fin 128, x1 (ix2 p k) * x3 (ix2 k c)) + x4 (ix1 c))
          (Ideal.ofBits .f32 0x00000000#32))
    (H M : FVec Ideal ⟨2, ![100000, 128]⟩ .f32) (Ws Wn : FVec Ideal ⟨2, ![128, 128]⟩ .f32) (B : FVec Ideal ⟨1, ![128]⟩ .f32)
    (o : ℕ) (ho : o + 2000 ≤ 100000)
    (x0 x1 : Vec Ideal ⟨2, ![2000, 128]⟩ .f32) (x2 x3 : Vec Ideal ⟨2, ![128, 128]⟩ .f32) (x4 : Vec Ideal ⟨1, ![128]⟩ .f32)
    (h0 : ∀ (p : Fin 2000) (k : Fin 128), x0 (ix2 p k) = H (ix2 (row o ho p) k))
    (h1 : ∀ (p : Fin 2000) (k : Fin 128), x1 (ix2 p k) = M (ix2 (row o ho p) k))
    (h2 : ∀ (k c : Fin 128), x2 (ix2 k c) = Ws (ix2 k c))
    (h3 : ∀ (k c : Fin 128), x3 (ix2 k c) = Wn (ix2 k c))
    (h4 : ∀ c : Fin 128, x4 (ix1 c) = B (ix1 c))
    (p : Fin 2000) (c : Fin 128) :
    pay x0 x1 x2 x3 x4 (ix2 p c) = sageLayer (F := Ideal) H M Ws Wn B (ix2 (row o ho p) c) := by
  rw [hpay, sageLayer_apply]
  unfold layerAt
  simp only [h0, h1, h2, h3, h4]

/-- The classifier body on the row blocks at offset `o` of the two parties' features, the upper and lower halves of W₁,
    and the whole of b₁, W₂, b₂ is, at (p, c), the whole-array classifier at (o + p, c). -/
theorem classifier_block
    (pay : Vec Ideal ⟨2, ![2000, 128]⟩ .f32 → Vec Ideal ⟨2, ![2000, 128]⟩ .f32 → Vec Ideal ⟨2, ![128, 256]⟩ .f32 →
      Vec Ideal ⟨2, ![128, 256]⟩ .f32 → Vec Ideal ⟨1, ![256]⟩ .f32 → Vec Ideal ⟨2, ![256, 40]⟩ .f32 → Vec Ideal ⟨1, ![40]⟩ .f32 →
      FVec Ideal ⟨2, ![2000, 40]⟩ .f32)
    (hpay : ∀ x0 x1 x2 x3 x4 x5 x6 (p : Fin 2000) (c : Fin 40), pay x0 x1 x2 x3 x4 x5 x6 (ix2 p c)
      = (∑ j : Fin 256, max ((∑ k : Fin 128, x0 (ix2 p k) * x2 (ix2 k j)) + (∑ k : Fin 128, x1 (ix2 p k) * x3 (ix2 k j)) + x4 (ix1 j))
            (Ideal.ofBits .f32 0x00000000#32) * x5 (ix2 j c)) + x6 (ix1 c))
    (HA HB : FVec Ideal ⟨2, ![100000, 128]⟩ .f32) (W1 : FVec Ideal ⟨2, ![256, 256]⟩ .f32) (B1 : FVec Ideal ⟨1, ![256]⟩ .f32)
    (W2 : FVec Ideal ⟨2, ![256, 40]⟩ .f32) (B2 : FVec Ideal ⟨1, ![40]⟩ .f32)
    (o : ℕ) (ho : o + 2000 ≤ 100000)
    (x0 x1 : Vec Ideal ⟨2, ![2000, 128]⟩ .f32) (x2 x3 : Vec Ideal ⟨2, ![128, 256]⟩ .f32) (x4 : Vec Ideal ⟨1, ![256]⟩ .f32)
    (x5 : Vec Ideal ⟨2, ![256, 40]⟩ .f32) (x6 : Vec Ideal ⟨1, ![40]⟩ .f32)
    (h0 : ∀ (p : Fin 2000) (k : Fin 128), x0 (ix2 p k) = HA (ix2 (row o ho p) k))
    (h1 : ∀ (p : Fin 2000) (k : Fin 128), x1 (ix2 p k) = HB (ix2 (row o ho p) k))
    (h2 : ∀ (k : Fin 128) (j : Fin 256), x2 (ix2 k j) = W1 (ix2 (upper k) j))
    (h3 : ∀ (k : Fin 128) (j : Fin 256), x3 (ix2 k j) = W1 (ix2 (lower k) j))
    (h4 : ∀ j : Fin 256, x4 (ix1 j) = B1 (ix1 j))
    (h5 : ∀ (j : Fin 256) (c : Fin 40), x5 (ix2 j c) = W2 (ix2 j c))
    (h6 : ∀ c : Fin 40, x6 (ix1 c) = B2 (ix1 c))
    (p : Fin 2000) (c : Fin 40) :
    pay x0 x1 x2 x3 x4 x5 x6 (ix2 p c) = classifier (F := Ideal) HA HB W1 B1 W2 B2 (ix2 (row o ho p) c) := by
  rw [hpay, classifier_apply]
  unfold logitAt hiddenAt
  simp only [h0, h1, h2, h3, h4, h5, h6]

end Cert.Blocks

end
-- ==== Proof.LayerA0.lean ====
/-
  Region 0: the first party's first layer, relu (x₀ · Ws + mean · Wn + b) over the first party's raw features.

  Its grid has 50 points; point t stages rows 2000·t … 2000·t + 1999 of the two node arrays and the whole weight
  matrices and bias, and writes back rows 2000·t … 2000·t + 1999 of the result. The blocks tile the 100000 rows, so the
  result array is the whole-array layer of the arrays the region finds.
-/
import proofs.«148162_j58136677319060_1_alg».proof.Proof.Gen.KernelIdeal.Frame
import proofs.«148162_j58136677319060_1_alg».proof.Proof.Blocks
import Idealize.ShloMosaic.Lib.Pipeline.Value

set_option maxRecDepth 16384

noncomputable section

namespace Cert.KernelIdeal.LayerA0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the node arrays and the result move with the point along the rows, the
    weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem point_lt (t : Fin cfg0.N) : t.val < 50 := lt_of_lt_of_eq t.isLt N_0

/-- What point `t` writes back is block `t` of the whole-array layer of the arrays the region finds. -/
theorem flushed (c : Dev nD) (t : Fin cfg0.N) :
    (dat0 V c).flushed 5 t = ((cfg0.win 5).blk t).view.read (Elt Ideal)
      (Stages.sageLayer (F := Ideal) (V c main_arg0) (V c main_v22) (V c main_arg6) (V c main_arg7) (V c main_arg8)) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128x128) hz2, View.ld_unit_zero (S := S128) hz1]
  obtain ⟨e00, e01, e10, e11, e20, e21, e30, e31, e40, e50, e51⟩ := idx_facts t
  have ht := point_lt t
  have ho : t.val * 2000 + 2000 ≤ 100000 := by omega
  funext j
  obtain ⟨p, q, rfl⟩ : ∃ (p : Fin 2000) (q : Fin 128), j = ix2 p q := ⟨j 0, j 1, eq_ix2 j⟩
  have hemb : ((cfg0.win 5).blk t).view.emb (ix2 p q) = ix2 (Blocks.row (t.val * 2000) ho p) q := by
    funext a; apply Fin.ext
    match a with
    | ⟨0, _⟩ => show win0_5.index t (0 : Fin 2) * 2000 + 1 * p.val = t.val * 2000 + p.val; omega
    | ⟨1, _⟩ => show win0_5.index t (1 : Fin 2) * 128 + 1 * q.val = q.val; omega
  show k0_pay1 (iblk0 V c 0 t) (iblk0 V c 1 t) (iblk0 V c 2 t) (iblk0 V c 3 t) (iblk0 V c 4 t) (ix2 p q)
    = Stages.sageLayer (F := Ideal) (V c main_arg0) (V c main_v22) (V c main_arg6) (V c main_arg7) (V c main_arg8) (((cfg0.win 5).blk t).view.emb (ix2 p q))
  rw [hemb]
  refine Blocks.layer_block k0_pay1 BodyAt.k0_pay1_apply (V c main_arg0) (V c main_v22) (V c main_arg6) (V c main_arg7) (V c main_arg8) (t.val * 2000) ho
    (iblk0 V c 0 t) (iblk0 V c 1 t) (iblk0 V c 2 t) (iblk0 V c 3 t) (iblk0 V c 4 t) ?_ ?_ ?_ ?_ ?_ p q
  · intro p k
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  · intro p k
    show V c main_v22 (((cfg0.win 1).blk t).view.emb (ix2 p k)) = _
    refine congrArg (V c main_v22) (funext fun a => Fin.ext ?_)
    match a with
    | ⟨0, _⟩ => show win0_1.index t (0 : Fin 2) * 2000 + 1 * p.val = t.val * 2000 + p.val; omega
    | ⟨1, _⟩ => show win0_1.index t (1 : Fin 2) * 128 + 1 * k.val = k.val; omega
  · intro k q
    show V c main_arg6 (((cfg0.win 2).blk t).view.emb (ix2 k q)) = _
    refine congrArg (V c main_arg6) (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  · intro k q
    show V c main_arg7 (((cfg0.win 3).blk t).view.emb (ix2 k q)) = _
    refine congrArg (V c main_arg7) (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  · intro q
    show V c main_arg8 (((cfg0.win 4).blk t).view.emb (ix1 q)) = _
    refine congrArg (V c main_arg8) (funext fun a => Fin.ext ?_)
    match a with
    | ⟨0, _⟩ => show win0_4.index t (0 : Fin 1) * 128 + 1 * q.val = q.val; omega

/-- An index of the result array is in point `t`'s block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v23).slice (win0_5.rect t)).set ↔ _
  rw [View.set_slice_whole, Rect.mem_set_unit]
  exact Iff.rfl

/-- Every row lies in the block of the point its number divided by 2000 names. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 50 := N_0
  have hlt : (i 0).val / 2000 < grid0.N := by rw [hN]; omega
  obtain ⟨-, -, -, -, -, -, -, -, -, e50, e51⟩ := idx_facts ⟨(i 0).val / 2000, hlt⟩
  refine ⟨⟨(i 0).val / 2000, hlt⟩, flush0_5 _, ?_⟩
  rw [mem_blk]
  intro a
  match a with
  | ⟨0, _⟩ =>
    show win0_5.index ⟨(i 0).val / 2000, hlt⟩ (0 : Fin 2) * 2000 ≤ (i 0).val ∧ (i 0).val < win0_5.index ⟨(i 0).val / 2000, hlt⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, hlt⟩ (1 : Fin 2) * 128 ≤ (i 1).val ∧ (i 1).val < win0_5.index ⟨(i 0).val / 2000, hlt⟩ (1 : Fin 2) * 128 + 128
    rw [e51]; omega

/-- The result array after the region: the whole-array layer of the arrays the region finds. -/
theorem final (c : Dev nD) : (dat0 V c).arrAt 5 cfg0.N
    = Stages.sageLayer (F := Ideal) (V c main_arg0) (V c main_v22) (V c main_arg6) (V c main_arg7) (V c main_arg8) :=
  (dat0 V c).arrAt_eq_of_cover 5 _ (fun t _ => flushed V c t) cover

end Cert.KernelIdeal.LayerA0

end
-- ==== Proof.LayerA1.lean ====
/-
  Region 1: the first party's second layer, over the first layer's result.

  Its grid has 50 points; point t stages rows 2000·t … 2000·t + 1999 of the two node arrays and the whole weight
  matrices and bias, and writes back rows 2000·t … 2000·t + 1999 of the result. The blocks tile the 100000 rows, so the
  result array is the whole-array layer of the arrays the region finds.
-/
import proofs.«148162_j58136677319060_1_alg».proof.Proof.Gen.KernelIdeal.Frame
import proofs.«148162_j58136677319060_1_alg».proof.Proof.Blocks
import Idealize.ShloMosaic.Lib.Pipeline.Value

set_option maxRecDepth 16384

noncomputable section

namespace Cert.KernelIdeal.LayerA1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the node arrays and the result move with the point along the rows, the
    weights and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem point_lt (t : Fin cfg1.N) : t.val < 50 := lt_of_lt_of_eq t.isLt N_1

/-- What point `t` writes back is block `t` of the whole-array layer of the arrays the region finds. -/
theorem flushed (c : Dev nD) (t : Fin cfg1.N) :
    (dat1 V c).flushed 5 t = ((cfg1.win 5).blk t).view.read (Elt Ideal)
      (Stages.sageLayer (F := Ideal) (V c main_v23) (V c main_v46) (V c main_arg9) (V c main_arg10) (V c main_arg11)) := by
  show (cfg1.win 5).cut (grid1.coords t) ((dat1 V c).after 5 t) = _
  rw [after1_5]
  unfold out1_5
  rw [View.canon_unit_zero hz2]
  simp only [View.ld_unit_zero (S := S2000x128) hz2, View.ld_unit_zero (S := S128x128) hz2, View.ld_unit_zero (S := S128) hz1]
  obtain ⟨e00, e01, e10, e11, e20, e21, e30, e31, e40, e50, e51⟩ := idx_facts t
  have ht := point_lt t
  have ho : t.val * 2000 + 2000 ≤ 100000 := by omega
  funext j
  obtain ⟨p, q, rfl⟩ : ∃ (p : Fin 2000) (q : Fin 128), j = ix2 p q := ⟨j 0, j 1, eq_ix2 j⟩
  have hemb : ((cfg1.win 5).blk t).view.emb (ix2 p q) = ix2 (Blocks.row (t.val * 2000) ho p) q := by
    funext a; apply Fin.ext
    match a with
    | ⟨0, _⟩ => show win1_5.index t (0 : Fin 2) * 2000 + 1 * p.val = t.val * 2000 + p.val; omega
    | ⟨1, _⟩ => show win1_5.index t (1 : Fin 2) * 128 + 1 * q.val = q.val; omega
  show k1_pay1 (iblk1 V c 0 t) (iblk1 V c 1 t) (iblk1 V c 2 t) (iblk1 V c 3 t) (iblk1 V c 4 t) (ix2 p q)
    = Stages.sageLayer (F := Ideal) (V c main_v23) (V c main_v46) (V c main_arg9) (V c main_arg10) (V c main_arg11) (((cfg1.win 5).blk t).view.emb (ix2 p q))
  rw [hemb]
  refine Blocks.layer_block k1_pay1 BodyAt.k1_pay1_apply (V c main_v23) (V c main_v46) (V c main_arg9) (V c main_arg10) (V c main_arg11) (t.val * 2000) ho
    (iblk1 V c 0 t) (iblk1 V c 1 t) (iblk1 V c 2 t) (iblk1 V c 3 t) (iblk1 V c 4 t) ?_ ?_ ?_ ?_ ?_ p q
  · intro p k
    show V c main_v23 (((cfg1.win 0).blk t).view.emb (ix2 p k)) = _
    refine congrArg (V c main_v23) (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k.val = k.val; omega
  · intro p k
    show V c main_v46 (((cfg1.win 1).blk t).view.emb (ix2 p k)) = _
    refine congrArg (V c main_v46) (funext fun a => Fin.ext ?_)
    match a with
    | ⟨0, _⟩ => show win1_1.index t (0 : Fin 2) * 2000 + 1 * p.val = t.val * 2000 + p.val; omega
    | ⟨1, _⟩ => show win1_1.index t (1 : Fin 2) * 128 + 1 * k.val = k.val; omega
  · intro k q
    show V c main_arg9 (((cfg1.win 2).blk t).view.emb (ix2 k q)) = _
    refine congrArg (V c main_arg9) (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  · intro k q
    show V c main_arg10 (((cfg1.win 3).blk t).view.emb (ix2 k q)) = _
    refine congrArg (V c main_arg10) (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  · intro q
    show V c main_arg11 (((cfg1.win 4).blk t).view.emb (ix1 q)) = _
    refine congrArg (V c main_arg11) (funext fun a => Fin.ext ?_)
    match a with
    | ⟨0, _⟩ => show win1_4.index t (0 : Fin 1) * 128 + 1 * q.val = q.val; omega

/-- An index of the result array is in point `t`'s block iff each coordinate is in the block's range on its axis. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v47).slice (win1_5.rect t)).set ↔ _
  rw [View.set_slice_whole, Rect.mem_set_unit]
  exact Iff.rfl

/-- Every row lies in the block of the point its number divided by 2000 names. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 50 := N_1
  have hlt : (i 0).val / 2000 < grid1.N := by rw [hN]; omega
  obtain ⟨-, -, -, -, -, -, -, -, -, e50, e51⟩ := idx_facts ⟨(i 0).val / 2000, hlt⟩
  refine ⟨⟨(i 0).val / 2000, hlt⟩, flush1_5 _, ?_⟩
  rw [mem_blk]
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    rw [e50]; show (i 0).val / 2000 * 2000 ≤ (i 0).val ∧ (i 0).val < (i 0).val / 2000 * 2000 + 2000; omega
  | ⟨1, _⟩ =>
    show win1_5.index ⟨(i 0).val / 2000, hlt⟩ (1 : Fin 2) * 128 ≤ (i 1).val ∧ (i 1).val < win1_5.index ⟨(i 0).val / 2000, hlt⟩ (1 : Fin 2) * 128 + 128
    rw [e51]; omega

/-- The result array after the region: the whole-array layer of the arrays the region finds. -/
theorem final (c : Dev nD) : (dat1 V c).arrAt 5 cfg1.N
    = Stages.sageLayer (F := Ideal) (V c main_v23) (V c main_v46) (V c main_arg9) (V c main_arg10) (V c main_arg11) :=
  (dat1 V c).arrAt_eq_of_cover 5 _ (fun t _ => flushed V c t) cover

end Cert.KernelIdeal.LayerA1

end
-- ==== Proof.LayerB0.lean ====
/-
  Region 2: the second party's first layer, over the second party's raw features.

  Its grid has 50 points; point t stages rows 2000·t … 2000·t + 1999 of the two node arrays and the whole weight
  matrices and bias, and writes back rows 2000·t … 2000·t + 1999 of the result. The blocks tile the 100000 rows, so the
  result array is the whole-array layer of the arrays the region finds.
-/
import proofs.«148162_j58136677319060_1_alg».proof.Proof.Gen.KernelIdeal.Frame
import proofs.«148162_j58136677319060_1_alg».proof.Proof.Blocks
import Idealize.ShloMosaic.Lib.Pipeline.Value

set_option maxRecDepth 16384

noncomputable section

namespace Cert.KernelIdeal.LayerB0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the node arrays and the result move with the point along the rows, the
    weights and the bias stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

theorem point_lt (t : Fin cfg2.N) : t.val < 50 := lt_of_lt_of_eq t.isLt N_2

/-- What point `t` writes back is block `t` of the whole-array layer of the arrays the region finds. -/
theorem flushed (c : Dev nD) (t : Fin cfg2.N) :
    (dat2 V c).flushed 5 t = ((cfg2.win 5).blk t).view.read (Elt Ideal)
      (Stages.sageLayer (F := Ideal) (V c main_arg1) (V c main_v70) (V c main_arg12) (V c main_arg13) (V c main_arg14)) := by
  show (cfg2.win 5).cut (grid2.coords t) ((dat2 V c).after 5 t) = _
  rw [after2_5]
  unfold out2_5
  rw [View.canon_unit_zero hz2]
  simp only [View.ld_unit_zero (S := S2000x128) hz2, View.ld_unit_zero (S := S128x128) hz2, View.ld_unit_zero (S := S128) hz1]
  obtain ⟨e00, e01, e10, e11, e20, e21, e30, e31, e40, e50, e51⟩ := idx_facts t
  have ht := point_lt t
  have ho : t.val * 2000 + 2000 ≤ 100000 := by omega
  funext j
  obtain ⟨p, q, rfl⟩ : ∃ (p : Fin 2000) (q : Fin 128), j = ix2 p q := ⟨j 0, j 1, eq_ix2 j⟩
  have hemb : ((cfg2.win 5).blk t).view.emb (ix2 p q) = ix2 (Blocks.row (t.val * 2000) ho p) q := by
    funext a; apply Fin.ext
    match a with
    | ⟨0, _⟩ => show win2_5.index t (0 : Fin 2) * 2000 + 1 * p.val = t.val * 2000 + p.val; omega
    | ⟨1, _⟩ => show win2_5.index t (1 : Fin 2) * 128 + 1 * q.val = q.val; omega
  show k2_pay1 (iblk2 V c 0 t) (iblk2 V c 1 t) (iblk2 V c 2 t) (iblk2 V c 3 t) (iblk2 V c 4 t) (ix2 p q)
    = Stages.sageLayer (F := Ideal) (V c main_arg1) (V c main_v70) (V c main_arg12) (V c main_arg13) (V c main_arg14) (((cfg2.win 5).blk t).view.emb (ix2 p q))
  rw [hemb]
  refine Blocks.layer_block k2_pay1 BodyAt.k2_pay1_apply (V c main_arg1) (V c main_v70) (V c main_arg12) (V c main_arg13) (V c main_arg14) (t.val * 2000) ho
    (iblk2 V c 0 t) (iblk2 V c 1 t) (iblk2 V c 2 t) (iblk2 V c 3 t) (iblk2 V c 4 t) ?_ ?_ ?_ ?_ ?_ p q
  · intro p k
    show V c main_arg1 (((cfg2.win 0).blk t).view.emb (ix2 p k)) = _
    refine congrArg (V c main_arg1) (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * k.val = k.val; omega
  · intro p k
    show V c main_v70 (((cfg2.win 1).blk t).view.emb (ix2 p k)) = _
    refine congrArg (V c main_v70) (funext fun a => Fin.ext ?_)
    match a with
    | ⟨0, _⟩ => show win2_1.index t (0 : Fin 2) * 2000 + 1 * p.val = t.val * 2000 + p.val; omega
    | ⟨1, _⟩ => show win2_1.index t (1 : Fin 2) * 128 + 1 * k.val = k.val; omega
  · intro k q
    show V c main_arg12 (((cfg2.win 2).blk t).view.emb (ix2 k q)) = _
    refine congrArg (V c main_arg12) (funext fun a => Fin.ext ?_)
    match a with
    | ⟨0, _⟩ => show win2_2.index t (0 : Fin 2) * 128 + 1 * k.val = k.val; omega
    | ⟨1, _⟩ => show win2_2.index t (1 : Fin 2) * 128 + 1 * q.val = q.val; omega
  · intro k q
    show V c main_arg13 (((cfg2.win 3).blk t).view.emb (ix2 k q)) = _
    refine congrArg (V c main_arg13) (funext fun a => Fin.ext ?_)
    match a with
    | ⟨0, _⟩ => show win2_3.index t (0 : Fin 2) * 128 + 1 * k.val = k.val; omega
    | ⟨1, _⟩ => show win2_3.index t (1 : Fin 2) * 128 + 1 * q.val = q.val; omega
  · intro q
    show V c main_arg14 (((cfg2.win 4).blk t).view.emb (ix1 q)) = _
    refine congrArg (V c main_arg14) (funext fun a => Fin.ext ?_)
    match a with
    | ⟨0, _⟩ => show win2_4.index t (0 : Fin 1) * 128 + 1 * q.val = q.val; omega

/-- An index of the result array is in point `t`'s block iff each coordinate is in the block's range on its axis. -/
theorem mem_blk (t : Fin cfg2.N) (i : S100000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v71).slice (win2_5.rect t)).set ↔ _
  rw [View.set_slice_whole, Rect.mem_set_unit]
  exact Iff.rfl

/-- Every row lies in the block of the point its number divided by 2000 names. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : grid2.N = 50 := N_2
  have hlt : (i 0).val / 2000 < grid2.N := by rw [hN]; omega
  obtain ⟨-, -, -, -, -, -, -, -, -, e50, e51⟩ := idx_facts ⟨(i 0).val / 2000, hlt⟩
  refine ⟨⟨(i 0).val / 2000, hlt⟩, flush2_5 _, ?_⟩
  rw [mem_blk]
  intro a
  match a with
  | ⟨0, _⟩ =>
    show win2_5.index ⟨(i 0).val / 2000, hlt⟩ (0 : Fin 2) * 2000 ≤ (i 0).val ∧ (i 0).val < win2_5.index ⟨(i 0).val / 2000, hlt⟩ (0 : Fin 2) * 2000 + 2000
    rw [e50]; show (i 0).val / 2000 * 2000 ≤ (i 0).val ∧ (i 0).val < (i 0).val / 2000 * 2000 + 2000; omega
  | ⟨1, _⟩ =>
    show win2_5.index ⟨(i 0).val / 2000, hlt⟩ (1 : Fin 2) * 128 ≤ (i 1).val ∧ (i 1).val < win2_5.index ⟨(i 0).val / 2000, hlt⟩ (1 : Fin 2) * 128 + 128
    rw [e51]; omega

/-- The result array after the region: the whole-array layer of the arrays the region finds. -/
theorem final (c : Dev nD) : (dat2 V c).arrAt 5 cfg2.N
    = Stages.sageLayer (F := Ideal) (V c main_arg1) (V c main_v70) (V c main_arg12) (V c main_arg13) (V c main_arg14) :=
  (dat2 V c).arrAt_eq_of_cover 5 _ (fun t _ => flushed V c t) cover

end Cert.KernelIdeal.LayerB0

end
-- ==== Proof.LayerB1.lean ====
/-
  Region 3: the second party's second layer, over its first layer's result.

  Its grid has 50 points; point t stages rows 2000·t … 2000·t + 1999 of the two node arrays and the whole weight
  matrices and bias, and writes back rows 2000·t … 2000·t + 1999 of the result. The blocks tile the 100000 rows, so the
  result array is the whole-array layer of the arrays the region finds.
-/
import proofs.«148162_j58136677319060_1_alg».proof.Proof.Gen.KernelIdeal.Frame
import proofs.«148162_j58136677319060_1_alg».proof.Proof.Blocks
import Idealize.ShloMosaic.Lib.Pipeline.Value

set_option maxRecDepth 16384

noncomputable section

namespace Cert.KernelIdeal.LayerB1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the node arrays and the result move with the point along the rows, the
    weights and the bias stay. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

theorem point_lt (t : Fin cfg3.N) : t.val < 50 := lt_of_lt_of_eq t.isLt N_3

/-- What point `t` writes back is block `t` of the whole-array layer of the arrays the region finds. -/
theorem flushed (c : Dev nD) (t : Fin cfg3.N) :
    (dat3 V c).flushed 5 t = ((cfg3.win 5).blk t).view.read (Elt Ideal)
      (Stages.sageLayer (F := Ideal) (V c main_v71) (V c main_v94) (V c main_arg15) (V c main_arg16) (V c main_arg17)) := by
  show (cfg3.win 5).cut (grid3.coords t) ((dat3 V c).after 5 t) = _
  rw [after3_5]
  unfold out3_5
  rw [View.canon_unit_zero hz2]
  simp only [View.ld_unit_zero (S := S2000x128) hz2, View.ld_unit_zero (S := S128x128) hz2, View.ld_unit_zero (S := S128) hz1]
  obtain ⟨e00, e01, e10, e11, e20, e21, e30, e31, e40, e50, e51⟩ := idx_facts t
  have ht := point_lt t
  have ho : t.val * 2000 + 2000 ≤ 100000 := by omega
  funext j
  obtain ⟨p, q, rfl⟩ : ∃ (p : Fin 2000) (q : Fin 128), j = ix2 p q := ⟨j 0, j 1, eq_ix2 j⟩
  have hemb : ((cfg3.win 5).blk t).view.emb (ix2 p q) = ix2 (Blocks.row (t.val * 2000) ho p) q := by
    funext a; apply Fin.ext
    match a with
    | ⟨0, _⟩ => show win3_5.index t (0 : Fin 2) * 2000 + 1 * p.val = t.val * 2000 + p.val; omega
    | ⟨1, _⟩ => show win3_5.index t (1 : Fin 2) * 128 + 1 * q.val = q.val; omega
  show k3_pay1 (iblk3 V c 0 t) (iblk3 V c 1 t) (iblk3 V c 2 t) (iblk3 V c 3 t) (iblk3 V c 4 t) (ix2 p q)
    = Stages.sageLayer (F := Ideal) (V c main_v71) (V c main_v94) (V c main_arg15) (V c main_arg16) (V c main_arg17) (((cfg3.win 5).blk t).view.emb (ix2 p q))
  rw [hemb]
  refine Blocks.layer_block k3_pay1 BodyAt.k3_pay1_apply (V c main_v71) (V c main_v94) (V c main_arg15) (V c main_arg16) (V c main_arg17) (t.val * 2000) ho
    (iblk3 V c 0 t) (iblk3 V c 1 t) (iblk3 V c 2 t) (iblk3 V c 3 t) (iblk3 V c 4 t) ?_ ?_ ?_ ?_ ?_ p q
  · intro p k
    show V c main_v71 (((cfg3.win 0).blk t).view.emb (ix2 p k)) = _
    refine congrArg (V c main_v71) (funext fun a => Fin.ext ?_)
    match a with
    | ⟨0, _⟩ => show win3_0.index t (0 : Fin 2) * 2000 + 1 * p.val = t.val * 2000 + p.val; omega
    | ⟨1, _⟩ => show win3_0.index t (1 : Fin 2) * 128 + 1 * k.val = k.val; omega
  · intro p k
    show V c main_v94 (((cfg3.win 1).blk t).view.emb (ix2 p k)) = _
    refine congrArg (V c main_v94) (funext fun a => Fin.ext ?_)
    match a with
    | ⟨0, _⟩ => show win3_1.index t (0 : Fin 2) * 2000 + 1 * p.val = t.val * 2000 + p.val; omega
    | ⟨1, _⟩ => show win3_1.index t (1 : Fin 2) * 128 + 1 * k.val = k.val; omega
  · intro k q
    show V c main_arg15 (((cfg3.win 2).blk t).view.emb (ix2 k q)) = _
    refine congrArg (V c main_arg15) (funext fun a => Fin.ext ?_)
    match a with
    | ⟨0, _⟩ => show win3_2.index t (0 : Fin 2) * 128 + 1 * k.val = k.val; omega
    | ⟨1, _⟩ => show win3_2.index t (1 : Fin 2) * 128 + 1 * q.val = q.val; omega
  · intro k q
    show V c main_arg16 (((cfg3.win 3).blk t).view.emb (ix2 k q)) = _
    refine congrArg (V c main_arg16) (funext fun a => Fin.ext ?_)
    match a with
    | ⟨0, _⟩ => show win3_3.index t (0 : Fin 2) * 128 + 1 * k.val = k.val; omega
    | ⟨1, _⟩ => show win3_3.index t (1 : Fin 2) * 128 + 1 * q.val = q.val; omega
  · intro q
    show V c main_arg17 (((cfg3.win 4).blk t).view.emb (ix1 q)) = _
    refine congrArg (V c main_arg17) (funext fun a => Fin.ext ?_)
    match a with
    | ⟨0, _⟩ => show win3_4.index t (0 : Fin 1) * 128 + 1 * q.val = q.val; omega

/-- An index of the result array is in point `t`'s block iff each coordinate is in the block's range on its axis. -/
theorem mem_blk (t : Fin cfg3.N) (i : S100000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v95).slice (win3_5.rect t)).set ↔ _
  rw [View.set_slice_whole, Rect.mem_set_unit]
  exact Iff.rfl

/-- Every row lies in the block of the point its number divided by 2000 names. -/
theorem cover (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  have hN : grid3.N = 50 := N_3
  have hlt : (i 0).val / 2000 < grid3.N := by rw [hN]; omega
  obtain ⟨-, -, -, -, -, -, -, -, -, e50, e51⟩ := idx_facts ⟨(i 0).val / 2000, hlt⟩
  refine ⟨⟨(i 0).val / 2000, hlt⟩, flush3_5 _, ?_⟩
  rw [mem_blk]
  intro a
  match a with
  | ⟨0, _⟩ =>
    show win3_5.index ⟨(i 0).val / 2000, hlt⟩ (0 : Fin 2) * 2000 ≤ (i 0).val ∧ (i 0).val < win3_5.index ⟨(i 0).val / 2000, hlt⟩ (0 : Fin 2) * 2000 + 2000
    rw [e50]; show (i 0).val / 2000 * 2000 ≤ (i 0).val ∧ (i 0).val < (i 0).val / 2000 * 2000 + 2000; omega
  | ⟨1, _⟩ =>
    show win3_5.index ⟨(i 0).val / 2000, hlt⟩ (1 : Fin 2) * 128 ≤ (i 1).val ∧ (i 1).val < win3_5.index ⟨(i 0).val / 2000, hlt⟩ (1 : Fin 2) * 128 + 128
    rw [e51]; omega

/-- The result array after the region: the whole-array layer of the arrays the region finds. -/
theorem final (c : Dev nD) : (dat3 V c).arrAt 5 cfg3.N
    = Stages.sageLayer (F := Ideal) (V c main_v71) (V c main_v94) (V c main_arg15) (V c main_arg16) (V c main_arg17) :=
  (dat3 V c).arrAt_eq_of_cover 5 _ (fun t _ => flushed V c t) cover

end Cert.KernelIdeal.LayerB1

end
-- ==== Proof.Logits.lean ====
/-
  Region 4: the classifier, relu ([ha | hb] · W₁ + b₁) · W₂ + b₂, computed as ha · W₁ᵃ + hb · W₁ᵇ with W₁ᵃ, W₁ᵇ the upper
  and lower 128 rows of W₁.

  Its grid has 50 points; point t stages rows 2000·t … 2000·t + 1999 of the two parties' features and the whole of the
  two halves of W₁, b₁, W₂ and b₂, and writes back rows 2000·t … 2000·t + 1999 of the logits. The blocks tile the
  100000 rows, so the result is the whole-array classifier of the arrays the region finds, given that the two weight
  operands it finds are the halves of one matrix W₁.
-/
import proofs.«148162_j58136677319060_1_alg».proof.Proof.Gen.KernelIdeal.Frame
import proofs.«148162_j58136677319060_1_alg».proof.Proof.Blocks
import Idealize.ShloMosaic.Lib.Pipeline.Value

set_option maxRecDepth 16384

noncomputable section

namespace Cert.KernelIdeal.Logits

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the two feature arrays and the logits move with the point along the rows,
    the weights and biases stay. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 1) = 0
    ∧ win4_5.index t (0 : Fin 2) = 0 ∧ win4_5.index t (1 : Fin 2) = 0
    ∧ win4_6.index t (0 : Fin 1) = 0
    ∧ win4_7.index t (0 : Fin 2) = t.val ∧ win4_7.index t (1 : Fin 2) = 0 :=
  (by decide +kernel : ∀ t : Fin grid4.N, _)

theorem point_lt (t : Fin cfg4.N) : t.val < 50 := lt_of_lt_of_eq t.isLt N_4

/-- What point `t` writes back is block `t` of the whole-array classifier of the arrays the region finds. -/
theorem flushed (c : Dev nD) (W1 : FVec Ideal ⟨2, ![256, 256]⟩ .f32)
    (hup : ∀ (k : Fin 128) (j : Fin 256), V c main_v96 (ix2 k j) = W1 (ix2 (Stages.upper k) j))
    (hlo : ∀ (k : Fin 128) (j : Fin 256), V c main_v97 (ix2 k j) = W1 (ix2 (Stages.lower k) j))
    (t : Fin cfg4.N) :
    (dat4 V c).flushed 7 t = ((cfg4.win 7).blk t).view.read (Elt Ideal)
      (Stages.classifier (F := Ideal) (V c main_v47) (V c main_v95) W1 (V c main_arg19) (V c main_arg20) (V c main_arg21)) := by
  show (cfg4.win 7).cut (grid4.coords t) ((dat4 V c).after 7 t) = _
  rw [after4_7]
  unfold out4_7
  rw [View.canon_unit_zero hz2]
  simp only [View.ld_unit_zero (S := S2000x128) hz2, View.ld_unit_zero (S := S128x256) hz2, View.ld_unit_zero (S := S256) hz1,
    View.ld_unit_zero (S := S256x40) hz2, View.ld_unit_zero (S := S40) hz1]
  obtain ⟨e00, e01, e10, e11, e20, e21, e30, e31, e40, e50, e51, e60, e70, e71⟩ := idx_facts t
  have ht := point_lt t
  have ho : t.val * 2000 + 2000 ≤ 100000 := by omega
  funext j
  obtain ⟨p, q, rfl⟩ : ∃ (p : Fin 2000) (q : Fin 40), j = ix2 p q := ⟨j 0, j 1, eq_ix2 j⟩
  have hemb : ((cfg4.win 7).blk t).view.emb (ix2 p q) = ix2 (Blocks.row (t.val * 2000) ho p) q := by
    funext a; apply Fin.ext
    match a with
    | ⟨0, _⟩ => show win4_7.index t (0 : Fin 2) * 2000 + 1 * p.val = t.val * 2000 + p.val; omega
    | ⟨1, _⟩ => show win4_7.index t (1 : Fin 2) * 40 + 1 * q.val = q.val; omega
  show k4_pay1 (iblk4 V c 0 t) (iblk4 V c 1 t) (iblk4 V c 2 t) (iblk4 V c 3 t) (iblk4 V c 4 t) (iblk4 V c 5 t) (iblk4 V c 6 t) (ix2 p q)
    = Stages.classifier (F := Ideal) (V c main_v47) (V c main_v95) W1 (V c main_arg19) (V c main_arg20) (V c main_arg21) (((cfg4.win 7).blk t).view.emb (ix2 p q))
  rw [hemb]
  refine Blocks.classifier_block k4_pay1 BodyAt.k4_pay1_apply (V c main_v47) (V c main_v95) W1 (V c main_arg19) (V c main_arg20) (V c main_arg21)
    (t.val * 2000) ho (iblk4 V c 0 t) (iblk4 V c 1 t) (iblk4 V c 2 t) (iblk4 V c 3 t) (iblk4 V c 4 t) (iblk4 V c 5 t) (iblk4 V c 6 t)
    ?_ ?_ ?_ ?_ ?_ ?_ ?_ p q
  · intro p k
    show V c main_v47 (((cfg4.win 0).blk t).view.emb (ix2 p k)) = _
    refine congrArg _ (funext fun a => Fin.ext ?_)
    match a with
    | ⟨0, _⟩ => show win4_0.index t (0 : Fin 2) * 2000 + 1 * p.val = t.val * 2000 + p.val; omega
    | ⟨1, _⟩ => show win4_0.index t (1 : Fin 2) * 128 + 1 * k.val = k.val; omega
  · intro p k
    show V c main_v95 (((cfg4.win 1).blk t).view.emb (ix2 p k)) = _
    refine congrArg _ (funext fun a => Fin.ext ?_)
    match a with
    | ⟨0, _⟩ => show win4_1.index t (0 : Fin 2) * 2000 + 1 * p.val = t.val * 2000 + p.val; omega
    | ⟨1, _⟩ => show win4_1.index t (1 : Fin 2) * 128 + 1 * k.val = k.val; omega
  · intro k j
    show V c main_v96 (((cfg4.win 2).blk t).view.emb (ix2 k j)) = _
    refine Eq.trans (congrArg (V c main_v96) (funext fun a => Fin.ext ?_)) (hup k j)
    match a with
    | ⟨0, _⟩ => show win4_2.index t (0 : Fin 2) * 128 + 1 * k.val = k.val; omega
    | ⟨1, _⟩ => show win4_2.index t (1 : Fin 2) * 256 + 1 * j.val = j.val; omega
  · intro k j
    show V c main_v97 (((cfg4.win 3).blk t).view.emb (ix2 k j)) = _
    refine Eq.trans (congrArg (V c main_v97) (funext fun a => Fin.ext ?_)) (hlo k j)
    match a with
    | ⟨0, _⟩ => show win4_3.index t (0 : Fin 2) * 128 + 1 * k.val = k.val; omega
    | ⟨1, _⟩ => show win4_3.index t (1 : Fin 2) * 256 + 1 * j.val = j.val; omega
  · intro j
    show V c main_arg19 (((cfg4.win 4).blk t).view.emb (ix1 j)) = _
    refine congrArg _ (funext fun a => Fin.ext ?_)
    match a with
    | ⟨0, _⟩ => show win4_4.index t (0 : Fin 1) * 256 + 1 * j.val = j.val; omega
  · intro j q
    show V c main_arg20 (((cfg4.win 5).blk t).view.emb (ix2 j q)) = _
    refine congrArg _ (funext fun a => Fin.ext ?_)
    match a with
    | ⟨0, _⟩ => show win4_5.index t (0 : Fin 2) * 256 + 1 * j.val = j.val; omega
    | ⟨1, _⟩ => show win4_5.index t (1 : Fin 2) * 40 + 1 * q.val = q.val; omega
  · intro q
    show V c main_arg21 (((cfg4.win 6).blk t).view.emb (ix1 q)) = _
    refine congrArg _ (funext fun a => Fin.ext ?_)
    match a with
    | ⟨0, _⟩ => show win4_6.index t (0 : Fin 1) * 40 + 1 * q.val = q.val; omega

/-- An index of the logits is in point `t`'s block iff each coordinate is in the block's range on its axis. -/
theorem mem_blk (t : Fin cfg4.N) (i : S100000x40.Idx) :
    i ∈ ((cfg4.win 7).blk t).view.set ↔ ∀ a : Fin 2, win4_7.index t a * S2000x40.size a ≤ (i a).val ∧ (i a).val < win4_7.index t a * S2000x40.size a + S2000x40.size a := by
  show i ∈ ((View.whole main_v98).slice (win4_7.rect t)).set ↔ _
  rw [View.set_slice_whole, Rect.mem_set_unit]
  exact Iff.rfl

/-- Every row lies in the block of the point its number divided by 2000 names. -/
theorem cover (i : S100000x40.Idx) : ∃ t : Fin cfg4.N, (cfg4.win 7).flush t = true ∧ i ∈ ((cfg4.win 7).blk t).view.set := by
  have hi0 : (i 0).val < 100000 := (i 0).isLt
  have hi1 : (i 1).val < 40 := (i 1).isLt
  have hN : grid4.N = 50 := N_4
  have hlt : (i 0).val / 2000 < grid4.N := by rw [hN]; omega
  obtain ⟨-, -, -, -, -, -, -, -, -, -, -, -, e70, e71⟩ := idx_facts ⟨(i 0).val / 2000, hlt⟩
  refine ⟨⟨(i 0).val / 2000, hlt⟩, flush4_7 _, ?_⟩
  rw [mem_blk]
  intro a
  match a with
  | ⟨0, _⟩ =>
    show win4_7.index ⟨(i 0).val / 2000, hlt⟩ (0 : Fin 2) * 2000 ≤ (i 0).val ∧ (i 0).val < win4_7.index ⟨(i 0).val / 2000, hlt⟩ (0 : Fin 2) * 2000 + 2000
    rw [e70]; show (i 0).val / 2000 * 2000 ≤ (i 0).val ∧ (i 0).val < (i 0).val / 2000 * 2000 + 2000; omega
  | ⟨1, _⟩ =>
    show win4_7.index ⟨(i 0).val / 2000, hlt⟩ (1 : Fin 2) * 40 ≤ (i 1).val ∧ (i 1).val < win4_7.index ⟨(i 0).val / 2000, hlt⟩ (1 : Fin 2) * 40 + 40
    rw [e71]; omega

/-- The logits after the region: the whole-array classifier of the arrays the region finds. -/
theorem final (c : Dev nD) (W1 : FVec Ideal ⟨2, ![256, 256]⟩ .f32)
    (hup : ∀ (k : Fin 128) (j : Fin 256), V c main_v96 (ix2 k j) = W1 (ix2 (Stages.upper k) j))
    (hlo : ∀ (k : Fin 128) (j : Fin 256), V c main_v97 (ix2 k j) = W1 (ix2 (Stages.lower k) j)) :
    (dat4 V c).arrAt 7 cfg4.N
      = Stages.classifier (F := Ideal) (V c main_v47) (V c main_v95) W1 (V c main_arg19) (V c main_arg20) (V c main_arg21) :=
  (dat4 V c).arrAt_eq_of_cover 7 _ (fun t _ => flushed V c W1 hup hlo t) cover

end Cert.KernelIdeal.Logits

end
-- ==== Proof.Walk.lean ====
/-
  The kernel's arrays through the run, stage by stage. At the entry of each layer region its node features are the
  previous stage's result (or the party's raw features), its neighbour-mean operand is what the host operations before
  it computed from those features and the party's edges, and its weights and bias are arguments; its result array is
  the whole-array layer of these. The classifier region finds the two parties' second-layer features, the upper and
  lower 128 rows of W₁ (two host slices), and b₁, W₂, b₂. So the buffer the program returns ends holding the network of
  the stages at the launch arrays.
-/
import proofs.«148162_j58136677319060_1_alg».proof.Proof.Gen.KernelIdeal.Frame
import proofs.«148162_j58136677319060_1_alg».proof.Proof.Args
import proofs.«148162_j58136677319060_1_alg».proof.Proof.KStages
import proofs.«148162_j58136677319060_1_alg».proof.Proof.Means
import proofs.«148162_j58136677319060_1_alg».proof.Proof.LayerA0
import proofs.«148162_j58136677319060_1_alg».proof.Proof.LayerA1
import proofs.«148162_j58136677319060_1_alg».proof.Proof.LayerB0
import proofs.«148162_j58136677319060_1_alg».proof.Proof.LayerB1
import proofs.«148162_j58136677319060_1_alg».proof.Proof.Logits
import Idealize.ShloMosaic.Lib.StableHlo.Run
import Idealize.ShloMosaic.Lib.ValueLayout

set_option maxRecDepth 16384

noncomputable section

namespace Cert.KernelIdeal.Walk

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-! ## The first party -/

/-- Region 0 finds the neighbour mean of the first party's raw features. -/
theorem mean0 (c : Dev nD) : V2 m ρ c main_v22 = (Cert.Stages.neighbourMean (F := Ideal) (m ((c : Thread nD τ).loc main_arg0)) (m ((c : Thread nD τ).loc main_arg2)) (m ((c : Thread nD τ).loc main_arg3))) :=
  (Means.mean0 m ρ c).trans (Cert.KStages.neighbourMean_eq _ _ _)

/-- Region 0 leaves the first party's first layer. -/
theorem layerA0 (c : Dev nD) : W3 m ρ c (Proc.devRef .tc main_v23) = (Cert.Stages.sageLayer (F := Ideal) (m ((c : Thread nD τ).loc main_arg0)) (Cert.Stages.neighbourMean (F := Ideal) (m ((c : Thread nD τ).loc main_arg0)) (m ((c : Thread nD τ).loc main_arg2)) (m ((c : Thread nD τ).loc main_arg3))) (m ((c : Thread nD τ).loc main_arg6)) (m ((c : Thread nD τ).loc main_arg7)) (m ((c : Thread nD τ).loc main_arg8))) := by
  refine ((W3_arr m ρ c 5).trans (LayerA0.final (V2 m ρ) c)).trans ?_
  have e0 : V2 m ρ c main_arg0 = (m ((c : Thread nD τ).loc main_arg0)) := Args.arg0_at2 m ρ c
  have e6 : V2 m ρ c main_arg6 = (m ((c : Thread nD τ).loc main_arg6)) := Args.arg6_at2 m ρ c
  have e7 : V2 m ρ c main_arg7 = (m ((c : Thread nD τ).loc main_arg7)) := Args.arg7_at2 m ρ c
  have e8 : V2 m ρ c main_arg8 = (m ((c : Thread nD τ).loc main_arg8)) := Args.arg8_at2 m ρ c
  rw [mean0 m ρ c, e0, e6, e7, e8]

/-- The first layer's result reaches region 1 unchanged. -/
theorem in1_h (c : Dev nD) : V5 m ρ c main_v23 = (Cert.Stages.sageLayer (F := Ideal) (m ((c : Thread nD τ).loc main_arg0)) (Cert.Stages.neighbourMean (F := Ideal) (m ((c : Thread nD τ).loc main_arg0)) (m ((c : Thread nD τ).loc main_arg2)) (m ((c : Thread nD τ).loc main_arg3))) (m ((c : Thread nD τ).loc main_arg6)) (m ((c : Thread nD τ).loc main_arg7)) (m ((c : Thread nD τ).loc main_arg8))) :=
  (((StableHlo.after_of_forall_not_mem (b := Proc.devRef .tc main_v23) _ _ (List.forall_iff_forall_mem.mp (by
    simp only [hostOps1_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))).trans (StableHlo.after_of_forall_not_mem (b := Proc.devRef .tc main_v23) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))).trans (layerA0 m ρ c)

/-- Region 1 finds the neighbour mean of the first layer's result. -/
theorem mean1 (c : Dev nD) : V5 m ρ c main_v46 = (Cert.Stages.neighbourMean (F := Ideal) (Cert.Stages.sageLayer (F := Ideal) (m ((c : Thread nD τ).loc main_arg0)) (Cert.Stages.neighbourMean (F := Ideal) (m ((c : Thread nD τ).loc main_arg0)) (m ((c : Thread nD τ).loc main_arg2)) (m ((c : Thread nD τ).loc main_arg3))) (m ((c : Thread nD τ).loc main_arg6)) (m ((c : Thread nD τ).loc main_arg7)) (m ((c : Thread nD τ).loc main_arg8))) (m ((c : Thread nD τ).loc main_arg2)) (m ((c : Thread nD τ).loc main_arg3))) := by
  refine (Means.mean1 m ρ c).trans ?_
  rw [layerA0 m ρ c, Args.arg2_at3 m ρ c, Args.arg3_at3 m ρ c]
  exact Cert.KStages.neighbourMean_eq _ _ _

/-- Region 1 leaves the first party's second layer. -/
theorem layerA1 (c : Dev nD) : W6 m ρ c (Proc.devRef .tc main_v47) = (Cert.Stages.sageLayer (F := Ideal) (Cert.Stages.sageLayer (F := Ideal) (m ((c : Thread nD τ).loc main_arg0)) (Cert.Stages.neighbourMean (F := Ideal) (m ((c : Thread nD τ).loc main_arg0)) (m ((c : Thread nD τ).loc main_arg2)) (m ((c : Thread nD τ).loc main_arg3))) (m ((c : Thread nD τ).loc main_arg6)) (m ((c : Thread nD τ).loc main_arg7)) (m ((c : Thread nD τ).loc main_arg8))) (Cert.Stages.neighbourMean (F := Ideal) (Cert.Stages.sageLayer (F := Ideal) (m ((c : Thread nD τ).loc main_arg0)) (Cert.Stages.neighbourMean (F := Ideal) (m ((c : Thread nD τ).loc main_arg0)) (m ((c : Thread nD τ).loc main_arg2)) (m ((c : Thread nD τ).loc main_arg3))) (m ((c : Thread nD τ).loc main_arg6)) (m ((c : Thread nD τ).loc main_arg7)) (m ((c : Thread nD τ).loc main_arg8))) (m ((c : Thread nD τ).loc main_arg2)) (m ((c : Thread nD τ).loc main_arg3))) (m ((c : Thread nD τ).loc main_arg9)) (m ((c : Thread nD τ).loc main_arg10)) (m ((c : Thread nD τ).loc main_arg11))) := by
  refine ((W6_arr m ρ c 5).trans (LayerA1.final (V5 m ρ) c)).trans ?_
  have e9 : V5 m ρ c main_arg9 = (m ((c : Thread nD τ).loc main_arg9)) := Args.arg9_at5 m ρ c
  have e10 : V5 m ρ c main_arg10 = (m ((c : Thread nD τ).loc main_arg10)) := Args.arg10_at5 m ρ c
  have e11 : V5 m ρ c main_arg11 = (m ((c : Thread nD τ).loc main_arg11)) := Args.arg11_at5 m ρ c
  rw [mean1 m ρ c, in1_h m ρ c, e9, e10, e11]

/-! ## The second party -/

/-- Region 2 finds the neighbour mean of the second party's raw features. -/
theorem mean2 (c : Dev nD) : V8 m ρ c main_v70 = (Cert.Stages.neighbourMean (F := Ideal) (m ((c : Thread nD τ).loc main_arg1)) (m ((c : Thread nD τ).loc main_arg4)) (m ((c : Thread nD τ).loc main_arg5))) := by
  refine (Means.mean2 m ρ c).trans ?_
  rw [Args.arg1_at6 m ρ c, Args.arg4_at6 m ρ c, Args.arg5_at6 m ρ c]
  exact Cert.KStages.neighbourMean_eq _ _ _

/-- Region 2 leaves the second party's first layer. -/
theorem layerB0 (c : Dev nD) : W9 m ρ c (Proc.devRef .tc main_v71) = (Cert.Stages.sageLayer (F := Ideal) (m ((c : Thread nD τ).loc main_arg1)) (Cert.Stages.neighbourMean (F := Ideal) (m ((c : Thread nD τ).loc main_arg1)) (m ((c : Thread nD τ).loc main_arg4)) (m ((c : Thread nD τ).loc main_arg5))) (m ((c : Thread nD τ).loc main_arg12)) (m ((c : Thread nD τ).loc main_arg13)) (m ((c : Thread nD τ).loc main_arg14))) := by
  refine ((W9_arr m ρ c 5).trans (LayerB0.final (V8 m ρ) c)).trans ?_
  have e1 : V8 m ρ c main_arg1 = (m ((c : Thread nD τ).loc main_arg1)) := Args.arg1_at8 m ρ c
  have e12 : V8 m ρ c main_arg12 = (m ((c : Thread nD τ).loc main_arg12)) := Args.arg12_at8 m ρ c
  have e13 : V8 m ρ c main_arg13 = (m ((c : Thread nD τ).loc main_arg13)) := Args.arg13_at8 m ρ c
  have e14 : V8 m ρ c main_arg14 = (m ((c : Thread nD τ).loc main_arg14)) := Args.arg14_at8 m ρ c
  rw [mean2 m ρ c, e1, e12, e13, e14]

/-- The first layer's result reaches region 3 unchanged. -/
theorem in3_h (c : Dev nD) : V11 m ρ c main_v71 = (Cert.Stages.sageLayer (F := Ideal) (m ((c : Thread nD τ).loc main_arg1)) (Cert.Stages.neighbourMean (F := Ideal) (m ((c : Thread nD τ).loc main_arg1)) (m ((c : Thread nD τ).loc main_arg4)) (m ((c : Thread nD τ).loc main_arg5))) (m ((c : Thread nD τ).loc main_arg12)) (m ((c : Thread nD τ).loc main_arg13)) (m ((c : Thread nD τ).loc main_arg14))) :=
  (((StableHlo.after_of_forall_not_mem (b := Proc.devRef .tc main_v71) _ _ (List.forall_iff_forall_mem.mp (by
    simp only [hostOps3_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))).trans (StableHlo.after_of_forall_not_mem (b := Proc.devRef .tc main_v71) _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))).trans (layerB0 m ρ c)

/-- Region 3 finds the neighbour mean of the second party's first layer. -/
theorem mean3 (c : Dev nD) : V11 m ρ c main_v94 = (Cert.Stages.neighbourMean (F := Ideal) (Cert.Stages.sageLayer (F := Ideal) (m ((c : Thread nD τ).loc main_arg1)) (Cert.Stages.neighbourMean (F := Ideal) (m ((c : Thread nD τ).loc main_arg1)) (m ((c : Thread nD τ).loc main_arg4)) (m ((c : Thread nD τ).loc main_arg5))) (m ((c : Thread nD τ).loc main_arg12)) (m ((c : Thread nD τ).loc main_arg13)) (m ((c : Thread nD τ).loc main_arg14))) (m ((c : Thread nD τ).loc main_arg4)) (m ((c : Thread nD τ).loc main_arg5))) := by
  refine (Means.mean3 m ρ c).trans ?_
  rw [layerB0 m ρ c, Args.arg4_at9 m ρ c, Args.arg5_at9 m ρ c]
  exact Cert.KStages.neighbourMean_eq _ _ _

/-- Region 3 leaves the second party's second layer. -/
theorem layerB1 (c : Dev nD) : W12 m ρ c (Proc.devRef .tc main_v95) = (Cert.Stages.sageLayer (F := Ideal) (Cert.Stages.sageLayer (F := Ideal) (m ((c : Thread nD τ).loc main_arg1)) (Cert.Stages.neighbourMean (F := Ideal) (m ((c : Thread nD τ).loc main_arg1)) (m ((c : Thread nD τ).loc main_arg4)) (m ((c : Thread nD τ).loc main_arg5))) (m ((c : Thread nD τ).loc main_arg12)) (m ((c : Thread nD τ).loc main_arg13)) (m ((c : Thread nD τ).loc main_arg14))) (Cert.Stages.neighbourMean (F := Ideal) (Cert.Stages.sageLayer (F := Ideal) (m ((c : Thread nD τ).loc main_arg1)) (Cert.Stages.neighbourMean (F := Ideal) (m ((c : Thread nD τ).loc main_arg1)) (m ((c : Thread nD τ).loc main_arg4)) (m ((c : Thread nD τ).loc main_arg5))) (m ((c : Thread nD τ).loc main_arg12)) (m ((c : Thread nD τ).loc main_arg13)) (m ((c : Thread nD τ).loc main_arg14))) (m ((c : Thread nD τ).loc main_arg4)) (m ((c : Thread nD τ).loc main_arg5))) (m ((c : Thread nD τ).loc main_arg15)) (m ((c : Thread nD τ).loc main_arg16)) (m ((c : Thread nD τ).loc main_arg17))) := by
  refine ((W12_arr m ρ c 5).trans (LayerB1.final (V11 m ρ) c)).trans ?_
  have e15 : V11 m ρ c main_arg15 = (m ((c : Thread nD τ).loc main_arg15)) := Args.arg15_at11 m ρ c
  have e16 : V11 m ρ c main_arg16 = (m ((c : Thread nD τ).loc main_arg16)) := Args.arg16_at11 m ρ c
  have e17 : V11 m ρ c main_arg17 = (m ((c : Thread nD τ).loc main_arg17)) := Args.arg17_at11 m ρ c
  rw [mean3 m ρ c, in3_h m ρ c, e15, e16, e17]

/-! ## The classifier -/

/-- The first party's features reach the classifier region unchanged … -/
theorem in4_a (c : Dev nD) : V13 m ρ c main_v47 = (Cert.Stages.sageLayer (F := Ideal) (Cert.Stages.sageLayer (F := Ideal) (m ((c : Thread nD τ).loc main_arg0)) (Cert.Stages.neighbourMean (F := Ideal) (m ((c : Thread nD τ).loc main_arg0)) (m ((c : Thread nD τ).loc main_arg2)) (m ((c : Thread nD τ).loc main_arg3))) (m ((c : Thread nD τ).loc main_arg6)) (m ((c : Thread nD τ).loc main_arg7)) (m ((c : Thread nD τ).loc main_arg8))) (Cert.Stages.neighbourMean (F := Ideal) (Cert.Stages.sageLayer (F := Ideal) (m ((c : Thread nD τ).loc main_arg0)) (Cert.Stages.neighbourMean (F := Ideal) (m ((c : Thread nD τ).loc main_arg0)) (m ((c : Thread nD τ).loc main_arg2)) (m ((c : Thread nD τ).loc main_arg3))) (m ((c : Thread nD τ).loc main_arg6)) (m ((c : Thread nD τ).loc main_arg7)) (m ((c : Thread nD τ).loc main_arg8))) (m ((c : Thread nD τ).loc main_arg2)) (m ((c : Thread nD τ).loc main_arg3))) (m ((c : Thread nD τ).loc main_arg9)) (m ((c : Thread nD τ).loc main_arg10)) (m ((c : Thread nD τ).loc main_arg11))) :=
  ((((((((StableHlo.after_of_forall_not_mem (b := Proc.devRef .tc main_v47) _ _ (List.forall_iff_forall_mem.mp (by
    simp only [hostOps4, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))).trans (W12_of_ne m ρ c main_v47 (by decide))).trans (StableHlo.after_of_forall_not_mem (b := Proc.devRef .tc main_v47) _ _ (List.forall_iff_forall_mem.mp (by
    simp only [hostOps3_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))).trans (StableHlo.after_of_forall_not_mem (b := Proc.devRef .tc main_v47) _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))).trans (W9_of_ne m ρ c main_v47 (by decide))).trans (StableHlo.after_of_forall_not_mem (b := Proc.devRef .tc main_v47) _ _ (List.forall_iff_forall_mem.mp (by
    simp only [hostOps2_1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))).trans (StableHlo.after_of_forall_not_mem (b := Proc.devRef .tc main_v47) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))).trans (layerA1 m ρ c)

/-- … and so do the second party's. -/
theorem in4_b (c : Dev nD) : V13 m ρ c main_v95 = (Cert.Stages.sageLayer (F := Ideal) (Cert.Stages.sageLayer (F := Ideal) (m ((c : Thread nD τ).loc main_arg1)) (Cert.Stages.neighbourMean (F := Ideal) (m ((c : Thread nD τ).loc main_arg1)) (m ((c : Thread nD τ).loc main_arg4)) (m ((c : Thread nD τ).loc main_arg5))) (m ((c : Thread nD τ).loc main_arg12)) (m ((c : Thread nD τ).loc main_arg13)) (m ((c : Thread nD τ).loc main_arg14))) (Cert.Stages.neighbourMean (F := Ideal) (Cert.Stages.sageLayer (F := Ideal) (m ((c : Thread nD τ).loc main_arg1)) (Cert.Stages.neighbourMean (F := Ideal) (m ((c : Thread nD τ).loc main_arg1)) (m ((c : Thread nD τ).loc main_arg4)) (m ((c : Thread nD τ).loc main_arg5))) (m ((c : Thread nD τ).loc main_arg12)) (m ((c : Thread nD τ).loc main_arg13)) (m ((c : Thread nD τ).loc main_arg14))) (m ((c : Thread nD τ).loc main_arg4)) (m ((c : Thread nD τ).loc main_arg5))) (m ((c : Thread nD τ).loc main_arg15)) (m ((c : Thread nD τ).loc main_arg16)) (m ((c : Thread nD τ).loc main_arg17))) :=
  ((StableHlo.after_of_forall_not_mem (b := Proc.devRef .tc main_v95) _ _ (List.forall_iff_forall_mem.mp (by
    simp only [hostOps4, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))).trans (layerB1 m ρ c)

/-- The classifier region's first weight operand is the upper 128 rows of W₁ … -/
theorem upperHalf (c : Dev nD) (k : Fin 128) (j : Fin 256) :
    V13 m ρ c main_v96 (ix2 k j) = (m ((c : Thread nD τ).loc main_arg18)) (ix2 (Cert.Stages.upper k) j) := by
  have e : V13 m ρ c main_v96 = extractStridedSlice S128x256 ![0, 0] (W12 m ρ c (Proc.devRef .tc main_arg18)) slices_S256x256_S128x256_0_0 := by
    dsimp only [V13, W13]
    after_results
  rw [e, Args.arg18_at12 m ρ c]
  exact slice2_axis0_apply 0 _ _ k j (Cert.Stages.upper k) (by show k.val = 0 + k.val; omega)

/-- … and its second the lower 128 rows. -/
theorem lowerHalf (c : Dev nD) (k : Fin 128) (j : Fin 256) :
    V13 m ρ c main_v97 (ix2 k j) = (m ((c : Thread nD τ).loc main_arg18)) (ix2 (Cert.Stages.lower k) j) := by
  have e : V13 m ρ c main_v97 = extractStridedSlice S128x256 ![128, 0] (W12 m ρ c (Proc.devRef .tc main_arg18)) slices_S256x256_S128x256_128_0 := by
    dsimp only [V13, W13]
    after_results
  rw [e, Args.arg18_at12 m ρ c]
  exact slice2_axis0_apply 128 _ _ k j (Cert.Stages.lower k) rfl

/-- The buffer the program returns ends holding the network of the stages at the launch arrays. -/
theorem logits (c : Dev nD) : W14 m ρ c (Proc.devRef .tc main_v98)
    = Cert.Stages.classifier (F := Ideal) (Cert.Stages.sageLayer (F := Ideal) (Cert.Stages.sageLayer (F := Ideal) (m ((c : Thread nD τ).loc main_arg0)) (Cert.Stages.neighbourMean (F := Ideal) (m ((c : Thread nD τ).loc main_arg0)) (m ((c : Thread nD τ).loc main_arg2)) (m ((c : Thread nD τ).loc main_arg3))) (m ((c : Thread nD τ).loc main_arg6)) (m ((c : Thread nD τ).loc main_arg7)) (m ((c : Thread nD τ).loc main_arg8))) (Cert.Stages.neighbourMean (F := Ideal) (Cert.Stages.sageLayer (F := Ideal) (m ((c : Thread nD τ).loc main_arg0)) (Cert.Stages.neighbourMean (F := Ideal) (m ((c : Thread nD τ).loc main_arg0)) (m ((c : Thread nD τ).loc main_arg2)) (m ((c : Thread nD τ).loc main_arg3))) (m ((c : Thread nD τ).loc main_arg6)) (m ((c : Thread nD τ).loc main_arg7)) (m ((c : Thread nD τ).loc main_arg8))) (m ((c : Thread nD τ).loc main_arg2)) (m ((c : Thread nD τ).loc main_arg3))) (m ((c : Thread nD τ).loc main_arg9)) (m ((c : Thread nD τ).loc main_arg10)) (m ((c : Thread nD τ).loc main_arg11))) (Cert.Stages.sageLayer (F := Ideal) (Cert.Stages.sageLayer (F := Ideal) (m ((c : Thread nD τ).loc main_arg1)) (Cert.Stages.neighbourMean (F := Ideal) (m ((c : Thread nD τ).loc main_arg1)) (m ((c : Thread nD τ).loc main_arg4)) (m ((c : Thread nD τ).loc main_arg5))) (m ((c : Thread nD τ).loc main_arg12)) (m ((c : Thread nD τ).loc main_arg13)) (m ((c : Thread nD τ).loc main_arg14))) (Cert.Stages.neighbourMean (F := Ideal) (Cert.Stages.sageLayer (F := Ideal) (m ((c : Thread nD τ).loc main_arg1)) (Cert.Stages.neighbourMean (F := Ideal) (m ((c : Thread nD τ).loc main_arg1)) (m ((c : Thread nD τ).loc main_arg4)) (m ((c : Thread nD τ).loc main_arg5))) (m ((c : Thread nD τ).loc main_arg12)) (m ((c : Thread nD τ).loc main_arg13)) (m ((c : Thread nD τ).loc main_arg14))) (m ((c : Thread nD τ).loc main_arg4)) (m ((c : Thread nD τ).loc main_arg5))) (m ((c : Thread nD τ).loc main_arg15)) (m ((c : Thread nD τ).loc main_arg16)) (m ((c : Thread nD τ).loc main_arg17))) (m ((c : Thread nD τ).loc main_arg18)) (m ((c : Thread nD τ).loc main_arg19)) (m ((c : Thread nD τ).loc main_arg20)) (m ((c : Thread nD τ).loc main_arg21)) := by
  refine ((W14_arr m ρ c 7).trans (Logits.final (V13 m ρ) c (m ((c : Thread nD τ).loc main_arg18)) (upperHalf m ρ c) (lowerHalf m ρ c))).trans ?_
  have e19 : V13 m ρ c main_arg19 = (m ((c : Thread nD τ).loc main_arg19)) := Args.arg19_at13 m ρ c
  have e20 : V13 m ρ c main_arg20 = (m ((c : Thread nD τ).loc main_arg20)) := Args.arg20_at13 m ρ c
  have e21 : V13 m ρ c main_arg21 = (m ((c : Thread nD τ).loc main_arg21)) := Args.arg21_at13 m ρ c
  rw [in4_a m ρ c, in4_b m ρ c, e19, e20, e21]

end Cert.KernelIdeal.Walk

end
-- ==== Proof.lean ====
/-
  The certificate of a two-party GraphSAGE network with a fused classifier against its reference.

  Both programs compute, for each party, two mean-aggregator GraphSAGE layers — the neighbour mean of the node features
  along the party's edges (a row gather and scatter-adds on the host, in both programs), then
  relu (h · W_self + mean · W_neigh + b) — and then the classifier relu ([ha | hb] · W₁ + b₁) · W₂ + b₂ on the two parties'
  features joined along the feature axis. The kernel computes each layer and the classifier in a kernel region over
  row blocks of 2000 nodes, the classifier's first product as ha · W₁ᵃ + hb · W₁ᵇ over the upper and lower halves of
  W₁; the reference computes whole-array matrix products. At the exact values the two agree entry by entry: a layer's
  entry depends only on its own row, so the blocks tile the rows, and the sum over the 256 joined features splits at
  128 into the two parties' sums, a regrouping of a finite sum that holds on the extended reals without any
  finiteness of the inputs. The host operations between the regions are the same in both programs.

  The kernel's frames are the generated ones; the reference's frame is its run with the result dropped; the
  idealization rewrote nothing, so its conjunct is `True`.
-/
import proofs.«148162_j58136677319060_1_alg».proof.Defs
import proofs.«148162_j58136677319060_1_alg».proof.Proof.Gen.Kernel
import proofs.«148162_j58136677319060_1_alg».proof.Proof.Gen.Kernel.Skeleton
import proofs.«148162_j58136677319060_1_alg».proof.Proof.Gen.Kernel.Launch
import proofs.«148162_j58136677319060_1_alg».proof.Proof.Gen.Kernel.Points
import proofs.«148162_j58136677319060_1_alg».proof.Proof.Gen.Kernel.Frame
import proofs.«148162_j58136677319060_1_alg».proof.Proof.Gen.KernelIdeal
import proofs.«148162_j58136677319060_1_alg».proof.Proof.Gen.KernelIdeal.Skeleton
import proofs.«148162_j58136677319060_1_alg».proof.Proof.Gen.KernelIdeal.Launch
import proofs.«148162_j58136677319060_1_alg».proof.Proof.Gen.KernelIdeal.Points
import proofs.«148162_j58136677319060_1_alg».proof.Proof.Gen.KernelIdeal.Frame
import proofs.«148162_j58136677319060_1_alg».proof.Proof.Gen.ReferenceIdeal
import proofs.«148162_j58136677319060_1_alg».proof.Proof.Gen.Pre_finite_inputs
import proofs.«148162_j58136677319060_1_alg».proof.Proof.RefRun
import proofs.«148162_j58136677319060_1_alg».proof.Proof.RefSide
import proofs.«148162_j58136677319060_1_alg».proof.Proof.KernelRun
import proofs.«148162_j58136677319060_1_alg».proof.Proof.Walk
import Idealize.ShloMosaic.Adequacy
import Idealize.ShloMosaic.Init

set_option maxRecDepth 16384

noncomputable section

namespace Cert.Proof

open Idealize.ShloMosaic Idealize.ShloMosaic.TcCoe Idealize.SL.Sem

/-! ## The idealized kernel's run, with its result -/

section KernelSide
open Cert.KernelIdeal Cert.KernelIdeal.Gen

/-- Every weakly fair execution of the idealized kernel terminates, nothing faulting, with the returned buffer at the
    network of the stages at the launch arrays and the arguments unchanged. -/
theorem kernel_run (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v98) = Cert.Stages.classifier (F := Ideal) (Cert.Stages.sageLayer (F := Ideal) (Cert.Stages.sageLayer (F := Ideal) (m ((c : Thread nD τ).loc main_arg0)) (Cert.Stages.neighbourMean (F := Ideal) (m ((c : Thread nD τ).loc main_arg0)) (m ((c : Thread nD τ).loc main_arg2)) (m ((c : Thread nD τ).loc main_arg3))) (m ((c : Thread nD τ).loc main_arg6)) (m ((c : Thread nD τ).loc main_arg7)) (m ((c : Thread nD τ).loc main_arg8))) (Cert.Stages.neighbourMean (F := Ideal) (Cert.Stages.sageLayer (F := Ideal) (m ((c : Thread nD τ).loc main_arg0)) (Cert.Stages.neighbourMean (F := Ideal) (m ((c : Thread nD τ).loc main_arg0)) (m ((c : Thread nD τ).loc main_arg2)) (m ((c : Thread nD τ).loc main_arg3))) (m ((c : Thread nD τ).loc main_arg6)) (m ((c : Thread nD τ).loc main_arg7)) (m ((c : Thread nD τ).loc main_arg8))) (m ((c : Thread nD τ).loc main_arg2)) (m ((c : Thread nD τ).loc main_arg3))) (m ((c : Thread nD τ).loc main_arg9)) (m ((c : Thread nD τ).loc main_arg10)) (m ((c : Thread nD τ).loc main_arg11))) (Cert.Stages.sageLayer (F := Ideal) (Cert.Stages.sageLayer (F := Ideal) (m ((c : Thread nD τ).loc main_arg1)) (Cert.Stages.neighbourMean (F := Ideal) (m ((c : Thread nD τ).loc main_arg1)) (m ((c : Thread nD τ).loc main_arg4)) (m ((c : Thread nD τ).loc main_arg5))) (m ((c : Thread nD τ).loc main_arg12)) (m ((c : Thread nD τ).loc main_arg13)) (m ((c : Thread nD τ).loc main_arg14))) (Cert.Stages.neighbourMean (F := Ideal) (Cert.Stages.sageLayer (F := Ideal) (m ((c : Thread nD τ).loc main_arg1)) (Cert.Stages.neighbourMean (F := Ideal) (m ((c : Thread nD τ).loc main_arg1)) (m ((c : Thread nD τ).loc main_arg4)) (m ((c : Thread nD τ).loc main_arg5))) (m ((c : Thread nD τ).loc main_arg12)) (m ((c : Thread nD τ).loc main_arg13)) (m ((c : Thread nD τ).loc main_arg14))) (m ((c : Thread nD τ).loc main_arg4)) (m ((c : Thread nD τ).loc main_arg5))) (m ((c : Thread nD τ).loc main_arg15)) (m ((c : Thread nD τ).loc main_arg16)) (m ((c : Thread nD τ).loc main_arg17))) (m ((c : Thread nD τ).loc main_arg18)) (m ((c : Thread nD τ).loc main_arg19)) (m ((c : Thread nD τ).loc main_arg20)) (m ((c : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run Cert.KernelIdeal.defs _ _).mono (fun r h c =>
    ⟨(h c _ (mem_uc main_v98 (by decide))).trans (Cert.KernelIdeal.Walk.logits m ρ c),
      (h c _ (mem_uc main_arg0 (by decide))).trans (W14_main_arg0 m ρ c),
      (h c _ (mem_uc main_arg1 (by decide))).trans (W14_main_arg1 m ρ c),
      (h c _ (mem_uc main_arg2 (by decide))).trans (W14_main_arg2 m ρ c),
      (h c _ (mem_uc main_arg3 (by decide))).trans (W14_main_arg3 m ρ c),
      (h c _ (mem_uc main_arg4 (by decide))).trans (W14_main_arg4 m ρ c),
      (h c _ (mem_uc main_arg5 (by decide))).trans (W14_main_arg5 m ρ c),
      (h c _ (mem_uc main_arg6 (by decide))).trans (W14_main_arg6 m ρ c),
      (h c _ (mem_uc main_arg7 (by decide))).trans (W14_main_arg7 m ρ c),
      (h c _ (mem_uc main_arg8 (by decide))).trans (W14_main_arg8 m ρ c),
      (h c _ (mem_uc main_arg9 (by decide))).trans (W14_main_arg9 m ρ c),
      (h c _ (mem_uc main_arg10 (by decide))).trans (W14_main_arg10 m ρ c),
      (h c _ (mem_uc main_arg11 (by decide))).trans (W14_main_arg11 m ρ c),
      (h c _ (mem_uc main_arg12 (by decide))).trans (W14_main_arg12 m ρ c),
      (h c _ (mem_uc main_arg13 (by decide))).trans (W14_main_arg13 m ρ c),
      (h c _ (mem_uc main_arg14 (by decide))).trans (W14_main_arg14 m ρ c),
      (h c _ (mem_uc main_arg15 (by decide))).trans (W14_main_arg15 m ρ c),
      (h c _ (mem_uc main_arg16 (by decide))).trans (W14_main_arg16 m ρ c),
      (h c _ (mem_uc main_arg17 (by decide))).trans (W14_main_arg17 m ρ c),
      (h c _ (mem_uc main_arg18 (by decide))).trans (W14_main_arg18 m ρ c),
      (h c _ (mem_uc main_arg19 (by decide))).trans (W14_main_arg19 m ρ c),
      (h c _ (mem_uc main_arg20 (by decide))).trans (W14_main_arg20 m ρ c),
      (h c _ (mem_uc main_arg21 (by decide))).trans (W14_main_arg21 m ρ c)⟩)
    (Cert.KernelIdeal.Final.run_all m ρ)

end KernelSide

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the network of the stages at those arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.Stages.reference_result]
  unfold Cert.Stages.party
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
